-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v73)) (v2 : (c : Dev Cert.KernelIdeal.nD) → Buf (Elt Ideal) ((c.tc : Thread Cert.KernelIdeal.nD Cert.KernelIdeal.τ).loc Cert.KernelIdeal.main_v77)) (v3 : (c : Dev Cert.KernelIdeal.nD) → Buf (Elt Ideal) ((c.tc : Thread Cert.KernelIdeal.nD Cert.KernelIdeal.τ).loc Cert.KernelIdeal.main_v24)) (v4 : (c : Dev Cert.KernelIdeal.nD) → Buf (Elt Ideal) ((c.tc : Thread Cert.KernelIdeal.nD Cert.KernelIdeal.τ).loc Cert.KernelIdeal.main_v29)) (v5 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_v29) = v4 c
          ∧ r.2.mem ((c.tc : Thread Cert.KernelIdeal.nD Cert.KernelIdeal.τ).loc Cert.KernelIdeal.main_v69) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_v72) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x16 : Shape := ⟨2, ![2048, 16]⟩
abbrev S2048 : Shape := ⟨1, ![2048]⟩
abbrev S2048x2048 : Shape := ⟨2, ![2048, 2048]⟩
abbrev S1x2048 : Shape := ⟨2, ![1, 2048]⟩
abbrev S1 : Shape := ⟨1, ![1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x2048 .f32) (main_arg12 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S1x2048 .f32 := Host.absf main_arg11
  let main_cst_20 : FVec F S_ .f32 := constant S_ .f32 0x7F800000#32
  let main_v55 : FVec F S1x2048 .f32 := broadcastInDim S1x2048 ![] bcast_S_S1x2048 main_cst_20
  let main_v56 : IVec S1x2048 1 := cmpf .olt main_v54 main_v55
  let main_c_21 : IVec S_ 1 := constantI S_ 1 1#1
  let main_v57 : IVec S_ 1 := (fun x v => Host.reduce IntOp.andi x v reducesTo_S1x2048_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2048 .f32) (main_arg8 : FVec F S2048 .f32) (main_arg9 : FVec F S2048x2048 .f32) (main_arg10 : FVec F S2048 .f32) (main_arg11 : FVec F S1x2048 .f32) (main_arg12 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S2048x16 .f32) (main_arg6 : FVec F S2048x16 .f32) (main_arg7 : FVec F S2048 .f32) (main_arg8 : FVec F S2048 .f32) (main_arg9 : FVec F S2048x2048 .f32) (main_arg10 : FVec F S2048 .f32) (main_arg11 : FVec F S1x2048 .f32) (main_arg12 : FVec F S1 .f32) (main_v13 : IVec S_ 1) (main_v16 : IVec S2048x16 1) : IVec S_ 1 :=
  let main_c_5 : IVec S_ 1 := constantI S_ 1 1#1
  let main_v17 : IVec S_ 1 := (fun x v => Host.reduce IntOp.andi x v reducesTo_S2048x16_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x16 .f32 := Host.absf main_arg5
  let main_cst_8 : FVec F S_ .f32 := constant S_ .f32 0x7F800000#32
  let main_v25 : FVec F S2048x16 .f32 := broadcastInDim S2048x16 ![] bcast_S_S2048x16 main_cst_8
  let main_v26 : IVec S2048x16 1 := cmpf .olt main_v24 main_v25
  let main_c_9 : IVec S_ 1 := constantI S_ 1 1#1
  let main_v27 : IVec S_ 1 := (fun x v => Host.reduce IntOp.andi x v reducesTo_S2048x16_S_d0_1 h_S_) main_v26 main_c_9
  let main_v28 : IVec S_ 1 := andi main_v23 main_v27
  let main_v29 : FVec F S2048x16 .f32 := Host.absf main_arg6
  let main_cst_10 : FVec F S_ .f32 := constant S_ .f32 0x7F800000#32
  let main_v30 : FVec F S2048x16 .f32 := broadcastInDim S2048x16 ![] bcast_S_S2048x16 main_cst_10
  let main_v31 : IVec S2048x16 1 := cmpf .olt main_v29 main_v30
  let main_c_11 : IVec S_ 1 := constantI S_ 1 1#1
  let main_v32 : IVec S_ 1 := (fun x v => Host.reduce IntOp.andi x v reducesTo_S2048x16_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x2048 .f32) (main_arg1 : FVec F S16384x2048 .f32) (main_arg2 : FVec F S2048x16 .f32) (main_arg3 : FVec F S2048x16 .f32) (main_arg4 : FVec F S2048 .f32) (main_arg5 : FVec F S2048x16 .f32) (main_arg6 : FVec F S2048x16 .f32) (main_arg7 : FVec F S2048 .f32) (main_arg8 : FVec F S2048 .f32) (main_arg9 : FVec F S2048x2048 .f32) (main_arg10 : FVec F S2048 .f32) (main_arg11 : FVec F S1x2048 .f32) (main_arg12 : FVec F S1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S2048x16 .f32 := Host.absf main_arg3
  let main_cst_4 : FVec F S_ .f32 := constant S_ .f32 0x7F800000#32
  let main_v15 : FVec F S2048x16 .f32 := broadcastInDim S2048x16 ![] bcast_S_S2048x16 main_cst_4
  let main_v16 : IVec S2048x16 1 := cmpf .olt main_v14 main_v15
  fn_part1 (F := F) main_arg4 main_arg5 main_arg6 main_arg7 main_arg8 main_arg9 main_arg10 main_arg11 main_arg12 main_v13 main_v16
-- ==== Kernel.lean ====
abbrev S16384x2048 : Shape := ⟨2, ![16384, 2048]⟩
abbrev S2048x16 : Shape := ⟨2, ![2048, 16]⟩
abbrev S2048 : Shape := ⟨1, ![2048]⟩
abbrev S2048x2048 : Shape := ⟨2, ![2048, 2048]⟩
abbrev S1x2048 : Shape := ⟨2, ![1, 2048]⟩
abbrev S1 : Shape := ⟨1, ![1]⟩
abbrev S16x2048 : Shape := ⟨2, ![16, 2048]⟩
abbrev S_ : Shape := ⟨0, ![]⟩
abbrev S2048x1 : Shape := ⟨2, ![2048, 1]⟩
abbrev S2x2048x2048 : Shape := ⟨3, ![2, 2048, 2048]⟩
abbrev S2x1x2048 : Shape := ⟨3, ![2, 1, 2048]⟩
abbrev S256x2048 : Shape := ⟨2, ![256, 2048]⟩
abbrev S1x2048x2048 : Shape := ⟨3, ![1, 2048, 2048]⟩
abbrev S1x1x2048 : Shape := ⟨3, ![1, 1, 2048]⟩
abbrev S256x128 : Shape := ⟨2, ![256, 128]⟩
abbrev S2048x128 : Shape := ⟨2, ![2048, 128]⟩
abbrev S1x2048x128 : Shape := ⟨3, ![1, 2048, 128]⟩
abbrev S1x1 : Shape := ⟨2, ![1, 1]⟩

abbrev nBuf : Space → Nat
  | .hbm => 132
  | .vmem => 9
  | .smem => 0
  | _ => 0

abbrev hbmTy0_0 (i : Nat) : BufTy := match i % 128 with
  | 0 => ⟨S16384x2048, .f32⟩
  | 1 => ⟨S16384x2048, .f32⟩
  | 2 => ⟨S2048x16, .f32⟩
  | 3 => ⟨S2048x16, .f32⟩
  | 4 => ⟨S2048, .f32⟩
  | 5 => ⟨S2048x16, .f32⟩
  | 6 => ⟨S2048x16, .f32⟩
  | 7 => ⟨S2048, .f32⟩
  | 8 => ⟨S2048, .f32⟩
  | 9 => ⟨S2048x2048, .f32⟩
  | 10 => ⟨S2048, .f32⟩
  | 11 => ⟨S1x2048, .f32⟩
  | 12 => ⟨S1, .f32⟩
  | 13 => ⟨S16x2048, .f32⟩
  | 14 => ⟨S2048x2048, .f32⟩
  | 15 => ⟨S2048x2048, .f32⟩
  | 16 => ⟨S_, .f32⟩
  | 17 => ⟨S2048x2048, .f32⟩
  | 18 => ⟨S2048x2048, .f32⟩
  | 19 => ⟨S_, .f32⟩
  | 20 => ⟨S2048, .f32⟩
  | 21 => ⟨S2048x2048, .i32⟩
  | 22 => ⟨S2048x2048, .i32⟩
  | 23 => ⟨S_, .i32⟩
  | 24 => ⟨S2048x2048, .i32⟩
  | 25 => ⟨S2048x2048, .i32⟩
  | 26 => ⟨S2048x2048, .i1⟩
  | 27 => ⟨S2048x1, .f32⟩
  | 28 => ⟨S_, .f32⟩
  | 29 => ⟨S2048x2048, .f32⟩
  | 30 => ⟨S2048x2048, .f32⟩
  | 31 => ⟨S2048x2048, .f32⟩
  | 32 => ⟨S2048x2048, .f32⟩
  | 33 => ⟨S2048x2048, .bf16⟩
  | 34 => ⟨S16384x2048, .f32⟩
  | 35 => ⟨S2x2048x2048, .f32⟩
  | 36 => ⟨S2x1x2048, .f32⟩
  | 37 => ⟨S_, .f32⟩
  | 38 => ⟨S2048x2048, .f32⟩
  | 39 => ⟨S_, .f32⟩
  | 40 => ⟨S1x2048, .f32⟩
  | 41 => ⟨S2048x2048, .f32⟩
  | 42 => ⟨S_, .f32⟩
  | 43 => ⟨S2048x2048, .f32⟩
  | 44 => ⟨S2048x2048, .f32⟩
  | 45 => ⟨S_, .f32⟩
  | 46 => ⟨S2048x2048, .f32⟩
  | 47 => ⟨S2048x2048, .f32⟩
  | 48 => ⟨S2048x2048, .f32⟩
  | 49 => ⟨S2048x16, .f32⟩
  | 50 => ⟨S2048x2048, .f32⟩
  | 51 => ⟨S2048x16, .f32⟩
  | 52 => ⟨S_, .f32⟩
  | 53 => ⟨S2048x16, .f32⟩
  | 54 => ⟨S2048x16, .f32⟩
  | 55 => ⟨S_, .f32⟩
  | 56 => ⟨S2048x16, .f32⟩
  | 57 => ⟨S2048x16, .f32⟩
  | 58 => ⟨S2048x16, .f32⟩
  | 59 => ⟨S_, .f32⟩
  | 60 => ⟨S2048x16, .f32⟩
  | 61 => ⟨S2048x16, .f32⟩
  | 62 => ⟨S_, .f32⟩
  | 63 => ⟨S2048x16, .f32⟩
  | 64 => ⟨S2048x16, .f32⟩
  | 65 => ⟨S2048x16, .f32⟩
  | 66 => ⟨S_, .f32⟩
  | 67 => ⟨S1x2048, .f32⟩
  | 68 => ⟨S1x2048, .f32⟩
  | 69 => ⟨S_, .f32⟩
  | 70 => ⟨S1, .f32⟩
  | 71 => ⟨S1x1, .f32⟩
  | 72 => ⟨S_, .f32⟩
  | 73 => ⟨S1x1, .f32⟩
  | 74 => ⟨S1x1, .f32⟩
  | 75 => ⟨S1x2048, .f32⟩
  | 76 => ⟨S1x2048, .f32⟩
  | 77 => ⟨S1x2048, .f32⟩
  | 78 => ⟨S_, .f32⟩
  | 79 => ⟨S1, .f32⟩
  | 80 => ⟨S1x1, .f32⟩
  | 81 => ⟨S_, .f32⟩
  | 82 => ⟨S1x1, .f32⟩
  | 83 => ⟨S1x1, .f32⟩
  | 84 => ⟨S1x2048, .f32⟩
  | 85 => ⟨S1x2048, .f32⟩
  | 86 => ⟨S_, .f32⟩
  | 87 => ⟨S1x1, .f32⟩
  | 88 => ⟨S1x1, .f32⟩
  | 89 => ⟨S1x1, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S2048x2048, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S2048x1, .f32⟩
  | 110 => ⟨S1x1, .f32⟩
  | 111 => ⟨S1x1, .f32⟩
  | 112 => ⟨S1x1, .f32⟩
  | 113 => ⟨S1x1, .f32⟩
  | 114 => ⟨S1x1, .f32⟩
  | 115 => ⟨S_, .f32⟩
  | 116 => ⟨S1x1, .f32⟩
  | 117 => ⟨S1x1, .f32⟩
  | 118 => ⟨S_, .f32⟩
  | 119 => ⟨S1x1, .f32⟩
  | 120 => ⟨S1x1, .f32⟩
  | 121 => ⟨S_, .f32⟩
  | 122 => ⟨S_, .f32⟩
  | 123 => ⟨S_, .f32⟩
  | 124 => ⟨S2048x16, .f32⟩
  | 125 => ⟨S2048x16, .f32⟩
  | 126 => ⟨S2048x16, .f32⟩
  | 127 => ⟨S_, .f32⟩
  | _ => ⟨S16384x2048, .f32⟩

abbrev hbmTy0_1 (i : Nat) : BufTy := match i % 128 with
  | 0 => ⟨S_, .f32⟩
  | 1 => ⟨S2048x16, .f32⟩
  | 2 => ⟨S2048x16, .f32⟩
  | 3 => ⟨S2048x16, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048x2048, .f32⟩
  | .local _ .vmem, ⟨8, _⟩ => ⟨S1x1x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_c : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_0 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8_0 : Ref sig .tc := ⟨.hbm, 34, rfl⟩
abbrev main_v8_1 : Ref sig .tc := ⟨.hbm, 35, rfl⟩
abbrev main_v8_2 : Ref sig .tc := ⟨.hbm, 36, rfl⟩
abbrev main_cst_0 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_4 : Ref sig .tc := ⟨.hbm, 52, rfl⟩
abbrev main_v20 : Ref sig .tc := ⟨.hbm, 53, rfl⟩
abbrev main_v21 : Ref sig .tc := ⟨.hbm, 54, rfl⟩
abbrev main_cst_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_6 : Ref sig .tc := ⟨.hbm, 59, rfl⟩
abbrev main_v25 : Ref sig .tc := ⟨.hbm, 60, rfl⟩
abbrev main_v26 : Ref sig .tc := ⟨.hbm, 61, rfl⟩
abbrev main_cst_7 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_8 : Ref sig .tc := ⟨.hbm, 66, rfl⟩
abbrev main_v30 : Ref sig .tc := ⟨.hbm, 67, rfl⟩
abbrev main_v31 : Ref sig .tc := ⟨.hbm, 68, rfl⟩
abbrev main_cst_9 : Ref sig .tc := ⟨.hbm, 69, rfl⟩
abbrev main_v32 : Ref sig .tc := ⟨.hbm, 70, rfl⟩
abbrev main_v33 : Ref sig .tc := ⟨.hbm, 71, rfl⟩
abbrev main_cst_10 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_11 : Ref sig .tc := ⟨.hbm, 78, rfl⟩
abbrev main_v39 : Ref sig .tc := ⟨.hbm, 79, rfl⟩
abbrev main_v40 : Ref sig .tc := ⟨.hbm, 80, rfl⟩
abbrev main_cst_12 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_13 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_14 : Ref sig .tc := ⟨.hbm, 115, rfl⟩
abbrev main_v65 : Ref sig .tc := ⟨.hbm, 116, rfl⟩
abbrev main_v66 : Ref sig .tc := ⟨.hbm, 117, rfl⟩
abbrev main_cst_15 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_16 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_17 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  transposes_S2048x16_S16x2048_1_0 : S2048x16.Transposes [1, 0] S16x2048
  bcast_S_S2048x2048 : S_.BroadcastsInDim S2048x2048 (![] : Fin 0 → Fin S2048x2048.rank)
  pads_S2048_S2048_000 : S2048.Pads (![0] : Fin 1 → Nat) ![0] ![0] S2048
  h_S_ : 0 < S_.numel
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bitsLt_bf16_f32 : FTy.bits .bf16 < FTy.bits .f32
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S2048x2048_S1x2048x2048 : S2048x2048.ShapeCasts S1x2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S256x2048_o0_0_S256x128 : S256x2048.Slices ![0, 0] S256x128
  inb_S1x2048x2048_S1x2048x128_0_0_0 : ∀ a, (![0, 0, 0] : Fin 3 → Nat) a + S1x2048x128.size a ≤ S1x2048x2048.size a
  h_S1x2048x128 : 0 < S1x2048x128.numel
  shapeCasts_S1x2048x128_S2048x128 : S1x2048x128.ShapeCasts S2048x128
  shapeCasts_S2048x128_S1x2048x128 : S2048x128.ShapeCasts S1x2048x128
  slices_S256x2048_o0_128_S256x128 : S256x2048.Slices ![0, 128] S256x128
  inb_S1x2048x2048_S1x2048x128_0_0_128 : ∀ a, (![0, 0, 128] : Fin 3 → Nat) a + S1x2048x128.size a ≤ S1x2048x2048.size a
  slices_S256x2048_o0_256_S256x128 : S256x2048.Slices ![0, 256] S256x128
  inb_S1x2048x2048_S1x2048x128_0_0_256 : ∀ a, (![0, 0, 256] : Fin 3 → Nat) a + S1x2048x128.size a ≤ S1x2048x2048.size a
  slices_S256x2048_o0_384_S256x128 : S256x2048.Slices ![0, 384] S256x128
  inb_S1x2048x2048_S1x2048x128_0_0_384 : ∀ a, (![0, 0, 384] : Fin 3 → Nat) a + S1x2048x128.size a ≤ S1x2048x2048.size a
  slices_S256x2048_o0_512_S256x128 : S256x2048.Slices ![0, 512] S256x128
  inb_S1x2048x2048_S1x2048x128_0_0_512 : ∀ a, (![0, 0, 512] : Fin 3 → Nat) a + S1x2048x128.size a ≤ S1x2048x2048.size a
  slices_S256x2048_o0_640_S256x128 : S256x2048.Slices ![0, 640] S256x128
  inb_S1x2048x2048_S1x2048x128_0_0_640 : ∀ a, (![0, 0, 640] : Fin 3 → Nat) a + S1x2048x128.size a ≤ S1x2048x2048.size a
  slices_S256x2048_o0_768_S256x128 : S256x2048.Slices ![0, 768] S256x128
  inb_S1x2048x2048_S1x2048x128_0_0_768 : ∀ a, (![0, 0, 768] : Fin 3 → Nat) a + S1x2048x128.size a ≤ S1x2048x2048.size a
  slices_S256x2048_o0_896_S256x128 : S256x2048.Slices ![0, 896] S256x128
  inb_S1x2048x2048_S1x2048x128_0_0_896 : ∀ a, (![0, 0, 896] : Fin 3 → Nat) a + S1x2048x128.size a ≤ S1x2048x2048.size a
  slices_S256x2048_o0_1024_S256x128 : S256x2048.Slices ![0, 1024] S256x128
  inb_S1x2048x2048_S1x2048x128_0_0_1024 : ∀ a, (![0, 0, 1024] : Fin 3 → Nat) a + S1x2048x128.size a ≤ S1x2048x2048.size a
  slices_S256x2048_o0_1152_S256x128 : S256x2048.Slices ![0, 1152] S256x128
  inb_S1x2048x2048_S1x2048x128_0_0_1152 : ∀ a, (![0, 0, 1152] : Fin 3 → Nat) a + S1x2048x128.size a ≤ S1x2048x2048.size a
  slices_S256x2048_o0_1280_S256x128 : S256x2048.Slices ![0, 1280] S256x128
  inb_S1x2048x2048_S1x2048x128_0_0_1280 : ∀ a, (![0, 0, 1280] : Fin 3 → Nat) a + S1x2048x128.size a ≤ S1x2048x2048.size a
  slices_S256x2048_o0_1408_S256x128 : S256x2048.Slices ![0, 1408] S256x128
  inb_S1x2048x2048_S1x2048x128_0_0_1408 : ∀ a, (![0, 0, 1408] : Fin 3 → Nat) a + S1x2048x128.size a ≤ S1x2048x2048.size a
  slices_S256x2048_o0_1536_S256x128 : S256x2048.Slices ![0, 1536] S256x128
  inb_S1x2048x2048_S1x2048x128_0_0_1536 : ∀ a, (![0, 0, 1536] : Fin 3 → Nat) a + S1x2048x128.size a ≤ S1x2048x2048.size a
  slices_S256x2048_o0_1664_S256x128 : S256x2048.Slices ![0, 1664] S256x128
  inb_S1x2048x2048_S1x2048x128_0_0_1664 : ∀ a, (![0, 0, 1664] : Fin 3 → Nat) a + S1x2048x128.size a ≤ S1x2048x2048.size a
  slices_S256x2048_o0_1792_S256x128 : S256x2048.Slices ![0, 1792] S256x128
  inb_S1x2048x2048_S1x2048x128_0_0_1792 : ∀ a, (![0, 0, 1792] : Fin 3 → Nat) a + S1x2048x128.size a ≤ S1x2048x2048.size a
  slices_S256x2048_o0_1920_S256x128 : S256x2048.Slices ![0, 1920] S256x128
  inb_S1x2048x2048_S1x2048x128_0_0_1920 : ∀ a, (![0, 0, 1920] : Fin 3 → Nat) a + S1x2048x128.size a ≤ S1x2048x2048.size a
  reduces_S256x2048_S2048 : S256x2048.Reduces [0] S2048
  shapeCasts_S2048_S1x2048 : S2048.ShapeCasts S1x2048
  reducesTo_S2x2048x2048_S2048x2048_d0 : S2x2048x2048.ReducesTo [0] S2048x2048
  reducesTo_S2x1x2048_S1x2048_d0 : S2x1x2048.ReducesTo [0] S1x2048
  transposes_S2048x2048_S2048x2048_1_0 : S2048x2048.Transposes [1, 0] S2048x2048
  bcast_S_S2048x16 : S_.BroadcastsInDim S2048x16 (![] : Fin 0 → Fin S2048x16.rank)
  bcast_S_S1x2048 : S_.BroadcastsInDim S1x2048 (![] : Fin 0 → Fin S1x2048.rank)
  reducesTo_S1x2048_S1_d1 : S1x2048.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x2048_0_1 : S1x1.BroadcastsInDim S1x2048 (![0, 1] : Fin 2 → Fin S1x2048.rank)
  bcast_S2048_S1x2048_1 : S2048.BroadcastsInDim S1x2048 (![1] : Fin 1 → Fin S1x2048.rank)
  transposes_S1x2048_S2048x1_1_0 : S1x2048.Transposes [1, 0] S2048x1
  bcast_S1_S1x1_1 : S1.BroadcastsInDim S1x1 (![1] : Fin 1 → Fin S1x1.rank)
  shapeCasts_S1x1_S_ : S1x1.ShapeCasts S_
  dot_S2048x16_S16x2048_S2048x2048_1_0_0_1_n_n_wf : DotDims.WF S2048x16 S16x2048 S2048x2048 [1] [0] [0] [1] [] []
  dot_S256x2048_S2048x2048_S256x2048_1_1_0_0_n_n_wf : DotDims.WF S256x2048 S2048x2048 S256x2048 [1] [1] [0] [0] [] []
  dot_S256x2048_S256x128_S2048x128_0_0_1_1_n_n_wf : DotDims.WF S256x2048 S256x128 S2048x128 [0] [0] [1] [1] [] []
  dot_S2048x2048_S2048x16_S2048x16_1_0_0_1_n_n_wf : DotDims.WF S2048x2048 S2048x16 S2048x16 [1] [0] [0] [1] [] []
  dot_S1x2048_S2048x2048_S1x2048_1_0_0_1_n_n_wf : DotDims.WF S1x2048 S2048x2048 S1x2048 [1] [0] [0] [1] [] []
  dot_S1x2048_S2048x1_S1x1_1_0_0_1_n_n_wf : DotDims.WF S1x2048 S2048x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x2048.size a
  hwx0_3 : ∀ i : grid0.Coords, EltTy.bits .f32 = 32 ∨ (Rect.block (s := S16384x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048x2048.size a ≤ S2x2048x2048.size a
  hwx0_4 : ∀ i : grid0.Coords, EltTy.bits .f32 = 32 ∨ (Rect.block (s := S2x2048x2048) S1x2048x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S2x1x2048.size a
  hwx0_5 : ∀ i : grid0.Coords, EltTy.bits .f32 = 32 ∨ (Rect.block (s := S2x1x2048) S1x1x2048.size (cc0_transform_5 i) (hinb0_5 i)).WholeWords (EltTy.packing .f32)

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S256x128_S2048x128_0_0_1_1_n_n : DotDims S256x2048 S256x128 S2048x128 where
  lhsContracting := [0]
  rhsContracting := [0]
  lhsNonContracting := [1]
  rhsNonContracting := [1]
  lhsBatch := []
  rhsBatch := []
  wf := dot_S256x2048_S256x128_S2048x128_0_0_1_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x2048x2048.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1x1x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x16 : Shape := ⟨2, ![2048, 16]⟩
abbrev S2048 : Shape := ⟨1, ![2048]⟩
abbrev S2048x2048 : Shape := ⟨2, ![2048, 2048]⟩
abbrev S1x2048 : Shape := ⟨2, ![1, 2048]⟩
abbrev S1 : Shape := ⟨1, ![1]⟩
abbrev S16x2048 : Shape := ⟨2, ![16, 2048]⟩
abbrev S_ : Shape := ⟨0, ![]⟩
abbrev S2048x1 : Shape := ⟨2, ![2048, 1]⟩
abbrev S2048x16384 : Shape := ⟨2, ![2048, 16384]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S16384x2048, .f32⟩
  | 1 => ⟨S16384x2048, .f32⟩
  | 2 => ⟨S2048x16, .f32⟩
  | 3 => ⟨S2048x16, .f32⟩
  | 4 => ⟨S2048, .f32⟩
  | 5 => ⟨S2048x16, .f32⟩
  | 6 => ⟨S2048x16, .f32⟩
  | 7 => ⟨S2048, .f32⟩
  | 8 => ⟨S2048, .f32⟩
  | 9 => ⟨S2048x2048, .f32⟩
  | 10 => ⟨S2048, .f32⟩
  | 11 => ⟨S1x2048, .f32⟩
  | 12 => ⟨S1, .f32⟩
  | 13 => ⟨S16x2048, .f32⟩
  | 14 => ⟨S2048x2048, .f32⟩
  | 15 => ⟨S2048x2048, .f32⟩
  | 16 => ⟨S_, .f32⟩
  | 17 => ⟨S2048x2048, .f32⟩
  | 18 => ⟨S2048x2048, .f32⟩
  | 19 => ⟨S_, .f32⟩
  | 20 => ⟨S2048, .f32⟩
  | 21 => ⟨S2048x2048, .i32⟩
  | 22 => ⟨S2048x2048, .i32⟩
  | 23 => ⟨S_, .i32⟩
  | 24 => ⟨S2048x2048, .i32⟩
  | 25 => ⟨S2048x2048, .i32⟩
  | 26 => ⟨S2048x2048, .i1⟩
  | 27 => ⟨S2048x1, .f32⟩
  | 28 => ⟨S_, .f32⟩
  | 29 => ⟨S2048x2048, .f32⟩
  | 30 => ⟨S2048x2048, .f32⟩
  | 31 => ⟨S2048x2048, .f32⟩
  | 32 => ⟨S2048x2048, .f32⟩
  | 33 => ⟨S2048x2048, .f32⟩
  | 34 => ⟨S16384x2048, .f32⟩
  | 35 => ⟨S16384x2048, .f32⟩
  | 36 => ⟨S2048x16384, .f32⟩
  | 37 => ⟨S2048x2048, .f32⟩
  | 38 => ⟨S2048x2048, .f32⟩
  | 39 => ⟨S_, .f32⟩
  | 40 => ⟨S2048x2048, .f32⟩
  | 41 => ⟨S2048x2048, .f32⟩
  | 42 => ⟨S_, .f32⟩
  | 43 => ⟨S2048x2048, .f32⟩
  | 44 => ⟨S2048x2048, .f32⟩
  | 45 => ⟨S2048x2048, .f32⟩
  | 46 => ⟨S2048x16, .f32⟩
  | 47 => ⟨S2048x2048, .f32⟩
  | 48 => ⟨S2048x16, .f32⟩
  | 49 => ⟨S_, .f32⟩
  | 50 => ⟨S2048x16, .f32⟩
  | 51 => ⟨S2048x16, .f32⟩
  | 52 => ⟨S_, .f32⟩
  | 53 => ⟨S2048x16, .f32⟩
  | 54 => ⟨S2048x16, .f32⟩
  | 55 => ⟨S2048x16, .f32⟩
  | 56 => ⟨S_, .f32⟩
  | 57 => ⟨S2048x16, .f32⟩
  | 58 => ⟨S2048x16, .f32⟩
  | 59 => ⟨S_, .f32⟩
  | 60 => ⟨S2048x16, .f32⟩
  | 61 => ⟨S2048x16, .f32⟩
  | 62 => ⟨S2048x16, .f32⟩
  | 63 => ⟨S_, .f32⟩
  | 64 => ⟨S2048, .f32⟩
  | 65 => ⟨S1x2048, .f32⟩
  | 66 => ⟨S_, .f32⟩
  | 67 => ⟨S1x2048, .f32⟩
  | 68 => ⟨S1x2048, .f32⟩
  | 69 => ⟨S_, .f32⟩
  | 70 => ⟨S1, .f32⟩
  | 71 => ⟨S1x1, .f32⟩
  | 72 => ⟨S_, .f32⟩
  | 73 => ⟨S1x1, .f32⟩
  | 74 => ⟨S1x1, .f32⟩
  | 75 => ⟨S1x2048, .f32⟩
  | 76 => ⟨S1x2048, .f32⟩
  | 77 => ⟨S1x2048, .f32⟩
  | 78 => ⟨S_, .f32⟩
  | 79 => ⟨S1, .f32⟩
  | 80 => ⟨S1x1, .f32⟩
  | 81 => ⟨S_, .f32⟩
  | 82 => ⟨S1x1, .f32⟩
  | 83 => ⟨S1x1, .f32⟩
  | 84 => ⟨S1x2048, .f32⟩
  | 85 => ⟨S1x2048, .f32⟩
  | 86 => ⟨S_, .f32⟩
  | 87 => ⟨S1x1, .f32⟩
  | 88 => ⟨S1x1, .f32⟩
  | 89 => ⟨S1x1, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S2048x2048, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S_, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S2048x1, .f32⟩
  | 110 => ⟨S1x1, .f32⟩
  | 111 => ⟨S1x1, .f32⟩
  | 112 => ⟨S1x1, .f32⟩
  | 113 => ⟨S1x1, .f32⟩
  | 114 => ⟨S1x1, .f32⟩
  | 115 => ⟨S_, .f32⟩
  | 116 => ⟨S1x1, .f32⟩
  | 117 => ⟨S1x1, .f32⟩
  | 118 => ⟨S_, .f32⟩
  | 119 => ⟨S1x1, .f32⟩
  | 120 => ⟨S1x1, .f32⟩
  | 121 => ⟨S_, .f32⟩
  | 122 => ⟨S_, .f32⟩
  | 123 => ⟨S_, .f32⟩
  | 124 => ⟨S2048x16, .f32⟩
  | 125 => ⟨S2048x16, .f32⟩
  | 126 => ⟨S2048x16, .f32⟩
  | 127 => ⟨S_, .f32⟩
  | _ => ⟨S16384x2048, .f32⟩

abbrev hbmTy0_1 (i : Nat) : BufTy := match i % 128 with
  | 0 => ⟨S_, .f32⟩
  | 1 => ⟨S2048x16, .f32⟩
  | 2 => ⟨S2048x16, .f32⟩
  | 3 => ⟨S2048x16, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_c : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_0 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_2 : Ref sig .tc := ⟨.hbm, 49, rfl⟩
abbrev main_v21 : Ref sig .tc := ⟨.hbm, 50, rfl⟩
abbrev main_v22 : Ref sig .tc := ⟨.hbm, 51, rfl⟩
abbrev main_cst_3 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_4 : Ref sig .tc := ⟨.hbm, 56, rfl⟩
abbrev main_v26 : Ref sig .tc := ⟨.hbm, 57, rfl⟩
abbrev main_v27 : Ref sig .tc := ⟨.hbm, 58, rfl⟩
abbrev main_cst_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_cst_9 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_10 : Ref sig .tc := ⟨.hbm, 78, rfl⟩
abbrev main_v42 : Ref sig .tc := ⟨.hbm, 79, rfl⟩
abbrev main_v43 : Ref sig .tc := ⟨.hbm, 80, rfl⟩
abbrev main_cst_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_12 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_13 : Ref sig .tc := ⟨.hbm, 115, rfl⟩
abbrev main_v68 : Ref sig .tc := ⟨.hbm, 116, rfl⟩
abbrev main_v69 : Ref sig .tc := ⟨.hbm, 117, rfl⟩
abbrev main_cst_14 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_15 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_16 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩

abbrev nD : Nat := 1
abbrev τ : Topo := Topo.v7x

variable {F : FTy → Type} [FloatOps F]

class Facts₀ : Prop where
  transposes_S2048x16_S16x2048_1_0 : S2048x16.Transposes [1, 0] S16x2048
  bcast_S_S2048x2048 : S_.BroadcastsInDim S2048x2048 (![] : Fin 0 → Fin S2048x2048.rank)
  pads_S2048_S2048_000 : S2048.Pads (![0] : Fin 1 → Nat) ![0] ![0] S2048
  h_S_ : 0 < S_.numel
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  transposes_S2048x2048_S2048x2048_1_0 : S2048x2048.Transposes [1, 0] S2048x2048
  transposes_S16384x2048_S2048x16384_1_0 : S16384x2048.Transposes [1, 0] S2048x16384
  bcast_S_S2048x16 : S_.BroadcastsInDim S2048x16 (![] : Fin 0 → Fin S2048x16.rank)
  reducesTo_S16384x2048_S2048_d0 : S16384x2048.ReducesTo [0] S2048
  bcast_S2048_S1x2048_1 : S2048.BroadcastsInDim S1x2048 (![1] : Fin 1 → Fin S1x2048.rank)
  bcast_S_S1x2048 : S_.BroadcastsInDim S1x2048 (![] : Fin 0 → Fin S1x2048.rank)
  reducesTo_S1x2048_S1_d1 : S1x2048.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x2048_0_1 : S1x1.BroadcastsInDim S1x2048 (![0, 1] : Fin 2 → Fin S1x2048.rank)
  transposes_S1x2048_S2048x1_1_0 : S1x2048.Transposes [1, 0] S2048x1
  bcast_S1_S1x1_1 : S1.BroadcastsInDim S1x1 (![1] : Fin 1 → Fin S1x1.rank)
  shapeCasts_S1x1_S_ : S1x1.ShapeCasts S_
  dot_S2048x16_S16x2048_S2048x2048_1_0_0_1_n_n_wf : DotDims.WF S2048x16 S16x2048 S2048x2048 [1] [0] [0] [1] [] []
  dot_S16384x2048_S2048x2048_S16384x2048_1_0_0_1_n_n_wf : DotDims.WF S16384x2048 S2048x2048 S16384x2048 [1] [0] [0] [1] [] []
  dot_S2048x16384_S16384x2048_S2048x2048_1_0_0_1_n_n_wf : DotDims.WF S2048x16384 S16384x2048 S2048x2048 [1] [0] [0] [1] [] []
  dot_S2048x2048_S2048x16_S2048x16_1_0_0_1_n_n_wf : DotDims.WF S2048x2048 S2048x16 S2048x16 [1] [0] [0] [1] [] []
  dot_S1x2048_S2048x2048_S1x2048_1_0_0_1_n_n_wf : DotDims.WF S1x2048 S2048x2048 S1x2048 [1] [0] [0] [1] [] []
  dot_S1x2048_S2048x1_S1x1_1_0_0_1_n_n_wf : DotDims.WF S1x2048 S2048x1 S1x1 [1] [0] [0] [1] [] []

variable [Facts₀]

def dot_S2048x16_S16x2048_S2048x2048_1_0_0_1_n_n : DotDims S2048x16 S16x2048 S2048x2048 where
  lhsContracting := [1]
  rhsContracting := [0]
  lhsNonContracting := [0]
  rhsNonContracting := [1]
  lhsBatch := []
  rhsBatch := []
  wf := dot_S2048x16_S16x2048_S2048x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S2048x16384_S16384x2048_S2048x2048_1_0_0_1_n_n : DotDims S2048x16384 S16384x2048 S2048x2048 where
  lhsContracting := [1]
  rhsContracting := [0]
  lhsNonContracting := [0]
  rhsNonContracting := [1]
  lhsBatch := []
  rhsBatch := []
  wf := dot_S2048x16384_S16384x2048_S2048x2048_1_0_0_1_n_n_wf
def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf

class Facts : Prop extends Facts₀ where

variable [Facts]
-- ==== Proof.K.Kit.lean ====
/-
  The host side of the kernel program's run around its one region, and the windows' blocks.
  Before the region the program builds W = 0.1 · tanh(B Cᵀ) + diag(D) and rounds it to bf16; after it, it sums the
  two per-core partial results and finishes the update. What each buffer holds when the region is entered is the
  fold of the earlier operations over the launch memory (kept folded); the argument arrays are written by no
  operation, before or after the region.
-/
import proofs.«160550_j61804579389940_2_alg».proof.Proof.Gen.Kernel.Launch
import proofs.«160550_j61804579389940_2_alg».proof.Proof.Gen.Kernel.Skeleton
import proofs.«160550_j61804579389940_2_alg».proof.Proof.Gen.Kernel.Points
import Idealize.ShloMosaic.Lib.Pipeline.FrameBody
import Idealize.ShloMosaic.Lib.Ring
import Idealize.ShloMosaic.Lib.Tactic
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The operations before the region, in their three stretches. -/
abbrev pfx : List (List (HloOp τ sig (Elt F))) := [hostOps0, hostOps0_1, hostOps0_2]
/-- The operations after the region, in their three stretches. -/
abbrev sfx : List (List (HloOp τ sig (Elt F))) := [hostOps1, hostOps1_1, hostOps1_2]

/-- Core `c`'s buffer contents when the region is entered: after the operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is host lines, the region, host lines: it reduces to the region continued by the later lines, at the
    contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch the pipeline's arrays and the bypassing buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of a stretch writes an array of the pipeline: each writes its own result buffer, which is none. -/
theorem keeps_of (ops : List (HloOp τ sig (Elt F)))
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl | rfl | rfl
  · exact keeps_of _ hostOps1_keeps
  · exact keeps_of _ hostOps1_1_keeps
  · exact keeps_of _ hostOps1_2_keeps

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)

/-- One staging buffer of each output window, through which its contents are stated. -/
abbrev VO0_3 : View sig .tc .vmem S256x2048 .f32 := (Memref.whole cc0_stg3_0 : Memref sig .tc .vmem S256x2048 .f32).view
abbrev VO0_4 : View sig .tc .vmem S1x2048x2048 .f32 := (Memref.whole cc0_stg4_0 : Memref sig .tc .vmem S1x2048x2048 .f32).view
abbrev VO0_5 : View sig .tc .vmem S1x1x2048 .f32 := (Memref.whole cc0_stg5_0 : Memref sig .tc .vmem S1x1x2048 .f32).view

end Cert.Kernel.Hand

end
-- ==== Proof.K.Cond.lean ====
/- The one branch condition of the kernel body, as a proposition over the grid coordinates, and the
   grid points at which it holds. -/
import proofs.«160550_j61804579389940_2_alg».proof.Proof.Gen.Kernel.Launch
import proofs.«160550_j61804579389940_2_alg».proof.Proof.Gen.Kernel.Skeleton
import proofs.«160550_j61804579389940_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one conditional: grid coordinate 1 is 0 (the scalar chain of the
    skeleton: compare with 0, extend, compare with 0). -/
abbrev cond0_0 (i : grid0.Coords) : Prop := (Scalar.cmpi .ne (Scalar.extui (Scalar.cmpi .eq (BitVec.ofNat 32 (i 1).val) 0#32)) 0#32) = 1#1

/-- The grid is [2, 32], row-major: coordinate 1 of point `t` is `t % 32`, so the condition holds
    exactly at the points `t` with `t % 32 = 0`. -/
theorem hcond0_0 : ∀ t : Fin cfg0.N, cond0_0 (grid0.coords t) ↔ t.val % 32 = 0 :=
  (by decide +kernel : ∀ t : Fin grid0.N, cond0_0 (grid0.coords t) ↔ t.val % 32 = 0)

end Cert.Kernel.Hand

end
-- ==== Proof.K.RunA.lean ====
/- The run of the kernel body in the case where its one conditional is taken (grid coordinate 1 is 0: both
   accumulators are reset before the body accumulates into them). -/
import proofs.«160550_j61804579389940_2_alg».proof.Proof.K.Cond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's buffer, as pieces (last first), IN THE CASE the
    conditional is taken, WITH the proof that on whole buffers — the inputs' at their contents, the
    outputs' at anything — the body runs to the continuation holding the inputs' as they were and each
    output's buffer with its pieces written. The printed functions are their skeletons; the pieces are
    the witness the run finds (assigned when each buffer is handed to the continuation). -/
noncomputable def kernelRun0_A (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) :
    Σ' (L3 : List (View.Piece (Elt F) S256x2048 .f32)) (L4 : List (View.Piece (Elt F) S1x2048x2048 .f32)), { L5 : List (View.Piece (Elt F) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__big_kernel i arg2 harg2 arg3 harg3 arg4 harg4 arg5 harg5 arg6 harg6 arg7 harg7) K } := by
  refine ⟨?_, ?_, ?_, fun E K => ?run⟩
  case run =>
    simp only [cc0__big_kernel_eq_skeleton]; unfold cc0__big_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.Kernel.Hand

end
-- ==== Proof.K.RunB.lean ====
/- The run of the kernel body in the case where its one conditional is not taken (grid coordinate 1 is not 0:
   both accumulators are held at their running contents and the body accumulates into them). -/
import proofs.«160550_j61804579389940_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's buffer, as pieces (last first), IN THE CASE the
    conditional is not taken, WITH the proof that on whole buffers — the inputs' at their contents,
    the two accumulators' at their running contents, the third output's at anything — the body runs
    to the continuation holding the inputs' as they were and each output's buffer with its pieces
    written. The printed functions are their skeletons; the pieces are the witness the run finds
    (assigned when each buffer is handed to the continuation). -/
noncomputable def kernelRun0_B (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) :
    Σ' (L3 : List (View.Piece (Elt F) S256x2048 .f32)) (L4 : List (View.Piece (Elt F) S1x2048x2048 .f32)), { L5 : List (View.Piece (Elt F) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__big_kernel i arg2 harg2 arg3 harg3 arg4 harg4 arg5 harg5 arg6 harg6 arg7 harg7) K } := by
  refine ⟨?_, ?_, ?_, fun E K => ?run⟩
  case run =>
    simp only [cc0__big_kernel_eq_skeleton]; unfold cc0__big_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg2.eq_unread hf0; obtain rfl := harg3.eq_unread hf1; obtain rfl := harg4.eq_unread hf2
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.Kernel.Hand

end
-- ==== Proof.K.Outs.lean ====
/-
  What the kernel's three output buffers hold, point by point. At every grid point the body stores the read-out block whole; at the
  first point of each core's half (grid coordinate 1 equal to 0) it zeroes the two accumulators and then adds the
  point's contribution, and at every later point it adds to what the point before left. What the three output
  buffers hold after each point is defined by recursion on the point, from the pieces the body's stores leave; the
  run of the whole program follows, and from it the frame: the thirteen argument arrays end as launched.
-/
import proofs.«160550_j61804579389940_2_alg».proof.Proof.K.Kit
import proofs.«160550_j61804579389940_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output buffer -/

/-- The pieces case A stores into output window 3's buffer tile it, so they cover it. -/
theorem cover0_A_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) (y : S256x2048.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S256x2048.size (by sl_kernel_rfl) y

/-- What case A leaves in output window 3's buffer: its pieces read back. -/
def out0_A_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) : Vec F S256x2048 .f32 :=
  VO0_3.read (Elt F) (VO0_3.writes (Elt F) VO0_3.junk (kernelRun0_A c i arg2 harg2 arg3 harg3 arg4 harg4 arg5 harg5 arg6 harg6 arg7 harg7 hc0 x0 x1 x2).1)

/-- The pieces case A stores into output window 4's buffer tile it, so they cover it. -/
theorem cover0_A_4 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) (y : S1x2048x2048.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1x2048x128.size (by sl_kernel_rfl) y

/-- What case A leaves in output window 4's buffer: its pieces read back. -/
def out0_A_4 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) : Vec F S1x2048x2048 .f32 :=
  VO0_4.read (Elt F) (VO0_4.writes (Elt F) VO0_4.junk (kernelRun0_A c i arg2 harg2 arg3 harg3 arg4 harg4 arg5 harg5 arg6 harg6 arg7 harg7 hc0 x0 x1 x2).2.1)

/-- The pieces case A stores into output window 5's buffer tile it, so they cover it. -/
theorem cover0_A_5 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) (y : S1x1x2048.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1x1x2048.size (by sl_kernel_rfl) y

/-- What case A leaves in output window 5's buffer: its pieces read back. -/
def out0_A_5 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) : Vec F S1x1x2048 .f32 :=
  VO0_5.read (Elt F) (VO0_5.writes (Elt F) VO0_5.junk (kernelRun0_A c i arg2 harg2 arg3 harg3 arg4 harg4 arg5 harg5 arg6 harg6 arg7 harg7 hc0 x0 x1 x2).2.2.1)

/-- The pieces case B stores into output window 3's buffer tile it, so they cover it. -/
theorem cover0_B_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) (y : S256x2048.Idx) :
    ∃ pc ∈ (kernelRun0_B c i arg2 harg2 arg3 harg3 arg4 harg4 arg5 harg5 arg6 harg6 arg7 harg7 hc0 x0 x1 x2 xo4 xo5).1, y ∈ pc.1.set :=
  View.cover_of_tiledL (kernelRun0_B c i arg2 harg2 arg3 harg3 arg4 harg4 arg5 harg5 arg6 harg6 arg7 harg7 hc0 x0 x1 x2 xo4 xo5).1 S256x2048.size (by sl_kernel_rfl) y

/-- What case B leaves in output window 3's buffer: its pieces read back. -/
def out0_B_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) : Vec F S256x2048 .f32 :=
  VO0_3.read (Elt F) (VO0_3.writes (Elt F) VO0_3.junk (kernelRun0_B c i arg2 harg2 arg3 harg3 arg4 harg4 arg5 harg5 arg6 harg6 arg7 harg7 hc0 x0 x1 x2 xo4 xo5).1)

/-- The pieces case B stores into output window 4's buffer tile it, so they cover it. -/
theorem cover0_B_4 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) (y : S1x2048x2048.Idx) :
    ∃ pc ∈ (kernelRun0_B c i arg2 harg2 arg3 harg3 arg4 harg4 arg5 harg5 arg6 harg6 arg7 harg7 hc0 x0 x1 x2 xo4 xo5).2.1, y ∈ pc.1.set :=
  View.cover_of_tiledL (kernelRun0_B c i arg2 harg2 arg3 harg3 arg4 harg4 arg5 harg5 arg6 harg6 arg7 harg7 hc0 x0 x1 x2 xo4 xo5).2.1 S1x2048x128.size (by sl_kernel_rfl) y

/-- What case B leaves in output window 4's buffer: its pieces read back. -/
def out0_B_4 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) : Vec F S1x2048x2048 .f32 :=
  VO0_4.read (Elt F) (VO0_4.writes (Elt F) VO0_4.junk (kernelRun0_B c i arg2 harg2 arg3 harg3 arg4 harg4 arg5 harg5 arg6 harg6 arg7 harg7 hc0 x0 x1 x2 xo4 xo5).2.1)

/-- The pieces case B stores into output window 5's buffer tile it, so they cover it. -/
theorem cover0_B_5 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) (y : S1x1x2048.Idx) :
    ∃ pc ∈ (kernelRun0_B c i arg2 harg2 arg3 harg3 arg4 harg4 arg5 harg5 arg6 harg6 arg7 harg7 hc0 x0 x1 x2 xo4 xo5).2.2.1, y ∈ pc.1.set :=
  View.cover_of_tiledL (kernelRun0_B c i arg2 harg2 arg3 harg3 arg4 harg4 arg5 harg5 arg6 harg6 arg7 harg7 hc0 x0 x1 x2 xo4 xo5).2.2.1 S1x1x2048.size (by sl_kernel_rfl) y

/-- What case B leaves in output window 5's buffer: its pieces read back. -/
def out0_B_5 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) : Vec F S1x1x2048 .f32 :=
  VO0_5.read (Elt F) (VO0_5.writes (Elt F) VO0_5.junk (kernelRun0_B c i arg2 harg2 arg3 harg3 arg4 harg4 arg5 harg5 arg6 harg6 arg7 harg7 hc0 x0 x1 x2 xo4 xo5).2.2.1)

/-! ## What the outputs hold after each point -/

/-- What the three output buffers hold after the body at position `n` (read-out block, first accumulator, second
    accumulator): the reset case at the first point of each half, the accumulating case, over what the point before
    left in the two accumulators, elsewhere. -/
def outsAt0 (c : Dev nD) : (n : ℕ) → n < cfg0.N → Vec F S256x2048 .f32 × Vec F S1x2048x2048 .f32 × Vec F S1x1x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a point of the reset case. -/
theorem outsAt0_A (c : Dev nD) (t : Fin cfg0.N) (h0 : t.val % 32 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of the accumulating case: over what the point before left. -/
theorem outsAt0_B (c : Dev nD) (t : Fin cfg0.N) (h0 : ¬t.val % 32 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the outputs' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a point of the accumulating case the first accumulator's buffer holds what the body left at the point before:
    the point is not the first and the buffer was not written back between. -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]
/-- The same for the second accumulator. -/
theorem before0_5_B (c : Dev nD) (t : Fin cfg0.N) (h0 : ¬t.val % 32 = 0) (d) :
    (dats m 0 c).before 5 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

end Cert.Kernel.Hand

end
-- ==== Proof.K.Body.lean ====
/-
  The body obligation of the kernel's pipeline at a generic grid point, the run of the whole program around its one
  region, and what the library then says of every buffer after the run.
-/
import proofs.«160550_j61804579389940_2_alg».proof.Proof.K.Outs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 600000 in
/-- The body at any point: the inputs' buffers hold their blocks; the closed form of the branch condition says which
    case the point is in; in the accumulating case the two accumulators hold what the point before left; so the case's
    run applies, and each output buffer ends at its pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 64 := lt_of_lt_of_eq t.isLt (show cfg0.N = 64 from N_0)
  by_cases h0 : t.val % 32 = 0
  · rw [outsAt0_A m c t h0]
    unfold out0_A_3 out0_A_4 out0_A_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
    isplitl [H4]
    · unfold owns; iexists _; isplitr
      swap; · iexact H4
      ipureintro; exact View.read_writes_of_cover _ _ _ _ _ (cover0_A_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
    unfold owns; iexists _; isplitr
    swap; · iexact H5
    ipureintro; exact View.read_writes_of_cover _ _ _ _ _ (cover0_A_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
  · rw [outsAt0_B m c t h0]
    simp only [before0_4_B m c t h0, before0_5_B m c t h0]
    unfold out0_B_3 out0_B_4 out0_B_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
    isplitl [H4]
    · unfold owns; iexists _; isplitr
      swap; · iexact H4
      ipureintro; exact View.read_writes_of_cover _ _ _ _ _ (cover0_B_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
    unfold owns; iexists _; isplitr
    swap; · iexact H5
    ipureintro; exact View.read_writes_of_cover _ _ _ _ _ (cover0_B_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

end Cert.Kernel.Hand

end
-- ==== Proof.K.Args.lean ====
/-
  The argument arrays after the whole program: no operation after the region writes one, so each ends as the region
  found it, which is as launched; the two that the region stages as input windows are left in place by the pipeline.
-/
import proofs.«160550_j61804579389940_2_alg».proof.Proof.K.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation after the region writes argument 2: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the region writes argument 3: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the region writes argument 4: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation after the region writes argument 5: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation after the region writes argument 6: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No operation after the region writes argument 7: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No operation after the region writes argument 8: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No operation after the region writes argument 9: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No operation after the region writes argument 10: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No operation after the region writes argument 11: it ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No operation after the region writes argument 12: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- The frame from a frame run: for any proof data whose arrays are the region-entry contents, the run's post read at
    the thirteen argument arrays. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

end Cert.Kernel.Hand

end
-- ==== Proof.KI.Kit.lean ====
/-
  The host side of the kernel program's run around its one region, and the windows' blocks.
  Before the region the program builds W = 0.1 · tanh(B Cᵀ) + diag(D) and rounds it to bf16; after it, it sums the
  two per-core partial results and finishes the update. What each buffer holds when the region is entered is the
  fold of the earlier operations over the launch memory (kept folded); the argument arrays are written by no
  operation, before or after the region.
-/
import proofs.«160550_j61804579389940_2_alg».proof.Proof.Gen.KernelIdeal.Launch
import proofs.«160550_j61804579389940_2_alg».proof.Proof.Gen.KernelIdeal.Skeleton
import proofs.«160550_j61804579389940_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The operations before the region, in their three stretches. -/
abbrev pfx : List (List (HloOp τ sig (Elt F))) := [hostOps0, hostOps0_1, hostOps0_2]
/-- The operations after the region, in their three stretches. -/
abbrev sfx : List (List (HloOp τ sig (Elt F))) := [hostOps1, hostOps1_1, hostOps1_2]

/-- Core `c`'s buffer contents when the region is entered: after the operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is host lines, the region, host lines: it reduces to the region continued by the later lines, at the
    contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch the pipeline's arrays and the bypassing buffers only. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of a stretch writes an array of the pipeline: each writes its own result buffer, which is none. -/
theorem keeps_of (ops : List (HloOp τ sig (Elt F)))
    (h : ops.Forall fun op => ∀ w, Proc.devRef .tc (Pipeline.arrRef spec0 w) ∉ op.writes) :
    ∀ op ∈ ops, ∀ w, Proc.devRef .tc (Pipeline.arrRef spec0 w) ∉ op.writes :=
  List.forall_iff_forall_mem.mp h

theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl | rfl | rfl
  · exact keeps_of _ hostOps1_keeps
  · exact keeps_of _ hostOps1_1_keeps
  · exact keeps_of _ hostOps1_2_keeps

/-- No operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)

/-- One staging buffer of each output window, through which its contents are stated. -/
abbrev VO0_3 : View sig .tc .vmem S256x2048 .f32 := (Memref.whole cc0_stg3_0 : Memref sig .tc .vmem S256x2048 .f32).view
abbrev VO0_4 : View sig .tc .vmem S1x2048x2048 .f32 := (Memref.whole cc0_stg4_0 : Memref sig .tc .vmem S1x2048x2048 .f32).view
abbrev VO0_5 : View sig .tc .vmem S1x1x2048 .f32 := (Memref.whole cc0_stg5_0 : Memref sig .tc .vmem S1x1x2048 .f32).view

end Cert.KernelIdeal.Hand

end
-- ==== Proof.KI.Cond.lean ====
/- The one branch condition of the kernel body, as a proposition over the grid coordinates, and the
   grid points at which it holds. -/
import proofs.«160550_j61804579389940_2_alg».proof.Proof.Gen.KernelIdeal.Launch
import proofs.«160550_j61804579389940_2_alg».proof.Proof.Gen.KernelIdeal.Skeleton
import proofs.«160550_j61804579389940_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one conditional: grid coordinate 1 is 0 (the scalar chain of the
    skeleton: compare with 0, extend, compare with 0). -/
abbrev cond0_0 (i : grid0.Coords) : Prop := (Scalar.cmpi .ne (Scalar.extui (Scalar.cmpi .eq (BitVec.ofNat 32 (i 1).val) 0#32)) 0#32) = 1#1

/-- The grid is [2, 32], row-major: coordinate 1 of point `t` is `t % 32`, so the condition holds
    exactly at the points `t` with `t % 32 = 0`. -/
theorem hcond0_0 : ∀ t : Fin cfg0.N, cond0_0 (grid0.coords t) ↔ t.val % 32 = 0 :=
  (by decide +kernel : ∀ t : Fin grid0.N, cond0_0 (grid0.coords t) ↔ t.val % 32 = 0)

end Cert.KernelIdeal.Hand

end
-- ==== Proof.KI.RunA.lean ====
/- The run of the kernel body in the case where its one conditional is taken (grid coordinate 1 is 0: both
   accumulators are reset before the body accumulates into them). -/
import proofs.«160550_j61804579389940_2_alg».proof.Proof.KI.Cond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's buffer, as pieces (last first), IN THE CASE the
    conditional is taken, WITH the proof that on whole buffers — the inputs' at their contents, the
    outputs' at anything — the body runs to the continuation holding the inputs' as they were and each
    output's buffer with its pieces written. The printed functions are their skeletons; the pieces are
    the witness the run finds (assigned when each buffer is handed to the continuation). -/
noncomputable def kernelRun0_A (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) :
    Σ' (L3 : List (View.Piece (Elt F) S256x2048 .f32)) (L4 : List (View.Piece (Elt F) S1x2048x2048 .f32)), { L5 : List (View.Piece (Elt F) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__big_kernel i arg2 harg2 arg3 harg3 arg4 harg4 arg5 harg5 arg6 harg6 arg7 harg7) K } := by
  refine ⟨?_, ?_, ?_, fun E K => ?run⟩
  case run =>
    simp only [cc0__big_kernel_eq_skeleton]; unfold cc0__big_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.KernelIdeal.Hand

end
-- ==== Proof.KI.RunB.lean ====
/- The run of the kernel body in the case where its one conditional is not taken (grid coordinate 1 is not 0:
   both accumulators are held at their running contents and the body accumulates into them). -/
import proofs.«160550_j61804579389940_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each output's buffer, as pieces (last first), IN THE CASE the
    conditional is not taken, WITH the proof that on whole buffers — the inputs' at their contents,
    the two accumulators' at their running contents, the third output's at anything — the body runs
    to the continuation holding the inputs' as they were and each output's buffer with its pieces
    written. The printed functions are their skeletons; the pieces are the witness the run finds
    (assigned when each buffer is handed to the continuation). -/
noncomputable def kernelRun0_B (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) :
    Σ' (L3 : List (View.Piece (Elt F) S256x2048 .f32)) (L4 : List (View.Piece (Elt F) S1x2048x2048 .f32)), { L5 : List (View.Piece (Elt F) S1x1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__big_kernel i arg2 harg2 arg3 harg3 arg4 harg4 arg5 harg5 arg6 harg6 arg7 harg7) K } := by
  refine ⟨?_, ?_, ?_, fun E K => ?run⟩
  case run =>
    simp only [cc0__big_kernel_eq_skeleton]; unfold cc0__big_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg2.eq_unread hf0; obtain rfl := harg3.eq_unread hf1; obtain rfl := harg4.eq_unread hf2
    obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.KernelIdeal.Hand

end
-- ==== Proof.KI.Outs.lean ====
/-
  What the kernel's three output buffers hold, point by point. At every grid point the body stores the read-out block whole; at the
  first point of each core's half (grid coordinate 1 equal to 0) it zeroes the two accumulators and then adds the
  point's contribution, and at every later point it adds to what the point before left. What the three output
  buffers hold after each point is defined by recursion on the point, from the pieces the body's stores leave; the
  run of the whole program follows, and from it the frame: the thirteen argument arrays end as launched.
-/
import proofs.«160550_j61804579389940_2_alg».proof.Proof.KI.Kit
import proofs.«160550_j61804579389940_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output buffer -/

/-- The pieces case A stores into output window 3's buffer tile it, so they cover it. -/
theorem cover0_A_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) (y : S256x2048.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S256x2048.size (by sl_kernel_rfl) y

/-- What case A leaves in output window 3's buffer: its pieces read back. -/
def out0_A_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) : Vec F S256x2048 .f32 :=
  VO0_3.read (Elt F) (VO0_3.writes (Elt F) VO0_3.junk (kernelRun0_A c i arg2 harg2 arg3 harg3 arg4 harg4 arg5 harg5 arg6 harg6 arg7 harg7 hc0 x0 x1 x2).1)

/-- The pieces case A stores into output window 4's buffer tile it, so they cover it. -/
theorem cover0_A_4 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) (y : S1x2048x2048.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1x2048x128.size (by sl_kernel_rfl) y

/-- What case A leaves in output window 4's buffer: its pieces read back. -/
def out0_A_4 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) : Vec F S1x2048x2048 .f32 :=
  VO0_4.read (Elt F) (VO0_4.writes (Elt F) VO0_4.junk (kernelRun0_A c i arg2 harg2 arg3 harg3 arg4 harg4 arg5 harg5 arg6 harg6 arg7 harg7 hc0 x0 x1 x2).2.1)

/-- The pieces case A stores into output window 5's buffer tile it, so they cover it. -/
theorem cover0_A_5 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) (y : S1x1x2048.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1x1x2048.size (by sl_kernel_rfl) y

/-- What case A leaves in output window 5's buffer: its pieces read back. -/
def out0_A_5 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) : Vec F S1x1x2048 .f32 :=
  VO0_5.read (Elt F) (VO0_5.writes (Elt F) VO0_5.junk (kernelRun0_A c i arg2 harg2 arg3 harg3 arg4 harg4 arg5 harg5 arg6 harg6 arg7 harg7 hc0 x0 x1 x2).2.2.1)

/-- The pieces case B stores into output window 3's buffer tile it, so they cover it. -/
theorem cover0_B_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) (y : S256x2048.Idx) :
    ∃ pc ∈ (kernelRun0_B c i arg2 harg2 arg3 harg3 arg4 harg4 arg5 harg5 arg6 harg6 arg7 harg7 hc0 x0 x1 x2 xo4 xo5).1, y ∈ pc.1.set :=
  View.cover_of_tiledL (kernelRun0_B c i arg2 harg2 arg3 harg3 arg4 harg4 arg5 harg5 arg6 harg6 arg7 harg7 hc0 x0 x1 x2 xo4 xo5).1 S256x2048.size (by sl_kernel_rfl) y

/-- What case B leaves in output window 3's buffer: its pieces read back. -/
def out0_B_3 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) : Vec F S256x2048 .f32 :=
  VO0_3.read (Elt F) (VO0_3.writes (Elt F) VO0_3.junk (kernelRun0_B c i arg2 harg2 arg3 harg3 arg4 harg4 arg5 harg5 arg6 harg6 arg7 harg7 hc0 x0 x1 x2 xo4 xo5).1)

/-- The pieces case B stores into output window 4's buffer tile it, so they cover it. -/
theorem cover0_B_4 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) (y : S1x2048x2048.Idx) :
    ∃ pc ∈ (kernelRun0_B c i arg2 harg2 arg3 harg3 arg4 harg4 arg5 harg5 arg6 harg6 arg7 harg7 hc0 x0 x1 x2 xo4 xo5).2.1, y ∈ pc.1.set :=
  View.cover_of_tiledL (kernelRun0_B c i arg2 harg2 arg3 harg3 arg4 harg4 arg5 harg5 arg6 harg6 arg7 harg7 hc0 x0 x1 x2 xo4 xo5).2.1 S1x2048x128.size (by sl_kernel_rfl) y

/-- What case B leaves in output window 4's buffer: its pieces read back. -/
def out0_B_4 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) : Vec F S1x2048x2048 .f32 :=
  VO0_4.read (Elt F) (VO0_4.writes (Elt F) VO0_4.junk (kernelRun0_B c i arg2 harg2 arg3 harg3 arg4 harg4 arg5 harg5 arg6 harg6 arg7 harg7 hc0 x0 x1 x2 xo4 xo5).2.1)

/-- The pieces case B stores into output window 5's buffer tile it, so they cover it. -/
theorem cover0_B_5 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) (y : S1x1x2048.Idx) :
    ∃ pc ∈ (kernelRun0_B c i arg2 harg2 arg3 harg3 arg4 harg4 arg5 harg5 arg6 harg6 arg7 harg7 hc0 x0 x1 x2 xo4 xo5).2.2.1, y ∈ pc.1.set :=
  View.cover_of_tiledL (kernelRun0_B c i arg2 harg2 arg3 harg3 arg4 harg4 arg5 harg5 arg6 harg6 arg7 harg7 hc0 x0 x1 x2 xo4 xo5).2.2.1 S1x1x2048.size (by sl_kernel_rfl) y

/-- What case B leaves in output window 5's buffer: its pieces read back. -/
def out0_B_5 (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) : Vec F S1x1x2048 .f32 :=
  VO0_5.read (Elt F) (VO0_5.writes (Elt F) VO0_5.junk (kernelRun0_B c i arg2 harg2 arg3 harg3 arg4 harg4 arg5 harg5 arg6 harg6 arg7 harg7 hc0 x0 x1 x2 xo4 xo5).2.2.1)

/-! ## What the outputs hold after each point -/

/-- What the three output buffers hold after the body at position `n` (read-out block, first accumulator, second
    accumulator): the reset case at the first point of each half, the accumulating case, over what the point before
    left in the two accumulators, elsewhere. -/
def outsAt0 (c : Dev nD) : (n : ℕ) → n < cfg0.N → Vec F S256x2048 .f32 × Vec F S1x2048x2048 .f32 × Vec F S1x1x2048 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 32 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a point of the reset case. -/
theorem outsAt0_A (c : Dev nD) (t : Fin cfg0.N) (h0 : t.val % 32 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of the accumulating case: over what the point before left. -/
theorem outsAt0_B (c : Dev nD) (t : Fin cfg0.N) (h0 : ¬t.val % 32 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the outputs' at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a point of the accumulating case the first accumulator's buffer holds what the body left at the point before:
    the point is not the first and the buffer was not written back between. -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).2.1 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]
/-- The same for the second accumulator. -/
theorem before0_5_B (c : Dev nD) (t : Fin cfg0.N) (h0 : ¬t.val % 32 = 0) (d) :
    (dats m 0 c).before 5 t d = (outsAt0 m c (t.val - 1) (Nat.lt_of_le_of_lt (Nat.sub_le _ _) t.isLt)).2.2 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

end Cert.KernelIdeal.Hand

end
-- ==== Proof.KI.Body.lean ====
/-
  The body obligation of the kernel's pipeline at a generic grid point, the run of the whole program around its one
  region, and what the library then says of every buffer after the run.
-/
import proofs.«160550_j61804579389940_2_alg».proof.Proof.KI.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 600000 in
/-- The body at any point: the inputs' buffers hold their blocks; the closed form of the branch condition says which
    case the point is in; in the accumulating case the two accumulators hold what the point before left; so the case's
    run applies, and each output buffer ends at its pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 64 := lt_of_lt_of_eq t.isLt (show cfg0.N = 64 from N_0)
  by_cases h0 : t.val % 32 = 0
  · rw [outsAt0_A m c t h0]
    unfold out0_A_3 out0_A_4 out0_A_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
    isplitl [H4]
    · unfold owns; iexists _; isplitr
      swap; · iexact H4
      ipureintro; exact View.read_writes_of_cover _ _ _ _ _ (cover0_A_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
    unfold owns; iexists _; isplitr
    swap; · iexact H5
    ipureintro; exact View.read_writes_of_cover _ _ _ _ _ (cover0_A_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
  · rw [outsAt0_B m c t h0]
    simp only [before0_4_B m c t h0, before0_5_B m c t h0]
    unfold out0_B_3 out0_B_4 out0_B_5
    dsimp only
    iintro ⟨HΦ, Ho, ⟨%d0, H0⟩, ⟨%d1, H1⟩, ⟨%d2, H2⟩, ⟨%d3, H3⟩, ⟨%d4, H4⟩, ⟨%d5, H5⟩⟩
    iapply ((kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
    isplitl [H4]
    · unfold owns; iexists _; isplitr
      swap; · iexact H4
      ipureintro; exact View.read_writes_of_cover _ _ _ _ _ (cover0_B_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
    unfold owns; iexists _; isplitr
    swap; · iexact H5
    ipureintro; exact View.read_writes_of_cover _ _ _ _ _ (cover0_B_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

end Cert.KernelIdeal.Hand

end
-- ==== Proof.KI.Args.lean ====
/-
  The argument arrays after the whole program: no operation after the region writes one, so each ends as the region
  found it, which is as launched; the two that the region stages as input windows are left in place by the pipeline.
-/
import proofs.«160550_j61804579389940_2_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No operation after the region writes argument 2: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the region writes argument 3: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the region writes argument 4: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No operation after the region writes argument 5: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No operation after the region writes argument 6: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No operation after the region writes argument 7: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No operation after the region writes argument 8: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No operation after the region writes argument 9: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No operation after the region writes argument 10: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No operation after the region writes argument 11: it ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No operation after the region writes argument 12: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, hostOps1_1, hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- The frame from a frame run: for any proof data whose arrays are the region-entry contents, the run's post read at
    the thirteen argument arrays. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c)⟩) h

end Cert.KernelIdeal.Hand

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.KI.Pay.lean ====
/-
  The kernel body's arithmetic read at an index, at the exact reals: the projection x0 · x2ᵀ, the residual
  x1 − x0 · x2ᵀ, the zero blocks, and the column sums of x0 added to the running row.
-/
import proofs.«160550_j61804579389940_2_alg».proof.Proof.Gen.KernelIdeal.Skeleton
import proofs.«160550_j61804579389940_2_alg».proof.Proof.LibIndexReads
import proofs.«160550_j61804579389940_2_alg».proof.Proof.LibColumnReads
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

noncomputable section

open scoped BigOperators

namespace Cert.KernelIdeal.Hand

open Cert.KernelIdeal Cert.KernelIdeal.Gen Idealize.ShloMosaic Idealize.ShloMosaic.TcCoe
open Idealize.ShloMosaic.ValueIdx

/-- The narrowing format change is the identity on extended reals. -/
theorem pay4_apply (x0 : Vec Ideal S256x2048 .f32) (r : Fin 256) (j : Fin 2048) :
    k0_pay4 x0 (ix2 r j) = x0 (ix2 r j) := rfl

/-- The first product, read at (r, i): row r of x0 against row i of x2. -/
theorem pay5_apply (x0 : Vec Ideal S256x2048 .f32) (x2 : Vec Ideal S2048x2048 .bf16) (r : Fin 256) (i : Fin 2048) :
    k0_pay5 x0 x2 (ix2 r i) = ∑ j : Fin 2048, x0 (ix2 r j) * x2 (ix2 i j) := by
  unfold k0_pay5
  simp only [shapeCast_self]
  refine (Cert.IndexReads.matmul_zero_single dot_S256x2048_S2048x2048_S256x2048_1_1_0_0_n_n 2048 rfl rfl none
    (k0_pay4 x0) x2 (ix2 r i) (fun k => ix2 r k) (fun k => ix2 i k) ?_ ?_).trans ?_
  · intro k
    funext a
    apply Fin.ext
    match a with
    | ⟨0, _⟩ => rfl
    | ⟨1, _⟩ => rfl
  · intro k
    funext a
    apply Fin.ext
    match a with
    | ⟨0, _⟩ => rfl
    | ⟨1, _⟩ => rfl
  · rfl

/-- The residual, read at (r, i). -/
theorem pay6_apply (x0 x1 : Vec Ideal S256x2048 .f32) (x2 : Vec Ideal S2048x2048 .bf16) (r : Fin 256) (i : Fin 2048) :
    k0_pay6 x0 x1 x2 (ix2 r i) = x1 (ix2 r i) - k0_pay5 x0 x2 (ix2 r i) := rfl

/-- The zero matrix block is zero everywhere. -/
theorem pay2_apply (i j : Fin 2048) : k0_pay2 (F := Ideal) (ix3 (0 : Fin 1) i j) = 0 := by
  unfold k0_pay2
  rw [shapeCast_ab_1ab_apply]
  exact Ideal.ofBits_zero_f32

/-- The zero row block is zero everywhere. -/
theorem pay3_apply (j : Fin 2048) : k0_pay3 (F := Ideal) (ix3 (0 : Fin 1) (0 : Fin 1) j) = 0 := by
  unfold k0_pay3
  rw [shapeCast_ab_1ab_apply]
  exact Ideal.ofBits_zero_f32

/-- A sum over the rows of x0 from the zero word, read at column j. -/
theorem colsum_apply (x0 : Vec Ideal S256x2048 .f32) (hφ : FKind.Formats .f32)
    (hacc : (0x00000000#32 : BitVec 32) = 0x00000000#32) (j : Fin 2048) :
    multiReduction (F := Ideal) .add [0] S2048 x0 0x00000000#32 reduces_S256x2048_S2048 hφ hacc (ix1 j)
      = ∑ r : Fin 256, x0 (ix2 r j) :=
  Cert.ColumnReads.multiReduction_add_col (m := 256) (n := 2048) x0 0x00000000#32 reduces_S256x2048_S2048 hφ hacc j

/-- The running row plus the column sums of x0, read at column j. -/
theorem pay27_apply (x0 : Vec Ideal S256x2048 .f32) (y : Vec Ideal S1x1x2048 .f32) (j : Fin 2048) :
    k0_pay1 (k0_pay27 x0 y) (ix3 (0 : Fin 1) (0 : Fin 1) j)
      = y (ix3 (0 : Fin 1) (0 : Fin 1) j) + ∑ r : Fin 256, x0 (ix2 r j) := by
  unfold k0_pay1 k0_pay27
  rw [shapeCast_ab_1ab_apply, addf_apply, Cert.ColumnReads.shapeCast_11b_1b_apply, shapeCast_a_1a_apply, colsum_apply]

end Cert.KernelIdeal.Hand

end
-- ==== Proof.KI.PayChunk.lean ====
/-
  The second product's sixteen chunks read at an index, at the exact reals: each stored block is the loaded slab plus
  residualᵀ · (a block of 128 columns of x0).
-/
import proofs.«160550_j61804579389940_2_alg».proof.Proof.Gen.KernelIdeal.Skeleton
import proofs.«160550_j61804579389940_2_alg».proof.Proof.LibIndexReads
import proofs.«160550_j61804579389940_2_alg».proof.Proof.KI.Pay
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

noncomputable section

open scoped BigOperators

namespace Cert.KernelIdeal.Hand

open Cert.KernelIdeal Cert.KernelIdeal.Gen Idealize.ShloMosaic Idealize.ShloMosaic.TcCoe
open Idealize.ShloMosaic.ValueIdx

/-- One chunk of the second product added to a loaded slab: the slab plus eᵀ · kb, as a [1, 2048, 128] block. -/
def chunkVal (e : FVec Ideal S256x2048 .bf16) (kb : FVec Ideal S256x128 .bf16) (v : Vec Ideal S1x2048x128 .f32) :
    FVec Ideal S1x2048x128 .f32 :=
  shapeCast S1x2048x128
    (addf (shapeCast S2048x128 v shapeCasts_S1x2048x128_S2048x128)
      (matmul dot_S256x2048_S256x128_S2048x128_0_0_1_1_n_n none e kb (constant (F := Ideal) S2048x128 .f32 0x00000000#32)))
    shapeCasts_S2048x128_S1x2048x128

/-- A chunk read at (0, i, j): the slab there plus column i of e against column j of kb. -/
theorem chunkVal_apply (e : FVec Ideal S256x2048 .bf16) (kb : FVec Ideal S256x128 .bf16) (v : Vec Ideal S1x2048x128 .f32)
    (i : Fin 2048) (j : Fin 128) :
    chunkVal e kb v (ix3 (0 : Fin 1) i j) = v (ix3 (0 : Fin 1) i j) + ∑ r : Fin 256, e (ix2 r i) * kb (ix2 r j) := by
  unfold chunkVal
  rw [shapeCast_ab_1ab_apply, addf_apply, shapeCast_1ab_ab_apply]
  refine congrArg (v (ix3 (0 : Fin 1) i j) + ·) ?_
  refine (Cert.IndexReads.matmul_zero_single dot_S256x2048_S256x128_S2048x128_0_0_1_1_n_n 256 rfl rfl none
    e kb (ix2 i j) (fun k => ix2 k i) (fun k => ix2 k j) ?_ ?_)
  · intro k
    funext a
    apply Fin.ext
    match a with
    | ⟨0, _⟩ => rfl
    | ⟨1, _⟩ => rfl
  · intro k
    funext a
    apply Fin.ext
    match a with
    | ⟨0, _⟩ => rfl
    | ⟨1, _⟩ => rfl

/-- A block of 128 columns cut from column off, read at (r, j): the source at (r, off + j). -/
theorem colblock_apply (off : Nat) (kk : FVec Ideal S256x2048 .bf16) (h : S256x2048.Slices ![0, off] S256x128)
    (r : Fin 256) (j : Fin 128) (hb : off + j.val < 2048) :
    extractStridedSlice S256x128 ![0, off] kk h (ix2 r j) = kk (ix2 r ⟨off + j.val, hb⟩) :=
  slice2_axis1_apply off kk h r j _ rfl

/-- A chunk of the residual against the column block of x0 at off, read at (0, i, j). -/
theorem chunk_at (off : Nat) (h : S256x2048.Slices ![0, off] S256x128) (hb : off + 128 ≤ 2048)
    (x0 x1 : Vec Ideal S256x2048 .f32) (x2 : Vec Ideal S2048x2048 .bf16) (v : Vec Ideal S1x2048x128 .f32)
    (i : Fin 2048) (j : Fin 128) :
    chunkVal (k0_pay6 x0 x1 x2) (extractStridedSlice S256x128 ![0, off] (k0_pay4 x0) h) v (ix3 (0 : Fin 1) i j)
      = v (ix3 (0 : Fin 1) i j)
        + ∑ r : Fin 256, (x1 (ix2 r i) - k0_pay5 x0 x2 (ix2 r i)) * x0 (ix2 r ⟨off + j.val, by omega⟩) := by
  rw [chunkVal_apply]
  refine congrArg (v (ix3 (0 : Fin 1) i j) + ·) (Finset.sum_congr rfl fun r _ => ?_)
  rw [colblock_apply off (k0_pay4 x0) h r j (by omega)]
  rfl

/-- Chunk 0 (columns 0 to 127 of x0), read at (0, i, j). -/
theorem chunk_0_apply (x0 x1 : Vec Ideal S256x2048 .f32) (x2 : Vec Ideal S2048x2048 .bf16) (v : Vec Ideal S1x2048x128 .f32)
    (i : Fin 2048) (j : Fin 128) :
    k0_pay7 x0 x1 x2 v (ix3 (0 : Fin 1) i j)
      = v (ix3 (0 : Fin 1) i j)
        + ∑ r : Fin 256, (x1 (ix2 r i) - k0_pay5 x0 x2 (ix2 r i)) * x0 (ix2 r ⟨0 + j.val, by omega⟩) :=
  chunk_at 0 slices_S256x2048_o0_0_S256x128 (by decide) x0 x1 x2 v i j

/-- Chunk 1 (columns 128 to 255 of x0), read at (0, i, j). -/
theorem chunk_1_apply (x0 x1 : Vec Ideal S256x2048 .f32) (x2 : Vec Ideal S2048x2048 .bf16) (v : Vec Ideal S1x2048x128 .f32)
    (i : Fin 2048) (j : Fin 128) :
    k0_pay8 x0 x1 x2 v (ix3 (0 : Fin 1) i j)
      = v (ix3 (0 : Fin 1) i j)
        + ∑ r : Fin 256, (x1 (ix2 r i) - k0_pay5 x0 x2 (ix2 r i)) * x0 (ix2 r ⟨128 + j.val, by omega⟩) :=
  chunk_at 128 slices_S256x2048_o0_128_S256x128 (by decide) x0 x1 x2 v i j

/-- Chunk 2 (columns 256 to 383 of x0), read at (0, i, j). -/
theorem chunk_2_apply (x0 x1 : Vec Ideal S256x2048 .f32) (x2 : Vec Ideal S2048x2048 .bf16) (v : Vec Ideal S1x2048x128 .f32)
    (i : Fin 2048) (j : Fin 128) :
    k0_pay10 (k0_pay6 x0 x1 x2) (k0_pay9 x0) v (ix3 (0 : Fin 1) i j)
      = v (ix3 (0 : Fin 1) i j)
        + ∑ r : Fin 256, (x1 (ix2 r i) - k0_pay5 x0 x2 (ix2 r i)) * x0 (ix2 r ⟨256 + j.val, by omega⟩) :=
  chunk_at 256 slices_S256x2048_o0_256_S256x128 (by decide) x0 x1 x2 v i j

/-- Chunk 3 (columns 384 to 511 of x0), read at (0, i, j). -/
theorem chunk_3_apply (x0 x1 : Vec Ideal S256x2048 .f32) (x2 : Vec Ideal S2048x2048 .bf16) (v : Vec Ideal S1x2048x128 .f32)
    (i : Fin 2048) (j : Fin 128) :
    k0_pay11 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨384 + j.val, by omega⟩) :=
  chunk_at 384 slices_S256x2048_o0_384_S256x128 (by decide) x0 x1 x2 v i j

/-- Chunk 4 (columns 512 to 639 of x0), read at (0, i, j). -/
theorem chunk_4_apply (x0 x1 : Vec Ideal S256x2048 .f32) (x2 : Vec Ideal S2048x2048 .bf16) (v : Vec Ideal S1x2048x128 .f32)
    (i : Fin 2048) (j : Fin 128) :
    k0_pay12 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨512 + j.val, by omega⟩) :=
  chunk_at 512 slices_S256x2048_o0_512_S256x128 (by decide) x0 x1 x2 v i j

/-- Chunk 5 (columns 640 to 767 of x0), read at (0, i, j). -/
theorem chunk_5_apply (x0 x1 : Vec Ideal S256x2048 .f32) (x2 : Vec Ideal S2048x2048 .bf16) (v : Vec Ideal S1x2048x128 .f32)
    (i : Fin 2048) (j : Fin 128) :
    k0_pay14 (k0_pay13 (k0_pay4 x0) (k0_pay6 x0 x1 x2) v) (ix3 (0 : Fin 1) i j)
      = v (ix3 (0 : Fin 1) i j)
        + ∑ r : Fin 256, (x1 (ix2 r i) - k0_pay5 x0 x2 (ix2 r i)) * x0 (ix2 r ⟨640 + j.val, by omega⟩) :=
  chunk_at 640 slices_S256x2048_o0_640_S256x128 (by decide) x0 x1 x2 v i j

/-- Chunk 6 (columns 768 to 895 of x0), read at (0, i, j). -/
theorem chunk_6_apply (x0 x1 : Vec Ideal S256x2048 .f32) (x2 : Vec Ideal S2048x2048 .bf16) (v : Vec Ideal S1x2048x128 .f32)
    (i : Fin 2048) (j : Fin 128) :
    k0_pay15 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨768 + j.val, by omega⟩) :=
  chunk_at 768 slices_S256x2048_o0_768_S256x128 (by decide) x0 x1 x2 v i j

/-- Chunk 7 (columns 896 to 1023 of x0), read at (0, i, j). -/
theorem chunk_7_apply (x0 x1 : Vec Ideal S256x2048 .f32) (x2 : Vec Ideal S2048x2048 .bf16) (v : Vec Ideal S1x2048x128 .f32)
    (i : Fin 2048) (j : Fin 128) :
    k0_pay16 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨896 + j.val, by omega⟩) :=
  chunk_at 896 slices_S256x2048_o0_896_S256x128 (by decide) x0 x1 x2 v i j

/-- Chunk 8 (columns 1024 to 1151 of x0), read at (0, i, j). -/
theorem chunk_8_apply (x0 x1 : Vec Ideal S256x2048 .f32) (x2 : Vec Ideal S2048x2048 .bf16) (v : Vec Ideal S1x2048x128 .f32)
    (i : Fin 2048) (j : Fin 128) :
    k0_pay17 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨1024 + j.val, by omega⟩) :=
  chunk_at 1024 slices_S256x2048_o0_1024_S256x128 (by decide) x0 x1 x2 v i j

/-- Chunk 9 (columns 1152 to 1279 of x0), read at (0, i, j). -/
theorem chunk_9_apply (x0 x1 : Vec Ideal S256x2048 .f32) (x2 : Vec Ideal S2048x2048 .bf16) (v : Vec Ideal S1x2048x128 .f32)
    (i : Fin 2048) (j : Fin 128) :
    k0_pay19 (k0_pay18 (k0_pay4 x0) (k0_pay6 x0 x1 x2) v) (ix3 (0 : Fin 1) i j)
      = v (ix3 (0 : Fin 1) i j)
        + ∑ r : Fin 256, (x1 (ix2 r i) - k0_pay5 x0 x2 (ix2 r i)) * x0 (ix2 r ⟨1152 + j.val, by omega⟩) :=
  chunk_at 1152 slices_S256x2048_o0_1152_S256x128 (by decide) x0 x1 x2 v i j

/-- Chunk 10 (columns 1280 to 1407 of x0), read at (0, i, j). -/
theorem chunk_10_apply (x0 x1 : Vec Ideal S256x2048 .f32) (x2 : Vec Ideal S2048x2048 .bf16) (v : Vec Ideal S1x2048x128 .f32)
    (i : Fin 2048) (j : Fin 128) :
    k0_pay20 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨1280 + j.val, by omega⟩) :=
  chunk_at 1280 slices_S256x2048_o0_1280_S256x128 (by decide) x0 x1 x2 v i j

/-- Chunk 11 (columns 1408 to 1535 of x0), read at (0, i, j). -/
theorem chunk_11_apply (x0 x1 : Vec Ideal S256x2048 .f32) (x2 : Vec Ideal S2048x2048 .bf16) (v : Vec Ideal S1x2048x128 .f32)
    (i : Fin 2048) (j : Fin 128) :
    k0_pay21 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨1408 + j.val, by omega⟩) :=
  chunk_at 1408 slices_S256x2048_o0_1408_S256x128 (by decide) x0 x1 x2 v i j

/-- Chunk 12 (columns 1536 to 1663 of x0), read at (0, i, j). -/
theorem chunk_12_apply (x0 x1 : Vec Ideal S256x2048 .f32) (x2 : Vec Ideal S2048x2048 .bf16) (v : Vec Ideal S1x2048x128 .f32)
    (i : Fin 2048) (j : Fin 128) :
    k0_pay22 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨1536 + j.val, by omega⟩) :=
  chunk_at 1536 slices_S256x2048_o0_1536_S256x128 (by decide) x0 x1 x2 v i j

/-- Chunk 13 (columns 1664 to 1791 of x0), read at (0, i, j). -/
theorem chunk_13_apply (x0 x1 : Vec Ideal S256x2048 .f32) (x2 : Vec Ideal S2048x2048 .bf16) (v : Vec Ideal S1x2048x128 .f32)
    (i : Fin 2048) (j : Fin 128) :
    k0_pay24 (k0_pay23 (k0_pay4 x0) (k0_pay6 x0 x1 x2)) v (ix3 (0 : Fin 1) i j)
      = v (ix3 (0 : Fin 1) i j)
        + ∑ r : Fin 256, (x1 (ix2 r i) - k0_pay5 x0 x2 (ix2 r i)) * x0 (ix2 r ⟨1664 + j.val, by omega⟩) :=
  chunk_at 1664 slices_S256x2048_o0_1664_S256x128 (by decide) x0 x1 x2 v i j

/-- Chunk 14 (columns 1792 to 1919 of x0), read at (0, i, j). -/
theorem chunk_14_apply (x0 x1 : Vec Ideal S256x2048 .f32) (x2 : Vec Ideal S2048x2048 .bf16) (v : Vec Ideal S1x2048x128 .f32)
    (i : Fin 2048) (j : Fin 128) :
    k0_pay25 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨1792 + j.val, by omega⟩) :=
  chunk_at 1792 slices_S256x2048_o0_1792_S256x128 (by decide) x0 x1 x2 v i j

/-- Chunk 15 (columns 1920 to 2047 of x0), read at (0, i, j). -/
theorem chunk_15_apply (x0 x1 : Vec Ideal S256x2048 .f32) (x2 : Vec Ideal S2048x2048 .bf16) (v : Vec Ideal S1x2048x128 .f32)
    (i : Fin 2048) (j : Fin 128) :
    k0_pay26 (k0_pay4 x0) (k0_pay6 x0 x1 x2) v (ix3 (0 : Fin 1) i j)
      = v (ix3 (0 : Fin 1) i j)
        + ∑ r : Fin 256, (x1 (ix2 r i) - k0_pay5 x0 x2 (ix2 r i)) * x0 (ix2 r ⟨1920 + j.val, by omega⟩) :=
  chunk_at 1920 slices_S256x2048_o0_1920_S256x128 (by decide) x0 x1 x2 v i j

end Cert.KernelIdeal.Hand

end
-- ==== Proof.KI.Out.lean ====
/-
  What each case of the kernel body leaves in the three output buffers, read back as values. The read-out block is
  the first product of the input blocks; the row accumulator is the running row (or the zero row, when the reset is
  taken) plus the column sums of the first input block; and, at the exact reals, the matrix accumulator at (0, i, J)
  is the running value there (or zero) plus the sum over the rows r of the residual at (r, i) times the first input
  block at (r, J): sixteen column slabs, each a block of that one function.
-/
import proofs.«160550_j61804579389940_2_alg».proof.Proof.KI.Outs
import proofs.«160550_j61804579389940_2_alg».proof.Proof.KI.PayChunk
import Idealize.ShloMosaic.Lib.Pipeline.Value
import Idealize.ShloMosaic.Lib.Pipeline.CanonAppend
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The read-out block and the row accumulator, read back as values -/

/-- Two zero offsets, as a function. -/
theorem hz2 : (![0, 0] : Fin 2 → Nat) = fun _ => 0 := funext fun a => by fin_cases a <;> rfl

/-- Three zero offsets, as a function. -/
theorem hz3 : (![0, 0, 0] : Fin 3 → Nat) = fun _ => 0 := funext fun a => by fin_cases a <;> rfl

/-- The read-out block when the reset is taken: the first product of the two input blocks. -/
theorem out3_A (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) :
    out0_A_3 c i arg2 harg2 arg3 harg3 arg4 harg4 arg5 harg5 arg6 harg6 arg7 harg7 hc0 x0 x1 x2 = k0_pay5 x0 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  rw [View.canon_unit_zero hz2]
  simp only [View.readAt_eq_ld, harg2.read_unread, harg4.read_unread, View.ld_unit_zero (S := S256x2048) hz2,
    View.ld_unit_zero (S := S2048x2048) hz2]

/-- The read-out block when the reset is not taken: the same product. -/
theorem out3_B (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) :
    out0_B_3 c i arg2 harg2 arg3 harg3 arg4 harg4 arg5 harg5 arg6 harg6 arg7 harg7 hc0 x0 x1 x2 xo4 xo5 = k0_pay5 x0 x2 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  rw [View.canon_unit_zero hz2]
  simp only [View.readAt_eq_ld, harg2.read_unread, harg4.read_unread, View.ld_unit_zero (S := S256x2048) hz2,
    View.ld_unit_zero (S := S2048x2048) hz2]

/-- The row accumulator when the reset is taken: the column sums of the first input block added to the zero row. -/
theorem out5_A (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i)
    (x0 : Vec F S256x2048 .f32) (x1 : Vec F S256x2048 .f32) (x2 : Vec F S2048x2048 .bf16) :
    out0_A_5 c i arg2 harg2 arg3 harg3 arg4 harg4 arg5 harg5 arg6 harg6 arg7 harg7 hc0 x0 x1 x2 = k0_pay1 (k0_pay27 x0 (k0_pay3 (F := F))) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x1x2048) hz3, View.readCov_unit_zero (S := S1x1x2048) _ hz3]
  simp only [View.readAt_eq_ld, harg2.read_unread, View.ld_unit_zero (S := S256x2048) hz2]

/-- The row accumulator when the reset is not taken: the column sums added to the running row. -/
theorem out5_B (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i)
    (x0 : Vec F S256x2048 .f32) (x1 : Vec F S256x2048 .f32) (x2 : Vec F S2048x2048 .bf16) (xo4 : Vec F S1x2048x2048 .f32) (xo5 : Vec F S1x1x2048 .f32) :
    out0_B_5 c i arg2 harg2 arg3 harg3 arg4 harg4 arg5 harg5 arg6 harg6 arg7 harg7 hc0 x0 x1 x2 xo4 xo5 = k0_pay1 (k0_pay27 x0 xo5) := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  rw [View.canon_unit_zero hz3]
  simp only [View.readAt_eq_ld, harg2.read_unread, harg7.read_unread, View.ld_unit_zero (S := S256x2048) hz2,
    View.ld_unit_zero (S := S1x1x2048) hz3]

/-! ## The matrix accumulator, read back index by index at the exact reals -/

open Idealize.ShloMosaic.ValueIdx
open scoped BigOperators

/-- What a point leaves in the matrix accumulator block that held `a`, as ONE function of the block index:
    `a` plus the residual's column `y 1` against column `y 2` of the first input block. -/
def acc4 (x0 x1 : Vec Ideal S256x2048 .f32) (x2 : Vec Ideal S2048x2048 .bf16) (a : Vec Ideal S1x2048x2048 .f32) :
    S1x2048x2048.Idx → Elt Ideal .f32 :=
  fun y => a y + ∑ r : Fin 256, (x1 (ix2 r (y 1)) - k0_pay5 x0 x2 (ix2 r (y 1))) * x0 (ix2 r (y 2))

/-- At `(0, i, J)` the function is the accumulator there plus the sum over the rows. -/
theorem acc4_apply (x0 x1 : Vec Ideal S256x2048 .f32) (x2 : Vec Ideal S2048x2048 .bf16) (a : Vec Ideal S1x2048x2048 .f32)
    (i J : Fin 2048) :
    acc4 x0 x1 x2 a (ix3 (0 : Fin 1) i J)
      = a (ix3 (0 : Fin 1) i J) + ∑ r : Fin 256, (x1 (ix2 r i) - k0_pay5 x0 x2 (ix2 r i)) * x0 (ix2 r J) := rfl

/-- A column slab's store is the block of `acc4` its rectangle names, when its payload at `(0, i, j)` is the loaded
    value there plus the residual's column `i` against column `o + j` of the first input block, and the loaded
    value `v` is the accumulator `a` read through the slab. -/
theorem slab_acc4 (x0 x1 : Vec Ideal S256x2048 .f32) (x2 : Vec Ideal S2048x2048 .bf16) (a : Vec Ideal S1x2048x2048 .f32)
    (o : Nat) (ho : o + 128 ≤ 2048) (inb : ∀ a, (![0, 0, o] : Fin 3 → Nat) a + (![1, 2048, 128] : Fin 3 → Nat) a ≤ S1x2048x2048.size a)
    (w : FVec Ideal S1x2048x128 .f32) (v : Vec Ideal S1x2048x128 .f32)
    (hw : ∀ (i : Fin 2048) (j : Fin 128), w (ix3 (0 : Fin 1) i j)
      = v (ix3 (0 : Fin 1) i j) + ∑ r : Fin 256, (x1 (ix2 r i) - k0_pay5 x0 x2 (ix2 r i)) * x0 (ix2 r ⟨o + j.val, by omega⟩))
    (hv : ∀ (i : Fin 2048) (j : Fin 128), v (ix3 (0 : Fin 1) i j)
      = a ((Rect.unit (s := S1x2048x2048) ![0, 0, o] ![1, 2048, 128] inb).emb (ix3 (0 : Fin 1) i j)))
    (x : (Rect.unit (s := S1x2048x2048) ![0, 0, o] ![1, 2048, 128] inb).shape.Idx) :
    w x = acc4 x0 x1 x2 a ((Rect.unit (s := S1x2048x2048) ![0, 0, o] ![1, 2048, 128] inb).emb x) := by
  obtain ⟨a0, b, d, rfl⟩ : ∃ (a0 : Fin 1) (b : Fin 2048) (d : Fin 128), x = ix3 a0 b d := ⟨x 0, x 1, x 2, eq_ix3 x⟩
  obtain rfl : a0 = 0 := Subsingleton.elim _ _
  rw [hw, hv]
  unfold acc4
  have h1 : ((Rect.unit (s := S1x2048x2048) ![0, 0, o] ![1, 2048, 128] inb).emb (ix3 (0 : Fin 1) b d)) 1 = b :=
    Fin.ext (by rw [Rect.emb_apply]; show 0 + 1 * b.val = b.val; omega)
  have h2 : ((Rect.unit (s := S1x2048x2048) ![0, 0, o] ![1, 2048, 128] inb).emb (ix3 (0 : Fin 1) b d)) 2
      = (⟨o + d.val, by omega⟩ : Fin 2048) :=
    Fin.ext (by rw [Rect.emb_apply]; show o + 1 * d.val = o + d.val; omega)
  rw [h1, h2]

set_option maxHeartbeats 4000000 in
/-- The matrix accumulator when the reset is not taken: the running contents plus the point's contribution. -/
theorem out4_B (c : Dev nD) (i' : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : ¬cond0_0 i')
    (x0 : Vec Ideal S256x2048 .f32) (x1 : Vec Ideal S256x2048 .f32) (x2 : Vec Ideal S2048x2048 .bf16) (xo4 : Vec Ideal S1x2048x2048 .f32) (xo5 : Vec Ideal S1x1x2048 .f32)
    (i J : Fin 2048) :
    out0_B_4 (F := Ideal) c i' arg2 harg2 arg3 harg3 arg4 harg4 arg5 harg5 arg6 harg6 arg7 harg7 hc0 x0 x1 x2 xo4 xo5 (ix3 (0 : Fin 1) i J)
      = xo4 (ix3 (0 : Fin 1) i J) + ∑ r : Fin 256, (x1 (ix2 r i) - k0_pay5 x0 x2 (ix2 r i)) * x0 (ix2 r J) := by
  unfold out0_B_4
  rw [View.read_writes_eq_canon _ _ _ (cover0_B_4 c i' arg2 harg2 arg3 harg3 arg4 harg4 arg5 harg5 arg6 harg6 arg7 harg7 hc0 x0 x1 x2 xo4 xo5)]
  have hcov := cover0_B_4 c i' arg2 harg2 arg3 harg3 arg4 harg4 arg5 harg5 arg6 harg6 arg7 harg7 hc0 x0 x1 x2 xo4 xo5 (ix3 (0 : Fin 1) i J)
  revert hcov
  unfold kernelRun0_B
  dsimp only
  sl_unfold_words
  simp only [View.readAt_eq_ld, harg2.read_unread, harg3.read_unread, harg4.read_unread, harg6.read_unread,
    View.ld_unit_zero (S := S256x2048) hz2, View.ld_unit_zero (S := S2048x2048) hz2]
  intro hcov
  refine (View.canon_apply_of_pieces (acc4 x0 x1 x2 xo4) _ ?_ _ hcov).trans (acc4_apply x0 x1 x2 xo4 i J)
  intro p hp x
  simp only [List.mem_cons, List.not_mem_nil, or_false] at hp
  rcases hp with rfl | rfl | rfl | rfl | rfl | rfl | rfl | rfl | rfl | rfl | rfl | rfl | rfl | rfl | rfl | rfl
  · exact slab_acc4 x0 x1 x2 xo4 1920 (by omega) _ _ _ (chunk_15_apply x0 x1 x2 _) (fun _ _ => rfl) x
  · exact slab_acc4 x0 x1 x2 xo4 1792 (by omega) _ _ _ (chunk_14_apply x0 x1 x2 _) (fun _ _ => rfl) x
  · exact slab_acc4 x0 x1 x2 xo4 1664 (by omega) _ _ _ (chunk_13_apply x0 x1 x2 _) (fun _ _ => rfl) x
  · exact slab_acc4 x0 x1 x2 xo4 1536 (by omega) _ _ _ (chunk_12_apply x0 x1 x2 _) (fun _ _ => rfl) x
  · exact slab_acc4 x0 x1 x2 xo4 1408 (by omega) _ _ _ (chunk_11_apply x0 x1 x2 _) (fun _ _ => rfl) x
  · exact slab_acc4 x0 x1 x2 xo4 1280 (by omega) _ _ _ (chunk_10_apply x0 x1 x2 _) (fun _ _ => rfl) x
  · exact slab_acc4 x0 x1 x2 xo4 1152 (by omega) _ _ _ (chunk_9_apply x0 x1 x2 _) (fun _ _ => rfl) x
  · exact slab_acc4 x0 x1 x2 xo4 1024 (by omega) _ _ _ (chunk_8_apply x0 x1 x2 _) (fun _ _ => rfl) x
  · exact slab_acc4 x0 x1 x2 xo4 896 (by omega) _ _ _ (chunk_7_apply x0 x1 x2 _) (fun _ _ => rfl) x
  · exact slab_acc4 x0 x1 x2 xo4 768 (by omega) _ _ _ (chunk_6_apply x0 x1 x2 _) (fun _ _ => rfl) x
  · exact slab_acc4 x0 x1 x2 xo4 640 (by omega) _ _ _ (chunk_5_apply x0 x1 x2 _) (fun _ _ => rfl) x
  · exact slab_acc4 x0 x1 x2 xo4 512 (by omega) _ _ _ (chunk_4_apply x0 x1 x2 _) (fun _ _ => rfl) x
  · exact slab_acc4 x0 x1 x2 xo4 384 (by omega) _ _ _ (chunk_3_apply x0 x1 x2 _) (fun _ _ => rfl) x
  · exact slab_acc4 x0 x1 x2 xo4 256 (by omega) _ _ _ (chunk_2_apply x0 x1 x2 _) (fun _ _ => rfl) x
  · exact slab_acc4 x0 x1 x2 xo4 128 (by omega) _ _ _ (chunk_1_apply x0 x1 x2 _) (fun _ _ => rfl) x
  · exact slab_acc4 x0 x1 x2 xo4 0 (by omega) _ _ _ (chunk_0_apply x0 x1 x2 _) (fun _ _ => rfl) x

/-- The zero matrix block is zero at every index. -/
theorem pay2_zero (y : S1x2048x2048.Idx) : k0_pay2 (F := Ideal) y = 0 := by
  obtain ⟨a, b, d, rfl⟩ : ∃ (a : Fin 1) (b d : Fin 2048), y = ix3 a b d := ⟨y 0, y 1, y 2, eq_ix3 y⟩
  obtain rfl : a = 0 := Subsingleton.elim _ _
  exact pay2_apply b d

/-- Stores none of which holds an index leave there what the stores before them left. -/
theorem canon_append_of_not_mem {Val : EltTy → Type} [∀ e, Nonempty (Val e)] {S : Shape} {e : EltTy}
    (L Lz : List (View.Piece Val S e)) (y : S.Idx) (h : ∀ p ∈ L, y ∉ p.1.set) :
    View.canon (L ++ Lz) y = View.canon Lz y := by
  induction L with
  | nil => rfl
  | cons p L ih =>
    rw [List.cons_append, View.canon_cons_of_not_mem _ _ (h p List.mem_cons_self)]
    exact ih fun q hq => h q (List.mem_cons_of_mem _ hq)

/-- The stores made so far into the matrix accumulator, when the reset is taken: the zeroing store, preceded (last
    first) by column slabs that are blocks of `G`, lie in the columns below `n`, and cover those columns. -/
def ChainInv (G : S1x2048x2048.Idx → Elt Ideal .f32) (n : Nat) (L : List (View.Piece (Elt Ideal) S1x2048x2048 .f32)) : Prop :=
  ∃ L' : List (View.Piece (Elt Ideal) S1x2048x2048 .f32),
    L = L' ++ [(⟨Rect.unit (s := S1x2048x2048) ![0, 0, 0] S1x2048x2048.size inb_S1x2048x2048_S1x2048x2048_0_0_0, k0_pay2 (F := Ideal)⟩ : View.Piece (Elt Ideal) S1x2048x2048 .f32)]
    ∧ (∀ p ∈ L', ∀ x : p.1.shape.Idx, p.2 x = G (p.1.emb x))
    ∧ (∀ p ∈ L', ∀ y ∈ p.1.set, (y 2).val < n)
    ∧ (∀ y : S1x2048x2048.Idx, (y 2).val < n → ∃ p ∈ L', y ∈ p.1.set)

/-- After the zeroing store alone, no column is covered yet. -/
theorem chain_base (G : S1x2048x2048.Idx → Elt Ideal .f32) : ChainInv G 0 [(⟨Rect.unit (s := S1x2048x2048) ![0, 0, 0] S1x2048x2048.size inb_S1x2048x2048_S1x2048x2048_0_0_0, k0_pay2 (F := Ideal)⟩ : View.Piece (Elt Ideal) S1x2048x2048 .f32)] :=
  ⟨[], rfl, fun _ h => absurd h List.not_mem_nil, fun _ h => absurd h List.not_mem_nil, fun _ h => absurd h (Nat.not_lt_zero _)⟩

/-- One more column slab: its load reads the zeroing store (the slabs stored before it lie in lower columns), so its
    store is the block of the accumulated function its rectangle names, and the columns covered grow by 128. -/
theorem chain_step (X0 X1 : Vec Ideal S256x2048 .f32) (X2 : Vec Ideal S2048x2048 .bf16)
    (V : View sig .tc .vmem S1x2048x2048 .f32) (o n : Nat) (hn : n = o + 128) (ho : o + 128 ≤ 2048)
    (inb : ∀ a, (![0, 0, o] : Fin 3 → Nat) a + (![1, 2048, 128] : Fin 3 → Nat) a ≤ S1x2048x2048.size a)
    (L : List (View.Piece (Elt Ideal) S1x2048x2048 .f32)) (w : FVec Ideal S1x2048x128 .f32)
    (hw : ∀ (i : Fin 2048) (j : Fin 128), w (ix3 (0 : Fin 1) i j)
      = V.readCov L (Rect.unit (s := S1x2048x2048) ![0, 0, o] ![1, 2048, 128] inb).toLoadRect (ix3 (0 : Fin 1) i j)
        + ∑ r : Fin 256, (X1 (ix2 r i) - k0_pay5 X0 X2 (ix2 r i)) * X0 (ix2 r ⟨o + j.val, by omega⟩))
    (hL : ChainInv (acc4 X0 X1 X2 fun _ => 0) o L) :
    ChainInv (acc4 X0 X1 X2 fun _ => 0) n (⟨(Rect.unit (s := S1x2048x2048) ![0, 0, o] ![1, 2048, 128] inb), w⟩ :: L) := by
  obtain ⟨L', rfl, hblk, hcol, hcov⟩ := hL
  subst hn
  refine ⟨⟨(Rect.unit (s := S1x2048x2048) ![0, 0, o] ![1, 2048, 128] inb), w⟩ :: L', rfl, ?_, ?_, ?_⟩
  · intro p hp x
    rcases List.mem_cons.mp hp with rfl | hp'
    · refine slab_acc4 X0 X1 X2 (fun _ => 0) o ho inb w _ hw ?_ x
      intro i j
      rw [View.readCov_eq_canon']
      show View.canon (L' ++ [(⟨Rect.unit (s := S1x2048x2048) ![0, 0, 0] S1x2048x2048.size inb_S1x2048x2048_S1x2048x2048_0_0_0, k0_pay2 (F := Ideal)⟩ : View.Piece (Elt Ideal) S1x2048x2048 .f32)]) ((Rect.unit (s := S1x2048x2048) ![0, 0, o] ![1, 2048, 128] inb).toLoadRect.idx (ix3 (0 : Fin 1) i j)) = 0
      rw [canon_append_of_not_mem L' _ _ ?_, View.canon_unit_zero hz3]
      · exact pay2_zero _
      · intro q hq hy
        have h : o + 1 * j.val < o := hcol q hq _ hy
        omega
    · exact hblk p hp' x
  · intro p hp y hy
    rcases List.mem_cons.mp hp with rfl | hp'
    · have h : o ≤ (y 2).val ∧ (y 2).val < o + 128 :=
        (Rect.mem_set_unit (s := S1x2048x2048) (off := ![0, 0, o]) (size := ![1, 2048, 128]) (inb := inb)).mp hy 2
      exact h.2
    · have := hcol p hp' y hy
      omega
  · intro y hy
    by_cases h : (y 2).val < o
    · obtain ⟨p, hp, hyp⟩ := hcov y h
      exact ⟨p, List.mem_cons_of_mem _ hp, hyp⟩
    · refine ⟨⟨(Rect.unit (s := S1x2048x2048) ![0, 0, o] ![1, 2048, 128] inb), w⟩, List.mem_cons_self,
        (Rect.mem_set_unit (s := S1x2048x2048) (off := ![0, 0, o]) (size := ![1, 2048, 128]) (inb := inb)).mpr fun a => ?_⟩
      have h0 : (y 0).val < 1 := (y 0).isLt
      have h1 : (y 1).val < 2048 := (y 1).isLt
      match a with
      | ⟨0, _⟩ => exact ⟨Nat.zero_le _, by show (y 0).val < 0 + 1; omega⟩
      | ⟨1, _⟩ => exact ⟨Nat.zero_le _, by show (y 1).val < 0 + 2048; omega⟩
      | ⟨2, _⟩ => exact ⟨by show o ≤ (y 2).val; omega, by show (y 2).val < o + 128; omega⟩

set_option maxHeartbeats 4000000 in
/-- The sixteen slabs over the zeroing store: every column is covered by a block of the accumulated function. -/
theorem chainA (c : Dev nD) (i' : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i')
    (x0 : Vec Ideal S256x2048 .f32) (x1 : Vec Ideal S256x2048 .f32) (x2 : Vec Ideal S2048x2048 .bf16) :
    ChainInv (acc4 (View.readAt (Elt Ideal) arg2.view (Rect.unit (s := S256x2048) ![0, 0] S256x2048.size inb_S256x2048_S256x2048_0_0).toLoadRect (harg2.unread x0)) (View.readAt (Elt Ideal) arg3.view (Rect.unit (s := S256x2048) ![0, 0] S256x2048.size inb_S256x2048_S256x2048_0_0).toLoadRect (harg3.unread x1)) (View.readAt (Elt Ideal) arg4.view (Rect.unit (s := S2048x2048) ![0, 0] S2048x2048.size inb_S2048x2048_S2048x2048_0_0).toLoadRect (harg4.unread x2)) fun _ => 0) 2048
      (kernelRun0_A (F := Ideal) c i' arg2 harg2 arg3 harg3 arg4 harg4 arg5 harg5 arg6 harg6 arg7 harg7 hc0 x0 x1 x2).2.1 := by
  refine chain_step _ _ _ arg6.view 1920 2048 rfl (by omega) _ _ _ (chunk_15_apply _ _ _ _) ?_
  refine chain_step _ _ _ arg6.view 1792 1920 rfl (by omega) _ _ _ (chunk_14_apply _ _ _ _) ?_
  refine chain_step _ _ _ arg6.view 1664 1792 rfl (by omega) _ _ _ (chunk_13_apply _ _ _ _) ?_
  refine chain_step _ _ _ arg6.view 1536 1664 rfl (by omega) _ _ _ (chunk_12_apply _ _ _ _) ?_
  refine chain_step _ _ _ arg6.view 1408 1536 rfl (by omega) _ _ _ (chunk_11_apply _ _ _ _) ?_
  refine chain_step _ _ _ arg6.view 1280 1408 rfl (by omega) _ _ _ (chunk_10_apply _ _ _ _) ?_
  refine chain_step _ _ _ arg6.view 1152 1280 rfl (by omega) _ _ _ (chunk_9_apply _ _ _ _) ?_
  refine chain_step _ _ _ arg6.view 1024 1152 rfl (by omega) _ _ _ (chunk_8_apply _ _ _ _) ?_
  refine chain_step _ _ _ arg6.view 896 1024 rfl (by omega) _ _ _ (chunk_7_apply _ _ _ _) ?_
  refine chain_step _ _ _ arg6.view 768 896 rfl (by omega) _ _ _ (chunk_6_apply _ _ _ _) ?_
  refine chain_step _ _ _ arg6.view 640 768 rfl (by omega) _ _ _ (chunk_5_apply _ _ _ _) ?_
  refine chain_step _ _ _ arg6.view 512 640 rfl (by omega) _ _ _ (chunk_4_apply _ _ _ _) ?_
  refine chain_step _ _ _ arg6.view 384 512 rfl (by omega) _ _ _ (chunk_3_apply _ _ _ _) ?_
  refine chain_step _ _ _ arg6.view 256 384 rfl (by omega) _ _ _ (chunk_2_apply _ _ _ _) ?_
  refine chain_step _ _ _ arg6.view 128 256 rfl (by omega) _ _ _ (chunk_1_apply _ _ _ _) ?_
  refine chain_step _ _ _ arg6.view 0 128 rfl (by omega) _ _ _ (chunk_0_apply _ _ _ _) ?_
  exact chain_base _

set_option maxHeartbeats 4000000 in
/-- The matrix accumulator when the reset is taken: zero plus the point's contribution. -/
theorem out4_A (c : Dev nD) (i' : grid0.Coords) (arg2 : Memref sig .tc .vmem S256x2048 .f32) (harg2 : arg2.IsWhole) (arg3 : Memref sig .tc .vmem S256x2048 .f32) (harg3 : arg3.IsWhole) (arg4 : Memref sig .tc .vmem S2048x2048 .bf16) (harg4 : arg4.IsWhole) (arg5 : Memref sig .tc .vmem S256x2048 .f32) (harg5 : arg5.IsWhole) (arg6 : Memref sig .tc .vmem S1x2048x2048 .f32) (harg6 : arg6.IsWhole) (arg7 : Memref sig .tc .vmem S1x1x2048 .f32) (harg7 : arg7.IsWhole) (hc0 : cond0_0 i')
    (x0 : Vec Ideal S256x2048 .f32) (x1 : Vec Ideal S256x2048 .f32) (x2 : Vec Ideal S2048x2048 .bf16) (i J : Fin 2048) :
    out0_A_4 (F := Ideal) c i' arg2 harg2 arg3 harg3 arg4 harg4 arg5 harg5 arg6 harg6 arg7 harg7 hc0 x0 x1 x2 (ix3 (0 : Fin 1) i J)
      = 0 + ∑ r : Fin 256, (x1 (ix2 r i) - k0_pay5 x0 x2 (ix2 r i)) * x0 (ix2 r J) := by
  unfold out0_A_4
  rw [View.read_writes_eq_canon _ _ _ (cover0_A_4 c i' arg2 harg2 arg3 harg3 arg4 harg4 arg5 harg5 arg6 harg6 arg7 harg7 hc0 x0 x1 x2)]
  obtain ⟨L', hL, hblk, -, hcov⟩ := chainA c i' arg2 harg2 arg3 harg3 arg4 harg4 arg5 harg5 arg6 harg6 arg7 harg7 hc0 x0 x1 x2
  rw [hL]
  refine (View.canon_append_of_pieces _ _ L' hblk _ (hcov _ J.isLt)).trans ?_
  have e0 : (View.readAt (Elt Ideal) arg2.view (Rect.unit (s := S256x2048) ![0, 0] S256x2048.size inb_S256x2048_S256x2048_0_0).toLoadRect (harg2.unread x0)) = x0 := by
    simp only [View.readAt_eq_ld, harg2.read_unread, View.ld_unit_zero (S := S256x2048) hz2]
  have e1 : (View.readAt (Elt Ideal) arg3.view (Rect.unit (s := S256x2048) ![0, 0] S256x2048.size inb_S256x2048_S256x2048_0_0).toLoadRect (harg3.unread x1)) = x1 := by
    simp only [View.readAt_eq_ld, harg3.read_unread, View.ld_unit_zero (S := S256x2048) hz2]
  have e2 : (View.readAt (Elt Ideal) arg4.view (Rect.unit (s := S2048x2048) ![0, 0] S2048x2048.size inb_S2048x2048_S2048x2048_0_0).toLoadRect (harg4.unread x2)) = x2 := by
    simp only [View.readAt_eq_ld, harg4.read_unread, View.ld_unit_zero (S := S2048x2048) hz2]
  rw [e0, e1, e2, acc4_apply]

end Cert.KernelIdeal.Hand

end
-- ==== Proof.KI.Sums.lean ====
/-
  The sum algebra that joins the two programs: 16384 rows walked as 64 blocks of 256, accumulated in two halves of 32
  blocks with a reset at the start of each half, add up to the sum over all rows; and the scale 2⁻¹⁴ is division by 16384.
-/
import Idealize.ShloMosaic.PureOps.Ideal

noncomputable section

open scoped BigOperators

namespace Cert.KernelIdeal.Hand

open Idealize.ShloMosaic

/-- The sum of f over block t: rows 256·t … 256·t + 255. -/
def blockSum (f : Fin 16384 → EReal) (t : ℕ) (ht : t < 64) : EReal :=
  ∑ r : Fin 256, f ⟨256 * t + r.val, by omega⟩

/-- The running accumulator after block n: reset to zero at the start of each half of 32 blocks. -/
def runAcc (f : Fin 16384 → EReal) : (n : ℕ) → n < 64 → EReal
  | 0, h => 0 + blockSum f 0 h
  | n + 1, h => if (n + 1) % 32 = 0 then 0 + blockSum f (n + 1) h
      else runAcc f n (Nat.lt_of_succ_lt h) + blockSum f (n + 1) h

/-- f extended by zero past its domain. -/
def ext0 (f : Fin 16384 → EReal) (n : ℕ) : EReal := if h : n < 16384 then f ⟨n, h⟩ else 0

/-- The block sums extended by zero past the last block. -/
def blockSum0 (f : Fin 16384 → EReal) (t : ℕ) : EReal := if ht : t < 64 then blockSum f t ht else 0

/-- A sum over the first q·T naturals is T blocks of q. -/
theorem sum_range_blocks {M : Type*} [AddCommMonoid M] (g : ℕ → M) (q : ℕ) :
    ∀ T : ℕ, ∑ n ∈ Finset.range (q * T), g n = ∑ t ∈ Finset.range T, ∑ r ∈ Finset.range q, g (q * t + r)
  | 0 => by simp
  | T + 1 => by rw [Nat.mul_succ, Finset.sum_range_add, sum_range_blocks g q T, Finset.sum_range_succ]

theorem blockSum_eq_range (f : Fin 16384 → EReal) (t : ℕ) (ht : t < 64) :
    blockSum f t ht = ∑ r ∈ Finset.range 256, ext0 f (256 * t + r) := by
  rw [Finset.sum_range]
  unfold blockSum
  refine Finset.sum_congr rfl fun r _ => ?_
  rw [ext0, dif_pos (by omega)]

theorem sum_ext0 (f : Fin 16384 → EReal) : ∑ n ∈ Finset.range 16384, ext0 f n = ∑ n : Fin 16384, f n := by
  rw [Finset.sum_range]
  refine Finset.sum_congr rfl fun n _ => ?_
  rw [ext0, dif_pos n.isLt]

theorem runAcc_reset (f : Fin 16384 → EReal) (t : ℕ) (ht : t < 64) (h0 : t % 32 = 0) :
    runAcc f t ht = 0 + blockSum f t ht := by
  cases t with
  | zero => rfl
  | succ n => rw [runAcc]; exact if_pos h0

theorem runAcc_step (f : Fin 16384 → EReal) (n : ℕ) (h : n + 1 < 64) (hne : (n + 1) % 32 ≠ 0) :
    runAcc f (n + 1) h = runAcc f n (Nat.lt_of_succ_lt h) + blockSum f (n + 1) h := by
  rw [runAcc]; exact if_neg hne

/-- From a reset point b, after m further blocks the accumulator is the sum of blocks b … b + m. -/
theorem runAcc_from (f : Fin 16384 → EReal) (b : ℕ) (hb : b % 32 = 0) :
    ∀ (m : ℕ) (hm : m < 32) (h : b + m < 64), runAcc f (b + m) h = ∑ s ∈ Finset.range (m + 1), blockSum0 f (b + s)
  | 0, _, h => by
    rw [Finset.sum_range_one]
    show runAcc f b h = blockSum0 f b
    rw [runAcc_reset f b h hb, zero_add, blockSum0, dif_pos (show b < 64 from h)]
  | m + 1, hm, h => by
    have hne : (b + m + 1) % 32 ≠ 0 := by omega
    rw [Finset.sum_range_succ, ← runAcc_from f b hb m (by omega) (by omega)]
    show runAcc f (b + m + 1) h = _
    rw [runAcc_step f (b + m) h hne]
    congr 1
    show blockSum f (b + m + 1) h = blockSum0 f (b + (m + 1))
    rw [blockSum0, dif_pos h]
    rfl

/-- After the last block of half h the accumulator holds the sum of that half's 32 blocks. -/
theorem runAcc_half (f : Fin 16384 → EReal) (h : Fin 2) :
    runAcc f (32 * h.val + 31) (by omega) = ∑ s : Fin 32, blockSum f (32 * h.val + s.val) (by omega) := by
  rw [runAcc_from f (32 * h.val) (by omega) 31 (by norm_num) (by omega), Finset.sum_range]
  refine Finset.sum_congr rfl fun s _ => ?_
  rw [blockSum0, dif_pos (by omega)]

/-- The two halves' accumulators add up, from zero, to the sum over all 16384 rows. -/
theorem sum_halves (f : Fin 16384 → EReal) :
    (0 : EReal) + ∑ h : Fin 2, runAcc f (32 * h.val + 31) (by omega) = ∑ n : Fin 16384, f n := by
  have e1 : ∀ h : Fin 2, runAcc f (32 * h.val + 31) (by omega) = ∑ s ∈ Finset.range 32, blockSum0 f (32 * h.val + s) :=
    fun h => runAcc_from f (32 * h.val) (by omega) 31 (by norm_num) (by omega)
  rw [zero_add, Finset.sum_congr rfl fun h _ => e1 h,
    ← Finset.sum_range (fun h => ∑ s ∈ Finset.range 32, blockSum0 f (32 * h + s)),
    ← sum_range_blocks (blockSum0 f) 32 2, ← sum_ext0 f]
  show ∑ t ∈ Finset.range 64, blockSum0 f t = ∑ n ∈ Finset.range (256 * 64), ext0 f n
  rw [sum_range_blocks (ext0 f) 256 64]
  refine Finset.sum_congr rfl fun t ht => ?_
  have ht' : t < 64 := Finset.mem_range.mp ht
  rw [blockSum0, dif_pos ht', blockSum_eq_range]

/-! ## The scale -/

/-- The word 0x38800000 denotes 2⁻¹⁴. -/
theorem ofBits_inv16384 : Ideal.ofBits .f32 0x38800000#32 = (((1 / 16384 : ℝ)) : EReal) := by
  simp [Ideal.ofBits, Ideal.ieee, -EReal.coe_mul]; norm_num

/-- The word 0x46800000 denotes 16384. -/
theorem ofBits_16384 : Ideal.ofBits .f32 0x46800000#32 = ((16384 : ℝ) : EReal) := by
  simp [Ideal.ofBits, Ideal.ieee, -EReal.coe_mul]; norm_num

/-- Scaling by 2⁻¹⁴ is division by 16384, at the infinities too. -/
theorem scale_eq (x : EReal) :
    x * (Ideal.ofBits .f32 0x38800000#32 : EReal) = Ideal.div x (Ideal.ofBits .f32 0x46800000#32) := by
  rw [ofBits_inv16384, ofBits_16384, Ideal.div_coe (by norm_num)]

end Cert.KernelIdeal.Hand

end
-- ==== Proof.KI.Arrays.lean ====
/-
  The kernel's three output arrays after the run, as functions of the arrays the region finds.
  Point t handles rows 256·t … 256·t+255 of k and v. The read-out block it stores is k's rows times Wᵀ. The two
  accumulators are running sums over the points of a half (t / 32), reset at the first point of the half: after point
  t the first holds, at (i, j), the sum over the half's points so far of ∑ᵣ (v − k Wᵀ)(256·t'+r, i) · k(256·t'+r, j),
  the second, at j, the sum of the column sums ∑ᵣ k(256·t'+r, j). Each half's accumulators are written back after its
  last point, so the arrays end holding the two halves' totals.
-/
import proofs.«160550_j61804579389940_2_alg».proof.Proof.KI.Out
import proofs.«160550_j61804579389940_2_alg».proof.Proof.KI.Sums
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open BigOperators

variable (m : (ℓ : Loc nD τ sig) → Buf (Elt Ideal) ℓ)

theorem lt64 (t : Fin cfg0.N) : t.val < 64 := lt_of_lt_of_eq t.isLt (show cfg0.N = 64 from N_0)
theorem lt64' {n : ℕ} (h : n < cfg0.N) : n < 64 := lt_of_lt_of_eq h (show cfg0.N = 64 from N_0)

theorem runAcc_congr (f : Fin 16384 → EReal) {n n' : ℕ} (e : n = n') (h : n < 64) (h' : n' < 64) : runAcc f n h = runAcc f n' h' := by
  subst e; rfl

/-! ## The printed index maps, decided over the grid -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 3) = t.val / 32 ∧ win0_4.index t (1 : Fin 3) = 0 ∧ win0_4.index t (2 : Fin 3) = 0 :=
  (by decide +kernel : ∀ t : Fin grid0.N, win0_4.index t (0 : Fin 3) = t.val / 32 ∧ win0_4.index t (1 : Fin 3) = 0 ∧ win0_4.index t (2 : Fin 3) = 0)
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, win0_5.index t (0 : Fin 3) = t.val / 32 ∧ win0_5.index t (1 : Fin 3) = 0 ∧ win0_5.index t (2 : Fin 3) = 0)

/-! ## The input blocks, read at an index -/

/-- Row r of point t's block of k is row 256·t + r of k. -/
theorem iblk0_apply (c : Dev nD) (t : Fin cfg0.N) (r : Fin 256) (j : Fin 2048) :
    (iblk m c 0 t : Vec Ideal S256x2048 .f32) (ix2 r j) = V m c main_arg0 (ix2 (⟨256 * t.val + r.val, by have := lt64 t; omega⟩ : Fin 16384) j) := by
  obtain ⟨e0, e1⟩ := idx0 t
  unfold iblk
  rw [View.read_apply]
  show V m c main_arg0 _ = V m c main_arg0 _
  congr 1
  funext a
  apply Fin.ext
  match a with
  | ⟨0, _⟩ => show win0_0.index t (0 : Fin 2) * 256 + 1 * r.val = 256 * t.val + r.val; rw [e0]; omega
  | ⟨1, _⟩ => show win0_0.index t (1 : Fin 2) * 2048 + 1 * j.val = j.val; rw [e1]; omega

/-- The same for v. -/
theorem iblk1_apply (c : Dev nD) (t : Fin cfg0.N) (r : Fin 256) (j : Fin 2048) :
    (iblk m c 1 t : Vec Ideal S256x2048 .f32) (ix2 r j) = V m c main_arg1 (ix2 (⟨256 * t.val + r.val, by have := lt64 t; omega⟩ : Fin 16384) j) := by
  obtain ⟨e0, e1⟩ := idx1 t
  unfold iblk
  rw [View.read_apply]
  show V m c main_arg1 _ = V m c main_arg1 _
  congr 1
  funext a
  apply Fin.ext
  match a with
  | ⟨0, _⟩ => show win0_1.index t (0 : Fin 2) * 256 + 1 * r.val = 256 * t.val + r.val; rw [e0]; omega
  | ⟨1, _⟩ => show win0_1.index t (1 : Fin 2) * 2048 + 1 * j.val = j.val; rw [e1]; omega

/-- The third input's one block is the whole rounded W. -/
theorem iblk2_apply (c : Dev nD) (t : Fin cfg0.N) (i : Fin 2048) (j : Fin 2048) :
    (iblk m c 2 t : Vec Ideal S2048x2048 .bf16) (ix2 i j) = V m c main_v7 (ix2 i j) := by
  obtain ⟨e0, e1⟩ := idx2 t
  unfold iblk
  rw [View.read_apply]
  show V m c main_v7 _ = V m c main_v7 _
  congr 1
  funext a
  apply Fin.ext
  match a with
  | ⟨0, _⟩ => show win0_2.index t (0 : Fin 2) * 2048 + 1 * i.val = i.val; rw [e0]; omega
  | ⟨1, _⟩ => show win0_2.index t (1 : Fin 2) * 2048 + 1 * j.val = j.val; rw [e1]; omega

/-! ## The three functions -/

/-- k Wᵀ at (n, i). -/
def roF (k : Vec Ideal S16384x2048 .f32) (w : Vec Ideal S2048x2048 .bf16) (n : Fin 16384) (i : Fin 2048) : EReal :=
  ∑ j : Fin 2048, k (ix2 n j) * w (ix2 i j)
/-- Row n's term of the gradient at (i, j): (v − k Wᵀ)(n, i) · k(n, j). -/
def f4F (k v : Vec Ideal S16384x2048 .f32) (w : Vec Ideal S2048x2048 .bf16) (i j : Fin 2048) : Fin 16384 → EReal :=
  fun n => (v (ix2 n i) - roF k w n i) * k (ix2 n j)
/-- Row n's term of the column sum at j: k(n, j). -/
def f5F (k : Vec Ideal S16384x2048 .f32) (j : Fin 2048) : Fin 16384 → EReal :=
  fun n => k (ix2 n j)
/-- The read-out array as a function of k and W. -/
def G3F (k : Vec Ideal S16384x2048 .f32) (w : Vec Ideal S2048x2048 .bf16) : S16384x2048.Idx → EReal := fun y => roF k w (y 0) (y 1)
/-- The first accumulator array: half h's total of the gradient terms. -/
def G4F (k v : Vec Ideal S16384x2048 .f32) (w : Vec Ideal S2048x2048 .bf16) : S2x2048x2048.Idx → EReal :=
  fun y => runAcc (f4F k v w (y 1) (y 2)) (32 * (y 0).val + 31) (by have : (y 0).val < 2 := (y 0).isLt; omega)
/-- The second accumulator array: half h's total of the column sums. -/
def G5F (k : Vec Ideal S16384x2048 .f32) : S2x1x2048.Idx → EReal :=
  fun y => runAcc (f5F k (y 2)) (32 * (y 0).val + 31) (by have : (y 0).val < 2 := (y 0).isLt; omega)

/-- The same at the arrays the region finds. -/
abbrev ro (c : Dev nD) (n : Fin 16384) (i : Fin 2048) : EReal := roF (V m c main_arg0) (V m c main_v7) n i
abbrev f4 (c : Dev nD) (i j : Fin 2048) : Fin 16384 → EReal := f4F (V m c main_arg0) (V m c main_arg1) (V m c main_v7) i j
abbrev f5 (c : Dev nD) (j : Fin 2048) : Fin 16384 → EReal := f5F (V m c main_arg0) j
abbrev G3 (c : Dev nD) : S16384x2048.Idx → EReal := G3F (V m c main_arg0) (V m c main_v7)
abbrev G4 (c : Dev nD) : S2x2048x2048.Idx → EReal := G4F (V m c main_arg0) (V m c main_arg1) (V m c main_v7)
abbrev G5 (c : Dev nD) : S2x1x2048.Idx → EReal := G5F (V m c main_arg0)

theorem G3_apply (c : Dev nD) (n : Fin 16384) (i : Fin 2048) : G3 m c (ix2 n i) = ro m c n i := rfl
theorem G4_apply (c : Dev nD) (h : Fin 2) (i j : Fin 2048) : G4 m c (ix3 h i j) = runAcc (f4 m c i j) (32 * h.val + 31) (by omega) := rfl
theorem G5_apply (c : Dev nD) (h : Fin 2) (j : Fin 2048) : G5 m c (ix3 h (0 : Fin 1) j) = runAcc (f5 m c j) (32 * h.val + 31) (by omega) := rfl

/-! ## What the output buffers hold after each point -/

theorem fst_of_eq {α β : Type} {p : α × β} {a : α} {b : β} (h : p = (a, b)) : p.1 = a := by rw [h]
theorem snd_of_eq {α β : Type} {p : α × β} {a : α} {b : β} (h : p = (a, b)) : p.2 = b := by rw [h]

/-- The read-out block after point t. -/
theorem ro_eq (c : Dev nD) (t : Fin cfg0.N) :
    (outsAt0 m c t.val t.isLt).1 = k0_pay5 (iblk m c 0 t) (iblk m c 2 t) := by
  by_cases h0 : t.val % 32 = 0
  · exact (fst_of_eq (outsAt0_A m c t h0)).trans (out3_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))
  · exact (fst_of_eq (outsAt0_B m c t h0)).trans (out3_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)

/-- One point's contribution to the column sum: the point's block of k is k's rows 256·n … 256·n + 255. -/
theorem colBlock (k : Vec Ideal S16384x2048 .f32) (n : ℕ) (hn : n < 64) (x0 : Vec Ideal S256x2048 .f32)
    (hx0 : ∀ (r : Fin 256) (j : Fin 2048), x0 (ix2 r j) = k (ix2 (⟨256 * n + r.val, by omega⟩ : Fin 16384) j)) (j : Fin 2048) :
    (∑ r : Fin 256, x0 (ix2 r j)) = blockSum (f5F k j) n hn := by
  unfold blockSum f5F
  exact Finset.sum_congr rfl fun r _ => hx0 r j

/-- One point's contribution to the gradient. -/
theorem gradBlock (k v : Vec Ideal S16384x2048 .f32) (w : Vec Ideal S2048x2048 .bf16) (n : ℕ) (hn : n < 64)
    (x0 x1 : Vec Ideal S256x2048 .f32) (x2 : Vec Ideal S2048x2048 .bf16)
    (hx0 : ∀ (r : Fin 256) (j : Fin 2048), x0 (ix2 r j) = k (ix2 (⟨256 * n + r.val, by omega⟩ : Fin 16384) j))
    (hx1 : ∀ (r : Fin 256) (j : Fin 2048), x1 (ix2 r j) = v (ix2 (⟨256 * n + r.val, by omega⟩ : Fin 16384) j))
    (hx2 : ∀ (i j : Fin 2048), x2 (ix2 i j) = w (ix2 i j)) (i j : Fin 2048) :
    (∑ r : Fin 256, (x1 (ix2 r i) - k0_pay5 x0 x2 (ix2 r i)) * x0 (ix2 r j)) = blockSum (f4F k v w i j) n hn := by
  unfold blockSum f4F roF
  refine Finset.sum_congr rfl fun r _ => ?_
  rw [hx1, hx0, pay5_apply]
  congr 2
  exact Finset.sum_congr rfl fun j' _ => by rw [hx0, hx2]

/-- The three output buffers' values after a point of the reset case / of the accumulating case, at an index. -/
theorem acc5_A (c : Dev nD) (t : Fin cfg0.N) (h0 : t.val % 32 = 0) (j : Fin 2048) :
    (outsAt0 m c t.val t.isLt).2.2 (ix3 (0 : Fin 1) (0 : Fin 1) j) = 0 + blockSum (f5 m c j) t.val (lt64 t) := by
  rw [show (outsAt0 m c t.val t.isLt).2.2 = _ from (snd_of_eq (snd_of_eq (outsAt0_A m c t h0))).trans (out5_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t))]
  refine (pay27_apply (iblk m c 0 t) (k0_pay3 (F := Ideal)) j).trans ?_
  rw [pay3_apply, colBlock (V m c main_arg0) t.val (lt64 t) (iblk m c 0 t) (iblk0_apply m c t) j]

theorem acc5_B (c : Dev nD) (t : Fin cfg0.N) (h0 : ¬t.val % 32 = 0) (j : Fin 2048) :
    (outsAt0 m c t.val t.isLt).2.2 (ix3 (0 : Fin 1) (0 : Fin 1) j)
      = (outsAt0 m c (t.val - 1) (Nat.lt_of_le_of_lt (Nat.sub_le _ _) t.isLt)).2.2 (ix3 (0 : Fin 1) (0 : Fin 1) j) + blockSum (f5 m c j) t.val (lt64 t) := by
  rw [show (outsAt0 m c t.val t.isLt).2.2 = _ from (snd_of_eq (snd_of_eq (outsAt0_B m c t h0))).trans (out5_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)]
  refine (pay27_apply (iblk m c 0 t) _ j).trans ?_
  rw [colBlock (V m c main_arg0) t.val (lt64 t) (iblk m c 0 t) (iblk0_apply m c t) j]

theorem acc4_A (c : Dev nD) (t : Fin cfg0.N) (h0 : t.val % 32 = 0) (i j : Fin 2048) :
    (outsAt0 m c t.val t.isLt).2.1 (ix3 (0 : Fin 1) i j) = 0 + blockSum (f4 m c i j) t.val (lt64 t) := by
  rw [show (outsAt0 m c t.val t.isLt).2.1 = _ from fst_of_eq (snd_of_eq (outsAt0_A m c t h0))]
  refine (out4_A c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) i j).trans ?_
  rw [gradBlock (V m c main_arg0) (V m c main_arg1) (V m c main_v7) t.val (lt64 t) (iblk m c 0 t) (iblk m c 1 t) (iblk m c 2 t)
    (iblk0_apply m c t) (iblk1_apply m c t) (iblk2_apply m c t) i j]

theorem acc4_B (c : Dev nD) (t : Fin cfg0.N) (h0 : ¬t.val % 32 = 0) (i j : Fin 2048) :
    (outsAt0 m c t.val t.isLt).2.1 (ix3 (0 : Fin 1) i j)
      = (outsAt0 m c (t.val - 1) (Nat.lt_of_le_of_lt (Nat.sub_le _ _) t.isLt)).2.1 (ix3 (0 : Fin 1) i j) + blockSum (f4 m c i j) t.val (lt64 t) := by
  rw [show (outsAt0 m c t.val t.isLt).2.1 = _ from fst_of_eq (snd_of_eq (outsAt0_B m c t h0))]
  refine (out4_B c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2 i j).trans ?_
  rw [gradBlock (V m c main_arg0) (V m c main_arg1) (V m c main_v7) t.val (lt64 t) (iblk m c 0 t) (iblk m c 1 t) (iblk m c 2 t)
    (iblk0_apply m c t) (iblk1_apply m c t) (iblk2_apply m c t) i j]

/-- The second accumulator after point n is the running column sum. -/
theorem acc5_eq (c : Dev nD) (j : Fin 2048) : ∀ (n : ℕ) (h : n < cfg0.N),
    (outsAt0 m c n h).2.2 (ix3 (0 : Fin 1) (0 : Fin 1) j) = runAcc (f5 m c j) n (lt64' h)
  | 0, h => (acc5_A m c ⟨0, h⟩ rfl j).trans (runAcc_reset _ _ _ rfl).symm
  | n + 1, h => by
    by_cases h0 : (n + 1) % 32 = 0
    · exact (acc5_A m c ⟨n + 1, h⟩ h0 j).trans (runAcc_reset _ _ _ h0).symm
    · refine (acc5_B m c ⟨n + 1, h⟩ h0 j).trans ?_
      rw [runAcc_step _ _ _ h0]
      exact congrArg (· + _) (acc5_eq c j n _)

/-- The first accumulator after point n is the running gradient sum. -/
theorem acc4_eq (c : Dev nD) (i j : Fin 2048) : ∀ (n : ℕ) (h : n < cfg0.N),
    (outsAt0 m c n h).2.1 (ix3 (0 : Fin 1) i j) = runAcc (f4 m c i j) n (lt64' h)
  | 0, h => (acc4_A m c ⟨0, h⟩ rfl i j).trans (runAcc_reset _ _ _ rfl).symm
  | n + 1, h => by
    by_cases h0 : (n + 1) % 32 = 0
    · exact (acc4_A m c ⟨n + 1, h⟩ h0 i j).trans (runAcc_reset _ _ _ h0).symm
    · refine (acc4_B m c ⟨n + 1, h⟩ h0 i j).trans ?_
      rw [runAcc_step _ _ _ h0]
      exact congrArg (· + _) (acc4_eq c i j n _)

end Cert.KernelIdeal.Hand

end
-- ==== Proof.KI.Final.lean ====
/-
  The kernel's three output arrays after the run. Every point writes its read-out block back, and the blocks tile the
  read-out array by rows; each half's two accumulator blocks are written back after the half's last point, and the two
  halves' blocks tile the accumulator arrays along their first axis. So each array ends holding one function of the
  arrays the region finds.
-/
import proofs.«160550_j61804579389940_2_alg».proof.Proof.KI.Arrays

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open BigOperators

variable (m : (ℓ : Loc nD τ sig) → Buf (Elt Ideal) ℓ)

/-! ## The read-out array -/

/-- Point t's read-out block at (r, i) is k Wᵀ at row 256·t + r. -/
theorem ro_blk (c : Dev nD) (t : Fin cfg0.N) (r : Fin 256) (i : Fin 2048) :
    k0_pay5 (iblk m c 0 t) (iblk m c 2 t) (ix2 r i) = ro m c (⟨256 * t.val + r.val, by have := lt64 t; omega⟩ : Fin 16384) i := by
  rw [pay5_apply]
  unfold ro roF
  exact Finset.sum_congr rfl fun j' _ => by rw [iblk0_apply, iblk2_apply]

/-- Block t of the read-out function is what point t stores. -/
theorem blk3_read (c : Dev nD) (t : Fin cfg0.N) :
    (((cfg0.win 3).blk t).view.read (Elt Ideal) (G3 m c) : Vec Ideal S256x2048 .f32) = k0_pay5 (iblk m c 0 t) (iblk m c 2 t) := by
  have hN := lt64 t
  obtain ⟨e0, e1⟩ := idx3 t
  funext y
  obtain ⟨r, i, rfl⟩ : ∃ (r : Fin 256) (i : Fin 2048), y = ix2 r i := ⟨y 0, y 1, eq_ix2 y⟩
  rw [View.read_apply]
  have he : ((cfg0.win 3).blk t).view.emb (ix2 r i) = ix2 (⟨256 * t.val + r.val, by omega⟩ : Fin 16384) i := by
    funext d; apply Fin.ext
    match d with
    | ⟨0, _⟩ => show win0_3.index t (0 : Fin 2) * 256 + 1 * r.val = 256 * t.val + r.val; omega
    | ⟨1, _⟩ => show win0_3.index t (1 : Fin 2) * 2048 + 1 * i.val = i.val; omega
  rw [he, G3_apply]
  exact (ro_blk m c t r i).symm

/-- What point t writes back is block t of the read-out function. -/
theorem flushed3_eq (c : Dev nD) (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after0_3, ro_eq]
  exact (blk3_read m c t).symm

theorem mem_blk3 (t : Fin cfg0.N) (y : S16384x2048.Idx) :
    y ∈ ((cfg0.win 3).blk t).view.set ↔ ∀ a : Fin 2, win0_3.index t a * S256x2048.size a ≤ (y a).val ∧ (y a).val < win0_3.index t a * S256x2048.size a + S256x2048.size a := by
  show y ∈ ((View.whole main_v8_0).slice (win0_3.rect t)).set ↔ _
  rw [View.set_slice_whole, Rect.mem_set_unit]
  exact Iff.rfl

/-- Row n lies in point n / 256's block. -/
theorem cover3 (y : S16384x2048.Idx) : ∃ t : Fin cfg0.N, (cfg0.win 3).flush t = true ∧ y ∈ ((cfg0.win 3).blk t).view.set := by
  have h0 : (y 0).val < 16384 := (y 0).isLt
  have h1 : (y 1).val < 2048 := (y 1).isLt
  obtain ⟨t, ht⟩ : ∃ t : Fin cfg0.N, t.val = (y 0).val / 256 := ⟨⟨(y 0).val / 256, by rw [show cfg0.N = 64 from N_0]; omega⟩, rfl⟩
  obtain ⟨e0, e1⟩ := idx3 t
  refine ⟨t, flush0_3 t, ?_⟩
  rw [mem_blk3]
  intro a
  match a with
  | ⟨0, _⟩ => show win0_3.index t (0 : Fin 2) * 256 ≤ (y 0).val ∧ (y 0).val < win0_3.index t (0 : Fin 2) * 256 + 256; rw [e0, ht]; omega
  | ⟨1, _⟩ => show win0_3.index t (1 : Fin 2) * 2048 ≤ (y 1).val ∧ (y 1).val < win0_3.index t (1 : Fin 2) * 2048 + 2048; rw [e1]; omega

/-- The read-out array ends holding k Wᵀ. -/
theorem final3 (c : Dev nD) : (dats m 0 c).arrAt 3 cfg0.N = G3 m c :=
  (dats m 0 c).arrAt_eq_of_cover 3 (G3 m c) (flushed3_eq m c) cover3

/-! ## The first accumulator array -/

/-- Half t / 32's block of the first accumulator function is what the buffer holds after the half's last point. -/
theorem blk4_read (c : Dev nD) (t : Fin cfg0.N) (h31 : t.val % 32 = 31) :
    (((cfg0.win 4).blk t).view.read (Elt Ideal) (G4 m c) : Vec Ideal S1x2048x2048 .f32) = (outsAt0 m c t.val t.isLt).2.1 := by
  have hN := lt64 t
  obtain ⟨e0, e1, e2⟩ := idx4 t
  funext y
  obtain ⟨a, i, j, rfl⟩ : ∃ (a : Fin 1) (i j : Fin 2048), y = ix3 a i j := ⟨y 0, y 1, y 2, eq_ix3 y⟩
  obtain rfl : a = 0 := Subsingleton.elim _ _
  rw [View.read_apply]
  have he : ((cfg0.win 4).blk t).view.emb (ix3 (0 : Fin 1) i j) = ix3 (⟨t.val / 32, by omega⟩ : Fin 2) i j := by
    funext d; apply Fin.ext
    match d with
    | ⟨0, _⟩ => show win0_4.index t (0 : Fin 3) * 1 + 1 * 0 = t.val / 32; omega
    | ⟨1, _⟩ => show win0_4.index t (1 : Fin 3) * 2048 + 1 * i.val = i.val; omega
    | ⟨2, _⟩ => show win0_4.index t (2 : Fin 3) * 2048 + 1 * j.val = j.val; omega
  rw [he, G4_apply, acc4_eq]
  exact runAcc_congr _ (by show 32 * (t.val / 32) + 31 = t.val; omega) _ _

theorem flushed4_eq (c : Dev nD) (t : Fin cfg0.N) (hf : (cfg0.win 4).flush t = true) :
    (dats m 0 c).flushed 4 t = ((cfg0.win 4).blk t).view.read (Elt Ideal) (G4 m c) := by
  show (cfg0.win 4).cut (grid0.coords t) ((dats m 0 c).after 4 t) = _
  rw [after0_4]
  exact (blk4_read m c t ((flush0_4 t).mp hf)).symm

theorem mem_blk4 (t : Fin cfg0.N) (y : S2x2048x2048.Idx) :
    y ∈ ((cfg0.win 4).blk t).view.set ↔ ∀ a : Fin 3, win0_4.index t a * S1x2048x2048.size a ≤ (y a).val ∧ (y a).val < win0_4.index t a * S1x2048x2048.size a + S1x2048x2048.size a := by
  show y ∈ ((View.whole main_v8_1).slice (win0_4.rect t)).set ↔ _
  rw [View.set_slice_whole, Rect.mem_set_unit]
  exact Iff.rfl

/-- Half h's block is written back after point 32·h + 31. -/
theorem cover4 (y : S2x2048x2048.Idx) : ∃ t : Fin cfg0.N, (cfg0.win 4).flush t = true ∧ y ∈ ((cfg0.win 4).blk t).view.set := by
  have h0 : (y 0).val < 2 := (y 0).isLt
  have h1 : (y 1).val < 2048 := (y 1).isLt
  have h2 : (y 2).val < 2048 := (y 2).isLt
  obtain ⟨t, ht⟩ : ∃ t : Fin cfg0.N, t.val = 32 * (y 0).val + 31 := ⟨⟨32 * (y 0).val + 31, by rw [show cfg0.N = 64 from N_0]; omega⟩, rfl⟩
  obtain ⟨e0, e1, e2⟩ := idx4 t
  refine ⟨t, (flush0_4 t).mpr (by rw [ht]; omega), ?_⟩
  rw [mem_blk4]
  intro a
  match a with
  | ⟨0, _⟩ => show win0_4.index t (0 : Fin 3) * 1 ≤ (y 0).val ∧ (y 0).val < win0_4.index t (0 : Fin 3) * 1 + 1; rw [e0, ht]; omega
  | ⟨1, _⟩ => show win0_4.index t (1 : Fin 3) * 2048 ≤ (y 1).val ∧ (y 1).val < win0_4.index t (1 : Fin 3) * 2048 + 2048; rw [e1]; omega
  | ⟨2, _⟩ => show win0_4.index t (2 : Fin 3) * 2048 ≤ (y 2).val ∧ (y 2).val < win0_4.index t (2 : Fin 3) * 2048 + 2048; rw [e2]; omega

/-- The first accumulator array ends holding each half's total. -/
theorem final4 (c : Dev nD) : (dats m 0 c).arrAt 4 cfg0.N = G4 m c :=
  (dats m 0 c).arrAt_eq_of_cover 4 (G4 m c) (flushed4_eq m c) cover4

/-! ## The second accumulator array -/

theorem blk5_read (c : Dev nD) (t : Fin cfg0.N) (h31 : t.val % 32 = 31) :
    (((cfg0.win 5).blk t).view.read (Elt Ideal) (G5 m c) : Vec Ideal S1x1x2048 .f32) = (outsAt0 m c t.val t.isLt).2.2 := by
  have hN := lt64 t
  obtain ⟨e0, e1, e2⟩ := idx5 t
  funext y
  obtain ⟨a, b, j, rfl⟩ : ∃ (a b : Fin 1) (j : Fin 2048), y = ix3 a b j := ⟨y 0, y 1, y 2, eq_ix3 y⟩
  obtain rfl : a = 0 := Subsingleton.elim _ _
  obtain rfl : b = 0 := Subsingleton.elim _ _
  rw [View.read_apply]
  have he : ((cfg0.win 5).blk t).view.emb (ix3 (0 : Fin 1) (0 : Fin 1) j) = ix3 (⟨t.val / 32, by omega⟩ : Fin 2) (0 : Fin 1) j := by
    funext d; apply Fin.ext
    match d with
    | ⟨0, _⟩ => show win0_5.index t (0 : Fin 3) * 1 + 1 * 0 = t.val / 32; omega
    | ⟨1, _⟩ => show win0_5.index t (1 : Fin 3) * 1 + 1 * 0 = 0; omega
    | ⟨2, _⟩ => show win0_5.index t (2 : Fin 3) * 2048 + 1 * j.val = j.val; omega
  rw [he, G5_apply, acc5_eq]
  exact runAcc_congr _ (by show 32 * (t.val / 32) + 31 = t.val; omega) _ _

theorem flushed5_eq (c : Dev nD) (t : Fin cfg0.N) (hf : (cfg0.win 5).flush t = true) :
    (dats m 0 c).flushed 5 t = ((cfg0.win 5).blk t).view.read (Elt Ideal) (G5 m c) := by
  show (cfg0.win 5).cut (grid0.coords t) ((dats m 0 c).after 5 t) = _
  rw [after0_5]
  exact (blk5_read m c t ((flush0_5 t).mp hf)).symm

theorem mem_blk5 (t : Fin cfg0.N) (y : S2x1x2048.Idx) :
    y ∈ ((cfg0.win 5).blk t).view.set ↔ ∀ a : Fin 3, win0_5.index t a * S1x1x2048.size a ≤ (y a).val ∧ (y a).val < win0_5.index t a * S1x1x2048.size a + S1x1x2048.size a := by
  show y ∈ ((View.whole main_v8_2).slice (win0_5.rect t)).set ↔ _
  rw [View.set_slice_whole, Rect.mem_set_unit]
  exact Iff.rfl

theorem cover5 (y : S2x1x2048.Idx) : ∃ t : Fin cfg0.N, (cfg0.win 5).flush t = true ∧ y ∈ ((cfg0.win 5).blk t).view.set := by
  have h0 : (y 0).val < 2 := (y 0).isLt
  have h1 : (y 1).val < 1 := (y 1).isLt
  have h2 : (y 2).val < 2048 := (y 2).isLt
  obtain ⟨t, ht⟩ : ∃ t : Fin cfg0.N, t.val = 32 * (y 0).val + 31 := ⟨⟨32 * (y 0).val + 31, by rw [show cfg0.N = 64 from N_0]; omega⟩, rfl⟩
  obtain ⟨e0, e1, e2⟩ := idx5 t
  refine ⟨t, (flush0_5 t).mpr (by rw [ht]; omega), ?_⟩
  rw [mem_blk5]
  intro a
  match a with
  | ⟨0, _⟩ => show win0_5.index t (0 : Fin 3) * 1 ≤ (y 0).val ∧ (y 0).val < win0_5.index t (0 : Fin 3) * 1 + 1; rw [e0, ht]; omega
  | ⟨1, _⟩ => show win0_5.index t (1 : Fin 3) * 1 ≤ (y 1).val ∧ (y 1).val < win0_5.index t (1 : Fin 3) * 1 + 1; rw [e1]; omega
  | ⟨2, _⟩ => show win0_5.index t (2 : Fin 3) * 2048 ≤ (y 2).val ∧ (y 2).val < win0_5.index t (2 : Fin 3) * 2048 + 2048; rw [e2]; omega

/-- The second accumulator array ends holding each half's column sums. -/
theorem final5 (c : Dev nD) : (dats m 0 c).arrAt 5 cfg0.N = G5 m c :=
  (dats m 0 c).arrAt_eq_of_cover 5 (G5 m c) (flushed5_eq m c) cover5

end Cert.KernelIdeal.Hand

end
-- ==== Proof.KI.HostReads.lean ====
/-
  The host operations of both programs read at an index, at the exact reals: the reference's two products (against a
  transposed operand), its sum over all rows placed as a row, and the kernel's sums over its two halves.
-/
import proofs.«160550_j61804579389940_2_alg».proof.KernelIdeal
import proofs.«160550_j61804579389940_2_alg».proof.ReferenceIdeal
import proofs.«160550_j61804579389940_2_alg».proof.Proof.LibIndexReads
import proofs.«160550_j61804579389940_2_alg».proof.Proof.LibColumnReads
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

noncomputable section

open scoped BigOperators

namespace Cert.KernelIdeal.Hand

open Idealize.ShloMosaic Idealize.ShloMosaic.TcCoe Idealize.ShloMosaic.ValueIdx

/-! ## General readings -/

/-- A host product contracting one axis of extent n, read at an output index: the sum over that axis of the operands'
    products, the operands read where the dimension numbers say. -/
theorem dotGeneral_single {sl sr so : Shape} {φ₁ φ₂ : FTy} (d : DotDims sl sr so) (n : Nat) (hr : d.contr.rank = 1)
    (hs : d.contr.size ⟨0, by omega⟩ = n) (prec : Option ContractPrecision) (sched : HostSchedule)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.dotGeneral d prec sched lhs rhs j = ∑ k : Fin n, lhs (L k) * rhs (R k) := by
  rw [Ideal.dotGeneral_apply, ← Equiv.sum_comp (contrEquiv1 d n hr hs).symm]
  exact Finset.sum_congr rfl fun k _ => by rw [hL k, hR k]

/-- In a rank-three array, (i, j) with the first coordinate k put back is (k, i, j). -/
theorem lift_first3 {l m n : ℕ} (h : (⟨3, ![l, m, n]⟩ : Shape).Reduces [0] (⟨2, ![m, n]⟩ : Shape)) (i : Fin m) (j : Fin n)
    (k : Fin ((⟨3, ![l, m, n]⟩ : Shape).size 0)) : h.lift (ix2 i j) k = ix3 (⟨k.val, k.isLt⟩ : Fin l) i j := by
  funext a; apply Fin.ext
  fin_cases a <;> rfl

/-- The host's sum over the first axis of an [l, m, n] array, read at (i, j): the initial value plus the entries (k, i, j). -/
theorem hostReduceAdd_first3 {l m n : ℕ} {φ : FTy} {u : Shape} (x : FVec Ideal ⟨3, ![l, m, n]⟩ φ) (init : u.Idx → Ideal φ)
    (h' : (⟨3, ![l, m, n]⟩ : Shape).ReducesTo [0] (⟨2, ![m, n]⟩ : Shape))
    (h : (⟨3, ![l, m, n]⟩ : Shape).Reduces [0] (⟨2, ![m, n]⟩ : Shape)) (hu : 0 < u.numel) (i : Fin m) (j : Fin n) :
    Host.reduceAdd x init h' hu (ix2 i j) = init (Shape.Idx.first hu) + ∑ k : Fin l, x (ix3 k i j) :=
  (Ideal.hostReduceAdd_single h' h x (init (Shape.Idx.first hu)) (ix2 i j)).trans
    (congrArg (init (Shape.Idx.first hu) + ·) (Finset.sum_congr rfl fun k _ => congrArg x (lift_first3 h i j k)))

/-- The host's sum over the rows of an [m, n] array, read at column c: the initial value plus the entries (k, c). -/
theorem hostReduceAdd_col {m n : ℕ} {φ : FTy} {u : Shape} (x : FVec Ideal ⟨2, ![m, n]⟩ φ) (init : u.Idx → Ideal φ)
    (h' : (⟨2, ![m, n]⟩ : Shape).ReducesTo [0] (⟨1, ![n]⟩ : Shape))
    (h : (⟨2, ![m, n]⟩ : Shape).Reduces [0] (⟨1, ![n]⟩ : Shape)) (hu : 0 < u.numel) (c : Fin n) :
    Host.reduceAdd x init h' hu (ix1 c) = init (Shape.Idx.first hu) + ∑ k : Fin m, x (ix2 k c) :=
  (Ideal.hostReduceAdd_single h' h x (init (Shape.Idx.first hu)) (ix1 c)).trans
    (congrArg (init (Shape.Idx.first hu) + ·) (Finset.sum_congr rfl fun k _ => congrArg x (Cert.ColumnReads.lift_col h c k)))

/-- A host negation at an index negates the element. -/
theorem hostNegf_apply {s : Shape} {φ : FTy} (x : FVec Ideal s φ) (i : s.Idx) : Host.negf x i = -(x i) := rfl
/-- A host quotient at an index is the quotient of the elements. -/
theorem hostDivf_apply {s : Shape} {φ : FTy} (a b : FVec Ideal s φ) (i : s.Idx) : Host.divf a b i = Ideal.div (a i) (b i) := rfl
/-- A scalar broadcast reads the scalar everywhere. -/
theorem bcastScalar_apply {α : Type} {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-! ## The reference -/

section Reference
variable [Cert.ReferenceIdeal.Facts₀]
open Cert.ReferenceIdeal Cert.ReferenceIdeal.Facts₀

/-- The reference's first product read at (n, i): row n of k against row i of W. -/
theorem ref_proj_apply (k : Vec Ideal Cert.ReferenceIdeal.S16384x2048 .f32) (W : Vec Ideal Cert.ReferenceIdeal.S2048x2048 .f32)
    (n : Fin 16384) (i : Fin 2048) :
    Host.dotGeneral (F := Ideal) (φ₁ := .f32) (φ₂ := .f32) Cert.ReferenceIdeal.dot_S16384x2048_S2048x2048_S16384x2048_1_0_0_1_n_n none k
        (transpose Cert.ReferenceIdeal.S2048x2048 [1, 0] W Cert.ReferenceIdeal.Facts₀.transposes_S2048x2048_S2048x2048_1_0) (ix2 n i)
      = ∑ j : Fin 2048, k (ix2 n j) * W (ix2 i j) := by
  refine (dotGeneral_single Cert.ReferenceIdeal.dot_S16384x2048_S2048x2048_S16384x2048_1_0_0_1_n_n 2048 rfl rfl none .single
    k _ (ix2 n i) (fun q => ix2 n q) (fun q => ix2 q i) ?_ ?_).trans ?_
  · intro q
    funext a
    apply Fin.ext
    match a with
    | ⟨0, _⟩ => rfl
    | ⟨1, _⟩ => rfl
  · intro q
    funext a
    apply Fin.ext
    match a with
    | ⟨0, _⟩ => rfl
    | ⟨1, _⟩ => rfl
  · exact Finset.sum_congr rfl fun q _ => congrArg (k (ix2 n q) * ·) (transpose_ix2_apply W _ q i)

/-- The reference's second product read at (i, j): column i of E against column j of k, over all 16384 rows. -/
theorem ref_grad_apply (E k : Vec Ideal Cert.ReferenceIdeal.S16384x2048 .f32) (i j : Fin 2048) :
    Host.dotGeneral (F := Ideal) (φ₁ := .f32) (φ₂ := .f32) Cert.ReferenceIdeal.dot_S2048x16384_S16384x2048_S2048x2048_1_0_0_1_n_n none
        (transpose Cert.ReferenceIdeal.S2048x16384 [1, 0] E Cert.ReferenceIdeal.Facts₀.transposes_S16384x2048_S2048x16384_1_0) k (ix2 i j)
      = ∑ n : Fin 16384, E (ix2 n i) * k (ix2 n j) := by
  refine (dotGeneral_single Cert.ReferenceIdeal.dot_S2048x16384_S16384x2048_S2048x2048_1_0_0_1_n_n 16384 rfl rfl none .single
    _ k (ix2 i j) (fun q => ix2 i q) (fun q => ix2 q j) ?_ ?_).trans ?_
  · intro q
    funext a
    apply Fin.ext
    match a with
    | ⟨0, _⟩ => rfl
    | ⟨1, _⟩ => rfl
  · intro q
    funext a
    apply Fin.ext
    match a with
    | ⟨0, _⟩ => rfl
    | ⟨1, _⟩ => rfl
  · exact Finset.sum_congr rfl fun q _ => congrArg (· * k (ix2 q j)) (transpose_ix2_apply E _ i q)

/-- The reference's sum over all rows, placed as a row, read at (0, j). -/
theorem ref_colsum_apply (k : Vec Ideal Cert.ReferenceIdeal.S16384x2048 .f32) (j : Fin 2048) :
    broadcastInDim Cert.ReferenceIdeal.S1x2048 ![1] Cert.ReferenceIdeal.Facts₀.bcast_S2048_S1x2048_1
        (Host.reduceAdd k (constant (F := Ideal) Cert.ReferenceIdeal.S_ .f32 0x00000000#32)
          Cert.ReferenceIdeal.Facts₀.reducesTo_S16384x2048_S2048_d0 Cert.ReferenceIdeal.Facts₀.h_S_) (ix2 (0 : Fin 1) j)
      = 0 + ∑ n : Fin 16384, k (ix2 n j) := by
  rw [broadcastInDim_apply _ _ _ _ (ix1 j) (fun a => by
    match a with
    | ⟨0, _⟩ => show j.val = if (2048 : ℕ) = 1 then 0 else j.val; rw [if_neg (by decide)])]
  rw [hostReduceAdd_col k _ _ (by decide) _ j]
  exact congrArg (· + _) Ideal.ofBits_zero_f32

end Reference

/-! ## The kernel's host tail -/

section Kernel
variable [Cert.KernelIdeal.Facts₀]

/-- The two halves' matrix blocks summed on the host, read at (i, j). -/
theorem kern_sum1_apply (R1 : Vec Ideal Cert.KernelIdeal.S2x2048x2048 .f32) (i j : Fin 2048) :
    Host.reduceAdd R1 (constant (F := Ideal) Cert.KernelIdeal.S_ .f32 0x00000000#32)
        Cert.KernelIdeal.Facts₀.reducesTo_S2x2048x2048_S2048x2048_d0 Cert.KernelIdeal.Facts₀.h_S_ (ix2 i j)
      = 0 + ∑ h : Fin 2, R1 (ix3 h i j) := by
  rw [hostReduceAdd_first3 R1 _ _ (by decide) _ i j]
  exact congrArg (· + _) Ideal.ofBits_zero_f32

/-- The two halves' row blocks summed on the host, read at (0, j). -/
theorem kern_sum2_apply (R2 : Vec Ideal Cert.KernelIdeal.S2x1x2048 .f32) (j : Fin 2048) :
    Host.reduceAdd R2 (constant (F := Ideal) Cert.KernelIdeal.S_ .f32 0x00000000#32)
        Cert.KernelIdeal.Facts₀.reducesTo_S2x1x2048_S1x2048_d0 Cert.KernelIdeal.Facts₀.h_S_ (ix2 (0 : Fin 1) j)
      = 0 + ∑ h : Fin 2, R2 (ix3 h (0 : Fin 1) j) := by
  rw [hostReduceAdd_first3 R2 _ _ (by decide) _ (0 : Fin 1) j]
  exact congrArg (· + _) Ideal.ofBits_zero_f32

end Kernel

end Cert.KernelIdeal.Hand

end
-- ==== Proof.RefRun.lean ====
/- The reference program's @main as the list of its host operations, the three module-local functions'
   bodies listed at their call sites over the calls' buffer records, and its run read back: every weakly
   fair execution terminates with each buffer at the operations' fold over the launch contents. -/
import proofs.«160550_j61804579389940_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 119 operations, in order: its own statements, with @_diag's ten (and within them @_where's
    three) over the record of call 0 after statement %4, and @silu's nine over the record of call 1 after
    statement %60. -/
abbrev ops : List (HloOp τ sig (Elt F)) :=
  [ StableHlo.unary main_arg3 main_v0 ((transpose S16x2048 [1, 0] · transposes_S2048x16_S16x2048_1_0) : (⟨S2048x16, .f32⟩ : BufTy).Contents (Elt F) → (⟨S16x2048, .f32⟩ : BufTy).Contents (Elt F)),
    StableHlo.binary main_arg2 main_v0 main_v1 ((fun l r => Host.dotGeneral dot_S2048x16_S16x2048_S2048x2048_1_0_0_1_n_n none l r) : (⟨S2048x16, .f32⟩ : BufTy).Contents (Elt F) → (⟨S16x2048, .f32⟩ : BufTy).Contents (Elt F) → (⟨S2048x2048, .f32⟩ : BufTy).Contents (Elt F)),
    StableHlo.unary main_v1 main_v2 (Host.tanh : (⟨S2048x2048, .f32⟩ : BufTy).Contents (Elt F) → (⟨S2048x2048, .f32⟩ : BufTy).Contents (Elt F)),
    StableHlo.nullary main_cst (constant S_ .f32 0x3DCCCCCD#32),
    StableHlo.unary main_cst main_v3 (broadcastInDim S2048x2048 ![] bcast_S_S2048x2048 : (⟨S_, .f32⟩ : BufTy).Contents (Elt F) → (⟨S2048x2048, .f32⟩ : BufTy).Contents (Elt F)),
    StableHlo.binary main_v3 main_v2 main_v4 (mulf : (⟨S2048x2048, .f32⟩ : BufTy).Contents (Elt F) → (⟨S2048x2048, .f32⟩ : BufTy).Contents (Elt F) → (⟨S2048x2048, .f32⟩ : BufTy).Contents (Elt F)),
    StableHlo.TRef.nullary main_call0.cst (constant S_ .f32 0x00000000#32),
    StableHlo.TRef.binary (.of main_arg4) main_call0.cst main_call0.v0 (fun x v => pad S2048 ![0] ![0] ![0] x v pads_S2048_S2048_000 h_S_),
    StableHlo.TRef.nullary main_call0.v1 (iotaInDim S2048x2048 32 0),
    StableHlo.TRef.nullary main_call0.v2 (iotaInDim S2048x2048 32 1),
    StableHlo.TRef.nullary main_call0.c (constantI S_ 32 0#32),
    StableHlo.TRef.unary main_call0.c main_call0.v3 (broadcastInDim S2048x2048 ![] bcast_S_S2048x2048),
    StableHlo.TRef.binary main_call0.v1 main_call0.v3 main_call0.v4 addi,
    StableHlo.TRef.binary main_call0.v4 main_call0.v2 main_call0.v5 (cmpi .eq),
    StableHlo.TRef.unary main_call0.v0 main_call0.v6 (broadcastInDim S2048x1 ![0] bcast_S2048_S2048x1_0),
    StableHlo.TRef.nullary main_call0.cst_0 (constant S_ .f32 0x00000000#32),
    StableHlo.TRef.unary main_call0.v6 main_call0.call0.v0 (broadcastInDim S2048x2048 ![0, 1] bcast_S2048x1_S2048x2048_0_1),
    StableHlo.TRef.unary main_call0.cst_0 main_call0.call0.v1 (broadcastInDim S2048x2048 ![] bcast_S_S2048x2048),
    StableHlo.TRef.ternary main_call0.v5 main_call0.call0.v0 main_call0.call0.v1 main_call0.call0.v2 select,
    StableHlo.binary main_v4 main_v5 main_v6 (addf : (⟨S2048x2048, .f32⟩ : BufTy).Contents (Elt F) → (⟨S2048x2048, .f32⟩ : BufTy).Contents (Elt F) → (⟨S2048x2048, .f32⟩ : BufTy).Contents (Elt F)),
    StableHlo.unary main_v6 main_v7 ((transpose S2048x2048 [1, 0] · transposes_S2048x2048_S2048x2048_1_0) : (⟨S2048x2048, .f32⟩ : BufTy).Contents (Elt F) → (⟨S2048x2048, .f32⟩ : BufTy).Contents (Elt F)),
    StableHlo.binary main_arg0 main_v7 main_v8 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    StableHlo.binary main_arg1 main_v8 main_v9 (subf : (⟨S16384x2048, .f32⟩ : BufTy).Contents (Elt F) → (⟨S16384x2048, .f32⟩ : BufTy).Contents (Elt F) → (⟨S16384x2048, .f32⟩ : BufTy).Contents (Elt F)),
    StableHlo.unary main_v9 main_v10 ((transpose S2048x16384 [1, 0] · transposes_S16384x2048_S2048x16384_1_0) : (⟨S16384x2048, .f32⟩ : BufTy).Contents (Elt F) → (⟨S2048x16384, .f32⟩ : BufTy).Contents (Elt F)),
    StableHlo.binary main_v10 main_arg0 main_v11 ((fun l r => Host.dotGeneral dot_S2048x16384_S16384x2048_S2048x2048_1_0_0_1_n_n none l r) : (⟨S2048x16384, .f32⟩ : BufTy).Contents (Elt F) → (⟨S16384x2048, .f32⟩ : BufTy).Contents (Elt F) → (⟨S2048x2048, .f32⟩ : BufTy).Contents (Elt F)),
    StableHlo.unary main_v11 main_v12 (Host.negf : (⟨S2048x2048, .f32⟩ : BufTy).Contents (Elt F) → (⟨S2048x2048, .f32⟩ : BufTy).Contents (Elt F)),
    StableHlo.nullary main_cst_0 (constant S_ .f32 0x46800000#32),
    StableHlo.unary main_cst_0 main_v13 (broadcastInDim S2048x2048 ![] bcast_S_S2048x2048 : (⟨S_, .f32⟩ : BufTy).Contents (Elt F) → (⟨S2048x2048, .f32⟩ : BufTy).Contents (Elt F)),
    StableHlo.binary main_v12 main_v13 main_v14 (Host.divf : (⟨S2048x2048, .f32⟩ : BufTy).Contents (Elt F) → (⟨S2048x2048, .f32⟩ : BufTy).Contents (Elt F) → (⟨S2048x2048, .f32⟩ : BufTy).Contents (Elt F)),
    StableHlo.nullary main_cst_1 (constant S_ .f32 0x38D1B717#32),
    StableHlo.unary main_cst_1 main_v15 (broadcastInDim S2048x2048 ![] bcast_S_S2048x2048 : (⟨S_, .f32⟩ : BufTy).Contents (Elt F) → (⟨S2048x2048, .f32⟩ : BufTy).Contents (Elt F)),
    StableHlo.binary main_v15 main_v6 main_v16 (mulf : (⟨S2048x2048, .f32⟩ : BufTy).Contents (Elt F) → (⟨S2048x2048, .f32⟩ : BufTy).Contents (Elt F) → (⟨S2048x2048, .f32⟩ : BufTy).Contents (Elt F)),
    StableHlo.binary main_v14 main_v16 main_v17 (addf : (⟨S2048x2048, .f32⟩ : BufTy).Contents (Elt F) → (⟨S2048x2048, .f32⟩ : BufTy).Contents (Elt F) → (⟨S2048x2048, .f32⟩ : BufTy).Contents (Elt F)),
    StableHlo.binary main_v17 main_arg3 main_v18 ((fun l r => Host.dotGeneral dot_S2048x2048_S2048x16_S2048x16_1_0_0_1_n_n none l r) : (⟨S2048x2048, .f32⟩ : BufTy).Contents (Elt F) → (⟨S2048x16, .f32⟩ : BufTy).Contents (Elt F) → (⟨S2048x16, .f32⟩ : BufTy).Contents (Elt F)),
    StableHlo.unary main_v17 main_v19 ((transpose S2048x2048 [1, 0] · transposes_S2048x2048_S2048x2048_1_0) : (⟨S2048x2048, .f32⟩ : BufTy).Contents (Elt F) → (⟨S2048x2048, .f32⟩ : BufTy).Contents (Elt F)),
    StableHlo.binary main_v19 main_arg2 main_v20 ((fun l r => Host.dotGeneral dot_S2048x2048_S2048x16_S2048x16_1_0_0_1_n_n none l r) : (⟨S2048x2048, .f32⟩ : BufTy).Contents (Elt F) → (⟨S2048x16, .f32⟩ : BufTy).Contents (Elt F) → (⟨S2048x16, .f32⟩ : BufTy).Contents (Elt F)),
    StableHlo.nullary main_cst_2 (constant S_ .f32 0x3F666666#32),
    StableHlo.unary main_cst_2 main_v21 (broadcastInDim S2048x16 ![] bcast_S_S2048x16 : (⟨S_, .f32⟩ : BufTy).Contents (Elt F) → (⟨S2048x16, .f32⟩ : BufTy).Contents (Elt F)),
    StableHlo.binary main_v21 main_arg5 main_v22 (mulf : (⟨S2048x16, .f32⟩ : BufTy).Contents (Elt F) → (⟨S2048x16, .f32⟩ : BufTy).Contents (Elt F) → (⟨S2048x16, .f32⟩ : BufTy).Contents (Elt F)),
    StableHlo.nullary main_cst_3 (constant S_ .f32 0x3A83126F#32),
    StableHlo.unary main_cst_3 main_v23 (broadcastInDim S2048x16 ![] bcast_S_S2048x16 : (⟨S_, .f32⟩ : BufTy).Contents (Elt F) → (⟨S2048x16, .f32⟩ : BufTy).Contents (Elt F)),
    StableHlo.binary main_v23 main_v18 main_v24 (mulf : (⟨S2048x16, .f32⟩ : BufTy).Contents (Elt F) → (⟨S2048x16, .f32⟩ : BufTy).Contents (Elt F) → (⟨S2048x16, .f32⟩ : BufTy).Contents (Elt F)),
    StableHlo.binary main_v22 main_v24 main_v25 (subf : (⟨S2048x16, .f32⟩ : BufTy).Contents (Elt F) → (⟨S2048x16, .f32⟩ : BufTy).Contents (Elt F) → (⟨S2048x16, .f32⟩ : BufTy).Contents (Elt F)),
    StableHlo.nullary main_cst_4 (constant S_ .f32 0x3F666666#32),
    StableHlo.unary main_cst_4 main_v26 (broadcastInDim S2048x16 ![] bcast_S_S2048x16 : (⟨S_, .f32⟩ : BufTy).Contents (Elt F) → (⟨S2048x16, .f32⟩ : BufTy).Contents (Elt F)),
    StableHlo.binary main_v26 main_arg6 main_v27 (mulf : (⟨S2048x16, .f32⟩ : BufTy).Contents (Elt F) → (⟨S2048x16, .f32⟩ : BufTy).Contents (Elt F) → (⟨S2048x16, .f32⟩ : BufTy).Contents (Elt F)),
    StableHlo.nullary main_cst_5 (constant S_ .f32 0x3A83126F#32),
    StableHlo.unary main_cst_5 main_v28 (broadcastInDim S2048x16 ![] bcast_S_S2048x16 : (⟨S_, .f32⟩ : BufTy).Contents (Elt F) → (⟨S2048x16, .f32⟩ : BufTy).Contents (Elt F)),
    StableHlo.binary main_v28 main_v20 main_v29 (mulf : (⟨S2048x16, .f32⟩ : BufTy).Contents (Elt F) → (⟨S2048x16, .f32⟩ : BufTy).Contents (Elt F) → (⟨S2048x16, .f32⟩ : BufTy).Contents (Elt F)),
    StableHlo.binary main_v27 main_v29 main_v30 (subf : (⟨S2048x16, .f32⟩ : BufTy).Contents (Elt F) → (⟨S2048x16, .f32⟩ : BufTy).Contents (Elt F) → (⟨S2048x16, .f32⟩ : BufTy).Contents (Elt F)),
    StableHlo.nullary main_cst_6 (constant S_ .f32 0x00000000#32),
    StableHlo.binary main_arg0 main_cst_6 main_v31 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.unary main_v31 main_v32 (broadcastInDim S1x2048 ![1] bcast_S2048_S1x2048_1 : (⟨S2048, .f32⟩ : BufTy).Contents (Elt F) → (⟨S1x2048, .f32⟩ : BufTy).Contents (Elt F)),
    StableHlo.nullary main_cst_7 (constant S_ .f32 0x46800000#32),
    StableHlo.unary main_cst_7 main_v33 (broadcastInDim S1x2048 ![] bcast_S_S1x2048 : (⟨S_, .f32⟩ : BufTy).Contents (Elt F) → (⟨S1x2048, .f32⟩ : BufTy).Contents (Elt F)),
    StableHlo.binary main_v32 main_v33 main_v34 (Host.divf : (⟨S1x2048, .f32⟩ : BufTy).Contents (Elt F) → (⟨S1x2048, .f32⟩ : BufTy).Contents (Elt F) → (⟨S1x2048, .f32⟩ : BufTy).Contents (Elt F)),
    StableHlo.nullary main_cst_8 (constant S_ .f32 0x00000000#32),
    StableHlo.binary main_v34 main_cst_8 main_v35 ((fun x v => Host.reduceAdd x v reducesTo_S1x2048_S1_d1 h_S_) : (⟨S1x2048, .f32⟩ : BufTy).Contents (Elt F) → (⟨S_, .f32⟩ : BufTy).Contents (Elt F) → (⟨S1, .f32⟩ : BufTy).Contents (Elt F)),
    StableHlo.unary main_v35 main_v36 (broadcastInDim S1x1 ![0] bcast_S1_S1x1_0 : (⟨S1, .f32⟩ : BufTy).Contents (Elt F) → (⟨S1x1, .f32⟩ : BufTy).Contents (Elt F)),
    StableHlo.nullary main_cst_9 (constant S_ .f32 0x45000000#32),
    StableHlo.unary main_cst_9 main_v37 (broadcastInDim S1x1 ![] bcast_S_S1x1 : (⟨S_, .f32⟩ : BufTy).Contents (Elt F) → (⟨S1x1, .f32⟩ : BufTy).Contents (Elt F)),
    StableHlo.binary main_v36 main_v37 main_v38 (Host.divf : (⟨S1x1, .f32⟩ : BufTy).Contents (Elt F) → (⟨S1x1, .f32⟩ : BufTy).Contents (Elt F) → (⟨S1x1, .f32⟩ : BufTy).Contents (Elt F)),
    StableHlo.unary main_v38 main_v39 (broadcastInDim S1x2048 ![0, 1] bcast_S1x1_S1x2048_0_1 : (⟨S1x1, .f32⟩ : BufTy).Contents (Elt F) → (⟨S1x2048, .f32⟩ : BufTy).Contents (Elt F)),
    StableHlo.binary main_v34 main_v39 main_v40 (subf : (⟨S1x2048, .f32⟩ : BufTy).Contents (Elt F) → (⟨S1x2048, .f32⟩ : BufTy).Contents (Elt F) → (⟨S1x2048, .f32⟩ : BufTy).Contents (Elt F)),
    StableHlo.binary main_v40 main_v40 main_v41 (mulf : (⟨S1x2048, .f32⟩ : BufTy).Contents (Elt F) → (⟨S1x2048, .f32⟩ : BufTy).Contents (Elt F) → (⟨S1x2048, .f32⟩ : BufTy).Contents (Elt F)),
    StableHlo.nullary main_cst_10 (constant S_ .f32 0x00000000#32),
    StableHlo.binary main_v41 main_cst_10 main_v42 ((fun x v => Host.reduceAdd x v reducesTo_S1x2048_S1_d1 h_S_) : (⟨S1x2048, .f32⟩ : BufTy).Contents (Elt F) → (⟨S_, .f32⟩ : BufTy).Contents (Elt F) → (⟨S1, .f32⟩ : BufTy).Contents (Elt F)),
    StableHlo.unary main_v42 main_v43 (broadcastInDim S1x1 ![0] bcast_S1_S1x1_0 : (⟨S1, .f32⟩ : BufTy).Contents (Elt F) → (⟨S1x1, .f32⟩ : BufTy).Contents (Elt F)),
    StableHlo.nullary main_cst_11 (constant S_ .f32 0x45000000#32),
    StableHlo.unary main_cst_11 main_v44 (broadcastInDim S1x1 ![] bcast_S_S1x1 : (⟨S_, .f32⟩ : BufTy).Contents (Elt F) → (⟨S1x1, .f32⟩ : BufTy).Contents (Elt F)),
    StableHlo.binary main_v43 main_v44 main_v45 (Host.divf : (⟨S1x1, .f32⟩ : BufTy).Contents (Elt F) → (⟨S1x1, .f32⟩ : BufTy).Contents (Elt F) → (⟨S1x1, .f32⟩ : BufTy).Contents (Elt F)),
    StableHlo.unary main_v38 main_v46 (broadcastInDim S1x2048 ![0, 1] bcast_S1x1_S1x2048_0_1 : (⟨S1x1, .f32⟩ : BufTy).Contents (Elt F) → (⟨S1x2048, .f32⟩ : BufTy).Contents (Elt F)),
    StableHlo.binary main_v34 main_v46 main_v47 (subf : (⟨S1x2048, .f32⟩ : BufTy).Contents (Elt F) → (⟨S1x2048, .f32⟩ : BufTy).Contents (Elt F) → (⟨S1x2048, .f32⟩ : BufTy).Contents (Elt F)),
    StableHlo.nullary main_cst_12 (constant S_ .f32 0x3727C5AC#32),
    StableHlo.unary main_cst_12 main_v48 (broadcastInDim S1x1 ![] bcast_S_S1x1 : (⟨S_, .f32⟩ : BufTy).Contents (Elt F) → (⟨S1x1, .f32⟩ : BufTy).Contents (Elt F)),
    StableHlo.binary main_v45 main_v48 main_v49 (addf : (⟨S1x1, .f32⟩ : BufTy).Contents (Elt F) → (⟨S1x1, .f32⟩ : BufTy).Contents (Elt F) → (⟨S1x1, .f32⟩ : BufTy).Contents (Elt F)),
    StableHlo.unary main_v49 main_v50 (Host.rsqrt : (⟨S1x1, .f32⟩ : BufTy).Contents (Elt F) → (⟨S1x1, .f32⟩ : BufTy).Contents (Elt F)),
    StableHlo.unary main_v50 main_v51 (broadcastInDim S1x2048 ![0, 1] bcast_S1x1_S1x2048_0_1 : (⟨S1x1, .f32⟩ : BufTy).Contents (Elt F) → (⟨S1x2048, .f32⟩ : BufTy).Contents (Elt F)),
    StableHlo.binary main_v47 main_v51 main_v52 (mulf : (⟨S1x2048, .f32⟩ : BufTy).Contents (Elt F) → (⟨S1x2048, .f32⟩ : BufTy).Contents (Elt F) → (⟨S1x2048, .f32⟩ : BufTy).Contents (Elt F)),
    StableHlo.unary main_arg7 main_v53 (broadcastInDim S1x2048 ![1] bcast_S2048_S1x2048_1 : (⟨S2048, .f32⟩ : BufTy).Contents (Elt F) → (⟨S1x2048, .f32⟩ : BufTy).Contents (Elt F)),
    StableHlo.binary main_v52 main_v53 main_v54 (mulf : (⟨S1x2048, .f32⟩ : BufTy).Contents (Elt F) → (⟨S1x2048, .f32⟩ : BufTy).Contents (Elt F) → (⟨S1x2048, .f32⟩ : BufTy).Contents (Elt F)),
    StableHlo.unary main_arg8 main_v55 (broadcastInDim S1x2048 ![1] bcast_S2048_S1x2048_1 : (⟨S2048, .f32⟩ : BufTy).Contents (Elt F) → (⟨S1x2048, .f32⟩ : BufTy).Contents (Elt F)),
    StableHlo.binary main_v54 main_v55 main_v56 (addf : (⟨S1x2048, .f32⟩ : BufTy).Contents (Elt F) → (⟨S1x2048, .f32⟩ : BufTy).Contents (Elt F) → (⟨S1x2048, .f32⟩ : BufTy).Contents (Elt F)),
    StableHlo.unary main_arg9 main_v57 ((transpose S2048x2048 [1, 0] · transposes_S2048x2048_S2048x2048_1_0) : (⟨S2048x2048, .f32⟩ : BufTy).Contents (Elt F) → (⟨S2048x2048, .f32⟩ : BufTy).Contents (Elt F)),
    StableHlo.binary main_v56 main_v57 main_v58 ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)),
    StableHlo.unary main_arg10 main_v59 (broadcastInDim S1x2048 ![1] bcast_S2048_S1x2048_1 : (⟨S2048, .f32⟩ : BufTy).Contents (Elt F) → (⟨S1x2048, .f32⟩ : BufTy).Contents (Elt F)),
    StableHlo.binary main_v58 main_v59 main_v60 (addf : (⟨S1x2048, .f32⟩ : BufTy).Contents (Elt F) → (⟨S1x2048, .f32⟩ : BufTy).Contents (Elt F) → (⟨S1x2048, .f32⟩ : BufTy).Contents (Elt F)),
    StableHlo.TRef.unary (.of main_v60) main_call1.v0 Host.negf,
    StableHlo.TRef.unary main_call1.v0 main_call1.v1 Host.exp,
    StableHlo.TRef.nullary main_call1.cst (constant S_ .f32 0x3F800000#32),
    StableHlo.TRef.unary main_call1.cst main_call1.v2 (broadcastInDim S1x2048 ![] bcast_S_S1x2048),
    StableHlo.TRef.binary main_call1.v2 main_call1.v1 main_call1.v3 addf,
    StableHlo.TRef.nullary main_call1.cst_0 (constant S_ .f32 0x3F800000#32),
    StableHlo.TRef.unary main_call1.cst_0 main_call1.v4 (broadcastInDim S1x2048 ![] bcast_S_S1x2048),
    StableHlo.TRef.binary main_call1.v4 main_call1.v3 main_call1.v5 Host.divf,
    StableHlo.TRef.binary (.of main_v60) main_call1.v5 main_call1.v6 mulf,
    StableHlo.unary main_arg11 main_v62 ((transpose S2048x1 [1, 0] · transposes_S1x2048_S2048x1_1_0) : (⟨S1x2048, .f32⟩ : BufTy).Contents (Elt F) → (⟨S2048x1, .f32⟩ : BufTy).Contents (Elt F)),
    StableHlo.binary main_v61 main_v62 main_v63 ((fun l r => Host.dotGeneral dot_S1x2048_S2048x1_S1x1_1_0_0_1_n_n none l r) : (⟨S1x2048, .f32⟩ : BufTy).Contents (Elt F) → (⟨S2048x1, .f32⟩ : BufTy).Contents (Elt F) → (⟨S1x1, .f32⟩ : BufTy).Contents (Elt F)),
    StableHlo.unary main_arg12 main_v64 (broadcastInDim S1x1 ![1] bcast_S1_S1x1_1 : (⟨S1, .f32⟩ : BufTy).Contents (Elt F) → (⟨S1x1, .f32⟩ : BufTy).Contents (Elt F)),
    StableHlo.binary main_v63 main_v64 main_v65 (addf : (⟨S1x1, .f32⟩ : BufTy).Contents (Elt F) → (⟨S1x1, .f32⟩ : BufTy).Contents (Elt F) → (⟨S1x1, .f32⟩ : BufTy).Contents (Elt F)),
    StableHlo.unary main_v65 main_v66 (Host.negf : (⟨S1x1, .f32⟩ : BufTy).Contents (Elt F) → (⟨S1x1, .f32⟩ : BufTy).Contents (Elt F)),
    StableHlo.unary main_v66 main_v67 (Host.exp : (⟨S1x1, .f32⟩ : BufTy).Contents (Elt F) → (⟨S1x1, .f32⟩ : BufTy).Contents (Elt F)),
    StableHlo.nullary main_cst_13 (constant S_ .f32 0x3F800000#32),
    StableHlo.unary main_cst_13 main_v68 (broadcastInDim S1x1 ![] bcast_S_S1x1 : (⟨S_, .f32⟩ : BufTy).Contents (Elt F) → (⟨S1x1, .f32⟩ : BufTy).Contents (Elt F)),
    StableHlo.binary main_v68 main_v67 main_v69 (addf : (⟨S1x1, .f32⟩ : BufTy).Contents (Elt F) → (⟨S1x1, .f32⟩ : BufTy).Contents (Elt F) → (⟨S1x1, .f32⟩ : BufTy).Contents (Elt F)),
    StableHlo.nullary main_cst_14 (constant S_ .f32 0x3F800000#32),
    StableHlo.unary main_cst_14 main_v70 (broadcastInDim S1x1 ![] bcast_S_S1x1 : (⟨S_, .f32⟩ : BufTy).Contents (Elt F) → (⟨S1x1, .f32⟩ : BufTy).Contents (Elt F)),
    StableHlo.binary main_v70 main_v69 main_v71 (Host.divf : (⟨S1x1, .f32⟩ : BufTy).Contents (Elt F) → (⟨S1x1, .f32⟩ : BufTy).Contents (Elt F) → (⟨S1x1, .f32⟩ : BufTy).Contents (Elt F)),
    StableHlo.reshape main_v71 main_v72 rfl shapeCasts_S1x1_S_,
    StableHlo.nullary main_cst_15 (constant S_ .f32 0x3F800000#32),
    StableHlo.binary main_cst_15 main_v72 main_v73 (subf : (⟨S_, .f32⟩ : BufTy).Contents (Elt F) → (⟨S_, .f32⟩ : BufTy).Contents (Elt F) → (⟨S_, .f32⟩ : BufTy).Contents (Elt F)),
    StableHlo.unary main_v73 main_v74 (broadcastInDim S2048x16 ![] bcast_S_S2048x16 : (⟨S_, .f32⟩ : BufTy).Contents (Elt F) → (⟨S2048x16, .f32⟩ : BufTy).Contents (Elt F)),
    StableHlo.binary main_v74 main_arg2 main_v75 (mulf : (⟨S2048x16, .f32⟩ : BufTy).Contents (Elt F) → (⟨S2048x16, .f32⟩ : BufTy).Contents (Elt F) → (⟨S2048x16, .f32⟩ : BufTy).Contents (Elt F)),
    StableHlo.binary main_v75 main_v25 main_v76 (addf : (⟨S2048x16, .f32⟩ : BufTy).Contents (Elt F) → (⟨S2048x16, .f32⟩ : BufTy).Contents (Elt F) → (⟨S2048x16, .f32⟩ : BufTy).Contents (Elt F)),
    StableHlo.nullary main_cst_16 (constant S_ .f32 0x3F800000#32),
    StableHlo.binary main_cst_16 main_v72 main_v77 (subf : (⟨S_, .f32⟩ : BufTy).Contents (Elt F) → (⟨S_, .f32⟩ : BufTy).Contents (Elt F) → (⟨S_, .f32⟩ : BufTy).Contents (Elt F)),
    StableHlo.unary main_v77 main_v78 (broadcastInDim S2048x16 ![] bcast_S_S2048x16 : (⟨S_, .f32⟩ : BufTy).Contents (Elt F) → (⟨S2048x16, .f32⟩ : BufTy).Contents (Elt F)),
    StableHlo.binary main_v78 main_arg3 main_v79 (mulf : (⟨S2048x16, .f32⟩ : BufTy).Contents (Elt F) → (⟨S2048x16, .f32⟩ : BufTy).Contents (Elt F) → (⟨S2048x16, .f32⟩ : BufTy).Contents (Elt F)),
    StableHlo.binary main_v79 main_v30 main_v80 (addf : (⟨S2048x16, .f32⟩ : BufTy).Contents (Elt F) → (⟨S2048x16, .f32⟩ : BufTy).Contents (Elt F) → (⟨S2048x16, .f32⟩ : BufTy).Contents (Elt F)) ]

set_option maxRecDepth 4096 in
/-- @main is that straight line: the windows and the functions' definitions unfolded at their calls, both sides
    are one chain of `hlo` steps once sequencing is reassociated. -/
theorem main_eq (c : Dev nD) : main (F := F) c = seq ops := by
  simp only [main, main_part0, main_part1, fn_diag.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., nullary_bufs_sub .., unary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., binary_bufs_sub .., unary_bufs_sub .., binary_bufs_sub .., binary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., unary_bufs_sub .., binary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., nullary_bufs_sub .., binary_bufs_sub .., unary_bufs_sub .., nullary_bufs_sub ..,
    unary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., binary_bufs_sub .., unary_bufs_sub .., binary_bufs_sub .., unary_bufs_sub ..,
    binary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub .., binary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    reshape_bufs_sub .., nullary_bufs_sub .., binary_bufs_sub .., unary_bufs_sub .., binary_bufs_sub .., binary_bufs_sub ..,
    nullary_bufs_sub .., binary_bufs_sub .., unary_bufs_sub .., binary_bufs_sub .., binary_bufs_sub ..⟩

/-- On every device, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are not written -/

theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp
theorem arg4_eq (V : Valuation τ sig (Elt F)) :
    after ops V (main_arg4 : DevRef τ sig) = V (main_arg4 : DevRef τ sig) := by after_results_simp
theorem arg5_eq (V : Valuation τ sig (Elt F)) :
    after ops V (main_arg5 : DevRef τ sig) = V (main_arg5 : DevRef τ sig) := by after_results_simp
theorem arg6_eq (V : Valuation τ sig (Elt F)) :
    after ops V (main_arg6 : DevRef τ sig) = V (main_arg6 : DevRef τ sig) := by after_results_simp
theorem arg7_eq (V : Valuation τ sig (Elt F)) :
    after ops V (main_arg7 : DevRef τ sig) = V (main_arg7 : DevRef τ sig) := by after_results_simp
theorem arg8_eq (V : Valuation τ sig (Elt F)) :
    after ops V (main_arg8 : DevRef τ sig) = V (main_arg8 : DevRef τ sig) := by after_results_simp
theorem arg9_eq (V : Valuation τ sig (Elt F)) :
    after ops V (main_arg9 : DevRef τ sig) = V (main_arg9 : DevRef τ sig) := by after_results_simp
theorem arg10_eq (V : Valuation τ sig (Elt F)) :
    after ops V (main_arg10 : DevRef τ sig) = V (main_arg10 : DevRef τ sig) := by after_results_simp
theorem arg11_eq (V : Valuation τ sig (Elt F)) :
    after ops V (main_arg11 : DevRef τ sig) = V (main_arg11 : DevRef τ sig) := by after_results_simp
theorem arg12_eq (V : Valuation τ sig (Elt F)) :
    after ops V (main_arg12 : DevRef τ sig) = V (main_arg12 : DevRef τ sig) := by after_results_simp

/-- On every device, for any float values, from any memory with zero counters: every weakly fair execution of
    @main terminates with the thirteen arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main m ρ)

/-! ## The results as pure functions of the arguments

Each definition is the composition of the printed operations of the statements it names, in their order, with
nothing simplified: the same operation terms as in `ops`, applied to values instead of buffers. -/

/-- @_diag's body (with @_where's inside it): the array that holds `D i` where the row and column indices agree
    and the zero literal elsewhere. -/
def diag (D : FVec F S2048 .f32) : FVec F S2048x2048 .f32 :=
  select
    (cmpi .eq (addi (iotaInDim S2048x2048 32 0) (broadcastInDim S2048x2048 ![] bcast_S_S2048x2048 (constantI S_ 32 0#32)))
      (iotaInDim S2048x2048 32 1))
    (broadcastInDim S2048x2048 ![0, 1] bcast_S2048x1_S2048x2048_0_1
      (broadcastInDim S2048x1 ![0] bcast_S2048_S2048x1_0
        (pad S2048 ![0] ![0] ![0] D (constant S_ .f32 0x00000000#32) pads_S2048_S2048_000 h_S_)))
    (broadcastInDim S2048x2048 ![] bcast_S_S2048x2048 (constant S_ .f32 0x00000000#32))

/-- Statements %0–%6: a tenth of the hyperbolic tangent of `B` times `C` transposed, plus `diag D`. -/
def wmat (B C : FVec F S2048x16 .f32) (D : FVec F S2048 .f32) : FVec F S2048x2048 .f32 :=
  addf
    (mulf (broadcastInDim S2048x2048 ![] bcast_S_S2048x2048 (constant S_ .f32 0x3DCCCCCD#32))
      (Host.tanh (Host.dotGeneral dot_S2048x16_S16x2048_S2048x2048_1_0_0_1_n_n none B
        (transpose S16x2048 [1, 0] C transposes_S2048x16_S16x2048_1_0))))
    (diag D)

/-- Statements %7–%8: `k` times `W` transposed. -/
def readout (k : FVec F S16384x2048 .f32) (W : FVec F S2048x2048 .f32) : FVec F S16384x2048 .f32 :=
  Host.dotGeneral dot_S16384x2048_S2048x2048_S16384x2048_1_0_0_1_n_n none k
    (transpose S2048x2048 [1, 0] W transposes_S2048x2048_S2048x2048_1_0)

/-- Statements %9–%14: the transposed residual `v - readout k W` times `k`, negated, divided by the literal 16384. -/
def xgrad (k v : FVec F S16384x2048 .f32) (W : FVec F S2048x2048 .f32) : FVec F S2048x2048 .f32 :=
  Host.divf
    (Host.negf (Host.dotGeneral dot_S2048x16384_S16384x2048_S2048x2048_1_0_0_1_n_n none
      (transpose S2048x16384 [1, 0] (subf v (readout k W)) transposes_S16384x2048_S2048x16384_1_0) k))
    (broadcastInDim S2048x2048 ![] bcast_S_S2048x2048 (constant S_ .f32 0x46800000#32))

/-- Statements %31–%32: the sum of `k` over its rows from the zero literal, as one row. -/
def ysum (k : FVec F S16384x2048 .f32) : FVec F S1x2048 .f32 :=
  broadcastInDim S1x2048 ![1] bcast_S2048_S1x2048_1
    (Host.reduceAdd k (constant S_ .f32 0x00000000#32) reducesTo_S16384x2048_S2048_d0 h_S_)

/-- Statements %15–%17: `X` plus the literal 1e-4 times `W`. -/
def wgrad (X W : FVec F S2048x2048 .f32) : FVec F S2048x2048 .f32 :=
  addf X (mulf (broadcastInDim S2048x2048 ![] bcast_S_S2048x2048 (constant S_ .f32 0x38D1B717#32)) W)

/-- Statements %18, %21–%25: the literal 0.9 times `SB` minus the literal 1e-3 times (`wgrad X W` times `C`). -/
def tail25 (X W : FVec F S2048x2048 .f32) (C SB : FVec F S2048x16 .f32) : FVec F S2048x16 .f32 :=
  subf (mulf (broadcastInDim S2048x16 ![] bcast_S_S2048x16 (constant S_ .f32 0x3F666666#32)) SB)
    (mulf (broadcastInDim S2048x16 ![] bcast_S_S2048x16 (constant S_ .f32 0x3A83126F#32))
      (Host.dotGeneral dot_S2048x2048_S2048x16_S2048x16_1_0_0_1_n_n none (wgrad X W) C))

/-- Statements %19–%20, %26–%30: the literal 0.9 times `SC` minus the literal 1e-3 times (`wgrad X W` transposed
    times `B`). -/
def tail30 (X W : FVec F S2048x2048 .f32) (B SC : FVec F S2048x16 .f32) : FVec F S2048x16 .f32 :=
  subf (mulf (broadcastInDim S2048x16 ![] bcast_S_S2048x16 (constant S_ .f32 0x3F666666#32)) SC)
    (mulf (broadcastInDim S2048x16 ![] bcast_S_S2048x16 (constant S_ .f32 0x3A83126F#32))
      (Host.dotGeneral dot_S2048x2048_S2048x16_S2048x16_1_0_0_1_n_n none
        (transpose S2048x2048 [1, 0] (wgrad X W) transposes_S2048x2048_S2048x2048_1_0) B))

/-- Statements %33–%34: the row divided by the literal 16384. -/
def ymean (Y : FVec F S1x2048 .f32) : FVec F S1x2048 .f32 :=
  Host.divf Y (broadcastInDim S1x2048 ![] bcast_S_S1x2048 (constant S_ .f32 0x46800000#32))

/-- Statements %35–%38 (and %42–%45, the same operations): the sum of the row from the zero literal, as a
    [1, 1] array, divided by the literal 2048. -/
def rowMean (y : FVec F S1x2048 .f32) : FVec F S1x1 .f32 :=
  Host.divf
    (broadcastInDim S1x1 ![0] bcast_S1_S1x1_0
      (Host.reduceAdd y (constant S_ .f32 0x00000000#32) reducesTo_S1x2048_S1_d1 h_S_))
    (broadcastInDim S1x1 ![] bcast_S_S1x1 (constant S_ .f32 0x45000000#32))

/-- Statements %39–%40 (and %46–%47, the same operations on the same operands): the row minus its mean. -/
def centered (y : FVec F S1x2048 .f32) : FVec F S1x2048 .f32 :=
  subf y (broadcastInDim S1x2048 ![0, 1] bcast_S1x1_S1x2048_0_1 (rowMean y))

/-- Statements %41–%52: the centered row times the reciprocal square root of (the mean of its square plus the
    literal 1e-5). -/
def normalized (y : FVec F S1x2048 .f32) : FVec F S1x2048 .f32 :=
  mulf (centered y)
    (broadcastInDim S1x2048 ![0, 1] bcast_S1x1_S1x2048_0_1
      (Host.rsqrt (addf (rowMean (mulf (centered y) (centered y))) (broadcastInDim S1x1 ![] bcast_S_S1x1 (constant S_ .f32 0x3727C5AC#32)))))

/-- Statements %53–%56: the normalized row times `g` plus `b`. -/
def lnorm (y : FVec F S1x2048 .f32) (g b : FVec F S2048 .f32) : FVec F S1x2048 .f32 :=
  addf (mulf (normalized y) (broadcastInDim S1x2048 ![1] bcast_S2048_S1x2048_1 g))
    (broadcastInDim S1x2048 ![1] bcast_S2048_S1x2048_1 b)

/-- Statements %57–%60: `z` times `W1` transposed, plus `b1`. -/
def hidden (z : FVec F S1x2048 .f32) (W1 : FVec F S2048x2048 .f32) (b1 : FVec F S2048 .f32) : FVec F S1x2048 .f32 :=
  addf (Host.dotGeneral dot_S1x2048_S2048x2048_S1x2048_1_0_0_1_n_n none z
      (transpose S2048x2048 [1, 0] W1 transposes_S2048x2048_S2048x2048_1_0))
    (broadcastInDim S1x2048 ![1] bcast_S2048_S1x2048_1 b1)

/-- @silu's body: `x` times (the literal 1 divided by (the literal 1 plus the exponential of `-x`)). -/
def silu (x : FVec F S1x2048 .f32) : FVec F S1x2048 .f32 :=
  mulf x (Host.divf (broadcastInDim S1x2048 ![] bcast_S_S1x2048 (constant S_ .f32 0x3F800000#32))
    (addf (broadcastInDim S1x2048 ![] bcast_S_S1x2048 (constant S_ .f32 0x3F800000#32)) (Host.exp (Host.negf x))))

/-- Statements %62–%71: the literal 1 divided by (the literal 1 plus the exponential of minus (`h` times `W2`
    transposed, plus `b2`)), a [1, 1] array. -/
def gate (h W2 : FVec F S1x2048 .f32) (b2 : FVec F S1 .f32) : FVec F S1x1 .f32 :=
  Host.divf (broadcastInDim S1x1 ![] bcast_S_S1x1 (constant S_ .f32 0x3F800000#32))
    (addf (broadcastInDim S1x1 ![] bcast_S_S1x1 (constant S_ .f32 0x3F800000#32))
      (Host.exp (Host.negf (addf
        (Host.dotGeneral dot_S1x2048_S2048x1_S1x1_1_0_0_1_n_n none h
          (transpose S2048x1 [1, 0] W2 transposes_S1x2048_S2048x1_1_0))
        (broadcastInDim S1x1 ![1] bcast_S1_S1x1_1 b2)))))

/-- Statements %33–%72: the gate of the row `Y`, as a scalar. -/
def tail72 (Y : FVec F S1x2048 .f32) (g b : FVec F S2048 .f32) (W1 : FVec F S2048x2048 .f32) (b1 : FVec F S2048 .f32)
    (W2 : FVec F S1x2048 .f32) (b2 : FVec F S1 .f32) : FVec F S_ .f32 :=
  shapeCast S_ (gate (silu (hidden (lnorm (ymean Y) g b) W1 b1)) W2 b2) shapeCasts_S1x1_S_

/-- Statements %73–%76 (and %77–%80, the same operations): (the literal 1 minus the scalar `s`) times `P`, plus `T`. -/
def mix (s : FVec F S_ .f32) (P T : FVec F S2048x16 .f32) : FVec F S2048x16 .f32 :=
  addf (mulf (broadcastInDim S2048x16 ![] bcast_S_S2048x16 (subf (constant S_ .f32 0x3F800000#32) s)) P) T

/-- Statements %73–%76 over the results before them. -/
def tail76 (X W : FVec F S2048x2048 .f32) (Y : FVec F S1x2048 .f32) (B C SB : FVec F S2048x16 .f32)
    (g b : FVec F S2048 .f32) (W1 : FVec F S2048x2048 .f32) (b1 : FVec F S2048 .f32)
    (W2 : FVec F S1x2048 .f32) (b2 : FVec F S1 .f32) : FVec F S2048x16 .f32 :=
  mix (tail72 Y g b W1 b1 W2 b2) B (tail25 X W C SB)

/-- Statements %77–%80 over the results before them. -/
def tail80 (X W : FVec F S2048x2048 .f32) (Y : FVec F S1x2048 .f32) (B C SC : FVec F S2048x16 .f32)
    (g b : FVec F S2048 .f32) (W1 : FVec F S2048x2048 .f32) (b1 : FVec F S2048 .f32)
    (W2 : FVec F S1x2048 .f32) (b2 : FVec F S1 .f32) : FVec F S2048x16 .f32 :=
  mix (tail72 Y g b W1 b1 W2 b2) C (tail30 X W B SC)

/-! ## The run -/

/-- `main_v8` after the operations, as the named functions of the arguments' contents. -/
theorem v8_eq (V : Valuation τ sig (Elt F)) :
    after ops V (main_v8 : DevRef τ sig)
      = readout (V (main_arg0 : DevRef τ sig)) (wmat (V (main_arg2 : DevRef τ sig)) (V (main_arg3 : DevRef τ sig)) (V (main_arg4 : DevRef τ sig))) := by
  after_results_simp
  simp only [readout, wmat, diag, xgrad, ysum, wgrad, tail25, tail30, ymean, rowMean, centered, normalized, lnorm, hidden, silu, gate, tail72, mix, tail76, tail80]
  rfl

set_option maxHeartbeats 8000000 in
/-- `main_v76` after the operations, as the named functions of the arguments' contents. -/
theorem v76_eq (V : Valuation τ sig (Elt F)) :
    after ops V (main_v76 : DevRef τ sig)
      = tail76 (xgrad (V (main_arg0 : DevRef τ sig)) (V (main_arg1 : DevRef τ sig)) (wmat (V (main_arg2 : DevRef τ sig)) (V (main_arg3 : DevRef τ sig)) (V (main_arg4 : DevRef τ sig)))) (wmat (V (main_arg2 : DevRef τ sig)) (V (main_arg3 : DevRef τ sig)) (V (main_arg4 : DevRef τ sig))) (ysum (V (main_arg0 : DevRef τ sig))) (V (main_arg2 : DevRef τ sig)) (V (main_arg3 : DevRef τ sig)) (V (main_arg5 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  simp only [readout, wmat, diag, xgrad, ysum, wgrad, tail25, tail30, ymean, rowMean, centered, normalized, lnorm, hidden, silu, gate, tail72, mix, tail76, tail80]
  rfl

set_option maxHeartbeats 8000000 in
/-- `main_v80` after the operations, as the named functions of the arguments' contents. -/
theorem v80_eq (V : Valuation τ sig (Elt F)) :
    after ops V (main_v80 : DevRef τ sig)
      = tail80 (xgrad (V (main_arg0 : DevRef τ sig)) (V (main_arg1 : DevRef τ sig)) (wmat (V (main_arg2 : DevRef τ sig)) (V (main_arg3 : DevRef τ sig)) (V (main_arg4 : DevRef τ sig)))) (wmat (V (main_arg2 : DevRef τ sig)) (V (main_arg3 : DevRef τ sig)) (V (main_arg4 : DevRef τ sig))) (ysum (V (main_arg0 : DevRef τ sig))) (V (main_arg2 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  simp only [readout, wmat, diag, xgrad, ysum, wgrad, tail25, tail30, ymean, rowMean, centered, normalized, lnorm, hidden, silu, gate, tail72, mix, tail76, tail80]
  rfl

/-- `main_v25` after the operations, as the named functions of the arguments' contents. -/
theorem v25_eq (V : Valuation τ sig (Elt F)) :
    after ops V (main_v25 : DevRef τ sig)
      = tail25 (xgrad (V (main_arg0 : DevRef τ sig)) (V (main_arg1 : DevRef τ sig)) (wmat (V (main_arg2 : DevRef τ sig)) (V (main_arg3 : DevRef τ sig)) (V (main_arg4 : DevRef τ sig)))) (wmat (V (main_arg2 : DevRef τ sig)) (V (main_arg3 : DevRef τ sig)) (V (main_arg4 : DevRef τ sig))) (V (main_arg3 : DevRef τ sig)) (V (main_arg5 : DevRef τ sig)) := by
  after_results_simp
  simp only [readout, wmat, diag, xgrad, ysum, wgrad, tail25, tail30, ymean, rowMean, centered, normalized, lnorm, hidden, silu, gate, tail72, mix, tail76, tail80]
  rfl

/-- `main_v30` after the operations, as the named functions of the arguments' contents. -/
theorem v30_eq (V : Valuation τ sig (Elt F)) :
    after ops V (main_v30 : DevRef τ sig)
      = tail30 (xgrad (V (main_arg0 : DevRef τ sig)) (V (main_arg1 : DevRef τ sig)) (wmat (V (main_arg2 : DevRef τ sig)) (V (main_arg3 : DevRef τ sig)) (V (main_arg4 : DevRef τ sig)))) (wmat (V (main_arg2 : DevRef τ sig)) (V (main_arg3 : DevRef τ sig)) (V (main_arg4 : DevRef τ sig))) (V (main_arg2 : DevRef τ sig)) (V (main_arg6 : DevRef τ sig)) := by
  after_results_simp
  simp only [readout, wmat, diag, xgrad, ysum, wgrad, tail25, tail30, ymean, rowMean, centered, normalized, lnorm, hidden, silu, gate, tail72, mix, tail76, tail80]
  rfl

set_option maxHeartbeats 4000000 in
/-- `main_v72` after the operations, as the named functions of the arguments' contents. -/
theorem v72_eq (V : Valuation τ sig (Elt F)) :
    after ops V (main_v72 : DevRef τ sig)
      = tail72 (ysum (V (main_arg0 : DevRef τ sig))) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  simp only [readout, wmat, diag, xgrad, ysum, wgrad, tail25, tail30, ymean, rowMean, centered, normalized, lnorm, hidden, silu, gate, tail72, mix, tail76, tail80]
  rfl

/-- On every device, for any float values, from any memory with zero counters: every weakly fair execution of
    @main terminates with the six results at the named functions of the arguments' launch contents and the
    thirteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = readout (m ((c.tc : Thread nD τ).loc main_arg0)) (wmat (m ((c.tc : Thread nD τ).loc main_arg2)) (m ((c.tc : Thread nD τ).loc main_arg3)) (m ((c.tc : Thread nD τ).loc main_arg4)))
      ∧ r.2.mem ((c.tc : Thread nD τ).loc main_v76)
          = tail76 (xgrad (m ((c.tc : Thread nD τ).loc main_arg0)) (m ((c.tc : Thread nD τ).loc main_arg1)) (wmat (m ((c.tc : Thread nD τ).loc main_arg2)) (m ((c.tc : Thread nD τ).loc main_arg3)) (m ((c.tc : Thread nD τ).loc main_arg4)))) (wmat (m ((c.tc : Thread nD τ).loc main_arg2)) (m ((c.tc : Thread nD τ).loc main_arg3)) (m ((c.tc : Thread nD τ).loc main_arg4))) (ysum (m ((c.tc : Thread nD τ).loc main_arg0))) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v80)
          = tail80 (xgrad (m ((c.tc : Thread nD τ).loc main_arg0)) (m ((c.tc : Thread nD τ).loc main_arg1)) (wmat (m ((c.tc : Thread nD τ).loc main_arg2)) (m ((c.tc : Thread nD τ).loc main_arg3)) (m ((c.tc : Thread nD τ).loc main_arg4)))) (wmat (m ((c.tc : Thread nD τ).loc main_arg2)) (m ((c.tc : Thread nD τ).loc main_arg3)) (m ((c.tc : Thread nD τ).loc main_arg4))) (ysum (m ((c.tc : Thread nD τ).loc main_arg0))) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v25)
          = tail25 (xgrad (m ((c.tc : Thread nD τ).loc main_arg0)) (m ((c.tc : Thread nD τ).loc main_arg1)) (wmat (m ((c.tc : Thread nD τ).loc main_arg2)) (m ((c.tc : Thread nD τ).loc main_arg3)) (m ((c.tc : Thread nD τ).loc main_arg4)))) (wmat (m ((c.tc : Thread nD τ).loc main_arg2)) (m ((c.tc : Thread nD τ).loc main_arg3)) (m ((c.tc : Thread nD τ).loc main_arg4))) (m ((c.tc : Thread nD τ).loc main_arg3)) (m ((c.tc : Thread nD τ).loc main_arg5))
      ∧ r.2.mem ((c.tc : Thread nD τ).loc main_v30)
          = tail30 (xgrad (m ((c.tc : Thread nD τ).loc main_arg0)) (m ((c.tc : Thread nD τ).loc main_arg1)) (wmat (m ((c.tc : Thread nD τ).loc main_arg2)) (m ((c.tc : Thread nD τ).loc main_arg3)) (m ((c.tc : Thread nD τ).loc main_arg4)))) (wmat (m ((c.tc : Thread nD τ).loc main_arg2)) (m ((c.tc : Thread nD τ).loc main_arg3)) (m ((c.tc : Thread nD τ).loc main_arg4))) (m ((c.tc : Thread nD τ).loc main_arg2)) (m ((c.tc : Thread nD τ).loc main_arg6))
      ∧ r.2.mem ((c.tc : Thread nD τ).loc main_v72)
          = tail72 (ysum (m ((c.tc : Thread nD τ).loc main_arg0))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v8).trans (v8_eq _),
      (h c main_v76).trans (v76_eq _),
      (h c main_v80).trans (v80_eq _),
      (h c main_v25).trans (v25_eq _),
      (h c main_v30).trans (v30_eq _),
      (h c main_v72).trans (v72_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main m ρ)

end Cert.ReferenceIdeal.RefRun

end
-- ==== Proof.KI.Bridge.lean ====
/-
  The bridge at the exact reals: the kernel's read-out array is the reference's k · Wᵀ; its two accumulator arrays,
  summed over the halves on the host (and the first negated and scaled by 2⁻¹⁴), are the reference's gradient
  −(v − k · Wᵀ)ᵀ · k / 16384 and its column sums of k.
-/
import proofs.«160550_j61804579389940_2_alg».proof.Proof.KI.Arrays
import proofs.«160550_j61804579389940_2_alg».proof.Proof.KI.HostReads
import proofs.«160550_j61804579389940_2_alg».proof.Proof.KI.Sums
import proofs.«160550_j61804579389940_2_alg».proof.Proof.RefRun
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx

/-- The kernel's first host operations on the first accumulator array: the halves summed, negated, scaled. -/
def kX' {F : FTy → Type} [FloatOps F] (A4 : FVec F S2x2048x2048 .f32) : FVec F S2048x2048 .f32 :=
  mulf (Host.negf (Host.reduceAdd A4 (constant S_ .f32 0x00000000#32) Facts₀.reducesTo_S2x2048x2048_S2048x2048_d0 Facts₀.h_S_))
    (broadcastInDim S2048x2048 ![] Facts₀.bcast_S_S2048x2048 (constant S_ .f32 0x38800000#32))

/-- The kernel's first host operation on the second accumulator array: the halves summed. -/
def kY' {F : FTy → Type} [FloatOps F] (A5 : FVec F S2x1x2048 .f32) : FVec F S1x2048 .f32 :=
  Host.reduceAdd A5 (constant S_ .f32 0x00000000#32) Facts₀.reducesTo_S2x1x2048_S1x2048_d0 Facts₀.h_S_

/-- The read-out array is the reference's k · Wᵀ. -/
theorem G3F_eq_readout (k : Vec Ideal S16384x2048 .f32) (w : Vec Ideal S2048x2048 .bf16) :
    G3F k w = Cert.ReferenceIdeal.RefRun.readout (F := Ideal) k w := by
  funext y
  obtain ⟨n, i, rfl⟩ : ∃ (n : Fin 16384) (i : Fin 2048), y = ix2 n i := ⟨y 0, y 1, eq_ix2 y⟩
  exact (ref_proj_apply k w n i).symm

/-- The first accumulator array through the host's sum, negation and scale is the reference's gradient. -/
theorem kX_G4F_eq_xgrad (k v : Vec Ideal S16384x2048 .f32) (w : Vec Ideal S2048x2048 .bf16) :
    kX' (F := Ideal) (G4F k v w) = Cert.ReferenceIdeal.RefRun.xgrad (F := Ideal) k v w := by
  funext y
  obtain ⟨i, j, rfl⟩ : ∃ (i j : Fin 2048), y = ix2 i j := ⟨y 0, y 1, eq_ix2 y⟩
  have hL : kX' (F := Ideal) (G4F k v w) (ix2 i j)
      = (-(∑ n : Fin 16384, f4F k v w i j n)) * (Ideal.ofBits .f32 0x38800000#32 : EReal) := by
    unfold kX'
    rw [mulf_apply, hostNegf_apply, kern_sum1_apply, bcastScalar_apply, constant_apply, ← sum_halves (f4F k v w i j)]
    rfl
  have hR : Cert.ReferenceIdeal.RefRun.xgrad (F := Ideal) k v w (ix2 i j)
      = Ideal.div (-(∑ n : Fin 16384, f4F k v w i j n)) (Ideal.ofBits .f32 0x46800000#32) := by
    unfold Cert.ReferenceIdeal.RefRun.xgrad
    rw [hostDivf_apply, hostNegf_apply, ref_grad_apply, bcastScalar_apply, constant_apply]
    refine congrArg (fun s : EReal => Ideal.div (-s) (Ideal.ofBits .f32 0x46800000#32)) (Finset.sum_congr rfl fun n _ => ?_)
    show (v (ix2 n i) - Cert.ReferenceIdeal.RefRun.readout (F := Ideal) k w (ix2 n i)) * k (ix2 n j) = _
    unfold Cert.ReferenceIdeal.RefRun.readout
    rw [ref_proj_apply]
    rfl
  rw [hL, hR, scale_eq]

/-- The second accumulator array through the host's sum is the reference's column sums. -/
theorem kY_G5F_eq_ysum (k : Vec Ideal S16384x2048 .f32) :
    kY' (F := Ideal) (G5F k) = Cert.ReferenceIdeal.RefRun.ysum (F := Ideal) k := by
  funext y
  obtain ⟨u, j, rfl⟩ : ∃ (u : Fin 1) (j : Fin 2048), y = ix2 u j := ⟨y 0, y 1, eq_ix2 y⟩
  obtain rfl : u = 0 := Subsingleton.elim _ _
  unfold kY' Cert.ReferenceIdeal.RefRun.ysum
  rw [kern_sum2_apply, ref_colsum_apply]
  exact (sum_halves (f5F k j)).trans (zero_add _).symm

end Cert.KernelIdeal.Hand

end
-- ==== Proof.KI.Tail.lean ====
/-
  The kernel program's host operations read as the reference's named functions: what the lines before the region
  leave in W's buffer and its bf16 rounding, and what the lines after the region compute from the two per-core
  partial results, the summed row and the argument arrays.
-/
import proofs.«160550_j61804579389940_2_alg».proof.Proof.KI.Kit
import proofs.«160550_j61804579389940_2_alg».proof.Proof.RefRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem
open Idealize.ShloMosaic.Pipeline (Dat)

variable {F : FTy → Type} [FloatOps F]

/-! ## The two sums of the per-core partial results -/

/-- Statements %9, %11–%13: the two per-core [2048, 2048] partial results summed from the zero literal, negated,
    times the literal 2⁻¹⁴. -/
def kX (A4 : FVec F S2x2048x2048 .f32) : FVec F S2048x2048 .f32 :=
  mulf (Host.negf (Host.reduceAdd A4 (constant S_ .f32 0x00000000#32) reducesTo_S2x2048x2048_S2048x2048_d0 h_S_))
    (broadcastInDim S2048x2048 ![] bcast_S_S2048x2048 (constant S_ .f32 0x38800000#32))

/-- Statement %10: the two per-core [1, 2048] partial rows summed from the zero literal. -/
def kY (A5 : FVec F S2x1x2048 .f32) : FVec F S1x2048 .f32 :=
  Host.reduceAdd A5 (constant S_ .f32 0x00000000#32) reducesTo_S2x1x2048_S1x2048_d0 h_S_

/-! ## The later lines from any contents -/

/-- `main_v24` after the later lines from any contents `Wv`, as the reference's named function of `Wv` at the buffers the lines read. -/
theorem tail_v24 (Wv : Valuation τ sig (Elt F)) :
    StableHlo.after (List.flatten [hostOps1, hostOps1_1, hostOps1_2]) Wv (Proc.devRef .tc main_v24)
      = Cert.ReferenceIdeal.RefRun.tail25 (kX (Wv (Proc.devRef .tc main_v8_1))) (Wv (Proc.devRef .tc main_v6)) (Wv (Proc.devRef .tc main_arg3)) (Wv (Proc.devRef .tc main_arg5)) := by
  simp only [hostOps1, hostOps1_1, hostOps1_2, List.flatten_cons, List.flatten_nil, List.append_nil, List.cons_append, List.nil_append]
  after_results_simp
  simp only [kX, kY, Cert.ReferenceIdeal.RefRun.diag, Cert.ReferenceIdeal.RefRun.wmat, Cert.ReferenceIdeal.RefRun.readout, Cert.ReferenceIdeal.RefRun.xgrad, Cert.ReferenceIdeal.RefRun.ysum, Cert.ReferenceIdeal.RefRun.wgrad, Cert.ReferenceIdeal.RefRun.tail25, Cert.ReferenceIdeal.RefRun.tail30, Cert.ReferenceIdeal.RefRun.ymean, Cert.ReferenceIdeal.RefRun.rowMean, Cert.ReferenceIdeal.RefRun.centered, Cert.ReferenceIdeal.RefRun.normalized, Cert.ReferenceIdeal.RefRun.lnorm, Cert.ReferenceIdeal.RefRun.hidden, Cert.ReferenceIdeal.RefRun.silu, Cert.ReferenceIdeal.RefRun.gate, Cert.ReferenceIdeal.RefRun.tail72, Cert.ReferenceIdeal.RefRun.mix, Cert.ReferenceIdeal.RefRun.tail76, Cert.ReferenceIdeal.RefRun.tail80]
  rfl

/-- `main_v29` after the later lines from any contents `Wv`, as the reference's named function of `Wv` at the buffers the lines read. -/
theorem tail_v29 (Wv : Valuation τ sig (Elt F)) :
    StableHlo.after (List.flatten [hostOps1, hostOps1_1, hostOps1_2]) Wv (Proc.devRef .tc main_v29)
      = Cert.ReferenceIdeal.RefRun.tail30 (kX (Wv (Proc.devRef .tc main_v8_1))) (Wv (Proc.devRef .tc main_v6)) (Wv (Proc.devRef .tc main_arg2)) (Wv (Proc.devRef .tc main_arg6)) := by
  simp only [hostOps1, hostOps1_1, hostOps1_2, List.flatten_cons, List.flatten_nil, List.append_nil, List.cons_append, List.nil_append]
  after_results_simp
  simp only [kX, kY, Cert.ReferenceIdeal.RefRun.diag, Cert.ReferenceIdeal.RefRun.wmat, Cert.ReferenceIdeal.RefRun.readout, Cert.ReferenceIdeal.RefRun.xgrad, Cert.ReferenceIdeal.RefRun.ysum, Cert.ReferenceIdeal.RefRun.wgrad, Cert.ReferenceIdeal.RefRun.tail25, Cert.ReferenceIdeal.RefRun.tail30, Cert.ReferenceIdeal.RefRun.ymean, Cert.ReferenceIdeal.RefRun.rowMean, Cert.ReferenceIdeal.RefRun.centered, Cert.ReferenceIdeal.RefRun.normalized, Cert.ReferenceIdeal.RefRun.lnorm, Cert.ReferenceIdeal.RefRun.hidden, Cert.ReferenceIdeal.RefRun.silu, Cert.ReferenceIdeal.RefRun.gate, Cert.ReferenceIdeal.RefRun.tail72, Cert.ReferenceIdeal.RefRun.mix, Cert.ReferenceIdeal.RefRun.tail76, Cert.ReferenceIdeal.RefRun.tail80]
  rfl

set_option maxHeartbeats 4000000 in
/-- `main_v69` after the later lines from any contents `Wv`, as the reference's named function of `Wv` at the buffers the lines read. -/
theorem tail_v69 (Wv : Valuation τ sig (Elt F)) :
    StableHlo.after (List.flatten [hostOps1, hostOps1_1, hostOps1_2]) Wv (Proc.devRef .tc main_v69)
      = Cert.ReferenceIdeal.RefRun.tail72 (kY (Wv (Proc.devRef .tc main_v8_2))) (Wv (Proc.devRef .tc main_arg7)) (Wv (Proc.devRef .tc main_arg8)) (Wv (Proc.devRef .tc main_arg9)) (Wv (Proc.devRef .tc main_arg10)) (Wv (Proc.devRef .tc main_arg11)) (Wv (Proc.devRef .tc main_arg12)) := by
  simp only [hostOps1, hostOps1_1, hostOps1_2, List.flatten_cons, List.flatten_nil, List.append_nil, List.cons_append, List.nil_append]
  after_results_simp
  simp only [kX, kY, Cert.ReferenceIdeal.RefRun.diag, Cert.ReferenceIdeal.RefRun.wmat, Cert.ReferenceIdeal.RefRun.readout, Cert.ReferenceIdeal.RefRun.xgrad, Cert.ReferenceIdeal.RefRun.ysum, Cert.ReferenceIdeal.RefRun.wgrad, Cert.ReferenceIdeal.RefRun.tail25, Cert.ReferenceIdeal.RefRun.tail30, Cert.ReferenceIdeal.RefRun.ymean, Cert.ReferenceIdeal.RefRun.rowMean, Cert.ReferenceIdeal.RefRun.centered, Cert.ReferenceIdeal.RefRun.normalized, Cert.ReferenceIdeal.RefRun.lnorm, Cert.ReferenceIdeal.RefRun.hidden, Cert.ReferenceIdeal.RefRun.silu, Cert.ReferenceIdeal.RefRun.gate, Cert.ReferenceIdeal.RefRun.tail72, Cert.ReferenceIdeal.RefRun.mix, Cert.ReferenceIdeal.RefRun.tail76, Cert.ReferenceIdeal.RefRun.tail80]
  rfl

set_option maxHeartbeats 8000000 in
/-- `main_v73` after the later lines from any contents `Wv`, as the reference's named function of `Wv` at the buffers the lines read. -/
theorem tail_v73 (Wv : Valuation τ sig (Elt F)) :
    StableHlo.after (List.flatten [hostOps1, hostOps1_1, hostOps1_2]) Wv (Proc.devRef .tc main_v73)
      = Cert.ReferenceIdeal.RefRun.tail76 (kX (Wv (Proc.devRef .tc main_v8_1))) (Wv (Proc.devRef .tc main_v6)) (kY (Wv (Proc.devRef .tc main_v8_2))) (Wv (Proc.devRef .tc main_arg2)) (Wv (Proc.devRef .tc main_arg3)) (Wv (Proc.devRef .tc main_arg5)) (Wv (Proc.devRef .tc main_arg7)) (Wv (Proc.devRef .tc main_arg8)) (Wv (Proc.devRef .tc main_arg9)) (Wv (Proc.devRef .tc main_arg10)) (Wv (Proc.devRef .tc main_arg11)) (Wv (Proc.devRef .tc main_arg12)) := by
  simp only [hostOps1, hostOps1_1, hostOps1_2, List.flatten_cons, List.flatten_nil, List.append_nil, List.cons_append, List.nil_append]
  after_results_simp
  simp only [kX, kY, Cert.ReferenceIdeal.RefRun.diag, Cert.ReferenceIdeal.RefRun.wmat, Cert.ReferenceIdeal.RefRun.readout, Cert.ReferenceIdeal.RefRun.xgrad, Cert.ReferenceIdeal.RefRun.ysum, Cert.ReferenceIdeal.RefRun.wgrad, Cert.ReferenceIdeal.RefRun.tail25, Cert.ReferenceIdeal.RefRun.tail30, Cert.ReferenceIdeal.RefRun.ymean, Cert.ReferenceIdeal.RefRun.rowMean, Cert.ReferenceIdeal.RefRun.centered, Cert.ReferenceIdeal.RefRun.normalized, Cert.ReferenceIdeal.RefRun.lnorm, Cert.ReferenceIdeal.RefRun.hidden, Cert.ReferenceIdeal.RefRun.silu, Cert.ReferenceIdeal.RefRun.gate, Cert.ReferenceIdeal.RefRun.tail72, Cert.ReferenceIdeal.RefRun.mix, Cert.ReferenceIdeal.RefRun.tail76, Cert.ReferenceIdeal.RefRun.tail80]
  rfl

set_option maxHeartbeats 8000000 in
/-- `main_v77` after the later lines from any contents `Wv`, as the reference's named function of `Wv` at the buffers the lines read. -/
theorem tail_v77 (Wv : Valuation τ sig (Elt F)) :
    StableHlo.after (List.flatten [hostOps1, hostOps1_1, hostOps1_2]) Wv (Proc.devRef .tc main_v77)
      = Cert.ReferenceIdeal.RefRun.tail80 (kX (Wv (Proc.devRef .tc main_v8_1))) (Wv (Proc.devRef .tc main_v6)) (kY (Wv (Proc.devRef .tc main_v8_2))) (Wv (Proc.devRef .tc main_arg2)) (Wv (Proc.devRef .tc main_arg3)) (Wv (Proc.devRef .tc main_arg6)) (Wv (Proc.devRef .tc main_arg7)) (Wv (Proc.devRef .tc main_arg8)) (Wv (Proc.devRef .tc main_arg9)) (Wv (Proc.devRef .tc main_arg10)) (Wv (Proc.devRef .tc main_arg11)) (Wv (Proc.devRef .tc main_arg12)) := by
  simp only [hostOps1, hostOps1_1, hostOps1_2, List.flatten_cons, List.flatten_nil, List.append_nil, List.cons_append, List.nil_append]
  after_results_simp
  simp only [kX, kY, Cert.ReferenceIdeal.RefRun.diag, Cert.ReferenceIdeal.RefRun.wmat, Cert.ReferenceIdeal.RefRun.readout, Cert.ReferenceIdeal.RefRun.xgrad, Cert.ReferenceIdeal.RefRun.ysum, Cert.ReferenceIdeal.RefRun.wgrad, Cert.ReferenceIdeal.RefRun.tail25, Cert.ReferenceIdeal.RefRun.tail30, Cert.ReferenceIdeal.RefRun.ymean, Cert.ReferenceIdeal.RefRun.rowMean, Cert.ReferenceIdeal.RefRun.centered, Cert.ReferenceIdeal.RefRun.normalized, Cert.ReferenceIdeal.RefRun.lnorm, Cert.ReferenceIdeal.RefRun.hidden, Cert.ReferenceIdeal.RefRun.silu, Cert.ReferenceIdeal.RefRun.gate, Cert.ReferenceIdeal.RefRun.tail72, Cert.ReferenceIdeal.RefRun.mix, Cert.ReferenceIdeal.RefRun.tail76, Cert.ReferenceIdeal.RefRun.tail80]
  rfl

/-! ## What the lines before the region leave -/

/-- W's buffer after the earlier lines from any contents `V'`: the reference's `wmat` of `V'` at arguments 2, 3, 4. -/
theorem pre_v6 (V' : Valuation τ sig (Elt F)) :
    StableHlo.after (List.flatten [hostOps0, hostOps0_1, hostOps0_2]) V' (Proc.devRef .tc main_v6)
      = Cert.ReferenceIdeal.RefRun.wmat (V' (Proc.devRef .tc main_arg2)) (V' (Proc.devRef .tc main_arg3)) (V' (Proc.devRef .tc main_arg4)) := by
  simp only [hostOps0, hostOps0_1, hostOps0_2, List.flatten_cons, List.flatten_nil, List.append_nil, List.cons_append, List.nil_append]
  after_results_simp
  simp only [Cert.ReferenceIdeal.RefRun.wmat, Cert.ReferenceIdeal.RefRun.diag]
  rfl

/-- Its bf16 rounding's buffer after the earlier lines. -/
theorem pre_v7 (V' : Valuation τ sig (Elt F)) :
    StableHlo.after (List.flatten [hostOps0, hostOps0_1, hostOps0_2]) V' (Proc.devRef .tc main_v7)
      = truncf .bf16 (Cert.ReferenceIdeal.RefRun.wmat (V' (Proc.devRef .tc main_arg2)) (V' (Proc.devRef .tc main_arg3)) (V' (Proc.devRef .tc main_arg4))) bitsLt_bf16_f32 := by
  simp only [hostOps0, hostOps0_1, hostOps0_2, List.flatten_cons, List.flatten_nil, List.append_nil, List.cons_append, List.nil_append]
  after_results_simp
  simp only [Cert.ReferenceIdeal.RefRun.wmat, Cert.ReferenceIdeal.RefRun.diag]
  rfl

variable (m : (ℓ : Loc nD τ sig) → Buf (Elt F) ℓ)

/-- When the region is entered, W's buffer holds `wmat` of the three argument arrays. -/
theorem V_main_v6 (c : Dev nD) :
    V m c main_v6 = Cert.ReferenceIdeal.RefRun.wmat (V m c main_arg2) (V m c main_arg3) (V m c main_arg4) := by
  rw [V_main_arg2, V_main_arg3, V_main_arg4]
  exact pre_v6 _

/-- And window 2's array holds its bf16 rounding. -/
theorem V_main_v7 (c : Dev nD) :
    V m c main_v7 = truncf .bf16 (V m c main_v6) bitsLt_bf16_f32 := by
  rw [V_main_v6, V_main_arg2, V_main_arg3, V_main_arg4]
  exact pre_v7 _

/-! ## The results of the lines after the region -/

/-- The contents the later lines start from: the pipeline's six arrays at their final contents, every other buffer
    as the region found it. -/
abbrev Wfin (dats : (p : Fin 1) → (c : Dev nD) → Dat τ (Elt F) Unit ℕ (UR sig nD τ) ℕ (cfgs p) c) (c : Dev nD) : Valuation τ sig (Elt F) :=
  Pipeline.withArrays spec0 c (V0 m c) fun w => (dats 0 c).arrAt w cfg0.N

/-- Window 4's array there: its final contents. -/
theorem Wfin_v8_1 (dats : (p : Fin 1) → (c : Dev nD) → Dat τ (Elt F) Unit ℕ (UR sig nD τ) ℕ (cfgs p) c) (c : Dev nD) :
    Wfin m dats c (Proc.devRef .tc main_v8_1) = (dats 0 c).arrAt 4 cfg0.N :=
  Pipeline.withArrays_arr spec0 launch0.win.arr_inj c _ _ 4

/-- Window 5's array there: its final contents. -/
theorem Wfin_v8_2 (dats : (p : Fin 1) → (c : Dev nD) → Dat τ (Elt F) Unit ℕ (UR sig nD τ) ℕ (cfgs p) c) (c : Dev nD) :
    Wfin m dats c (Proc.devRef .tc main_v8_2) = (dats 0 c).arrAt 5 cfg0.N :=
  Pipeline.withArrays_arr spec0 launch0.win.arr_inj c _ _ 5

/-- A buffer that is no window's array there: as the region found it. -/
theorem Wfin_of_ne (dats : (p : Fin 1) → (c : Dev nD) → Dat τ (Elt F) Unit ℕ (UR sig nD τ) ℕ (cfgs p) c) (c : Dev nD) (b : Ref sig .tc)
    (hb : ∀ w, Pipeline.arrRef spec0 w ≠ b) : Wfin m dats c (Proc.devRef .tc b) = V m c b :=
  Pipeline.withArrays_of_ne _ c (V0 m c) _ b hb

/-- `main_v24` after the whole program, for any proof data of the region: the reference's named function of the two
    summed partial results, W as the region found it, and the argument arrays as the region found them. -/
theorem W_main_v24 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_v24
      = Cert.ReferenceIdeal.RefRun.tail25 (kX ((dats 0 c).arrAt 4 cfg0.N)) (V m c main_v6) (V m c main_arg3) (V m c main_arg5) := by
  show StableHlo.after (List.flatten [hostOps1, hostOps1_1, hostOps1_2]) (Wfin m dats c) (Proc.devRef .tc main_v24) = _
  rw [tail_v24, Wfin_v8_1,
    Wfin_of_ne m dats c main_v6 (by exact (by decide : ∀ w, Pipeline.arrRef spec0 w ≠ main_v6)),
    Wfin_of_ne m dats c main_arg3 (by exact (by decide : ∀ w, Pipeline.arrRef spec0 w ≠ main_arg3)),
    Wfin_of_ne m dats c main_arg5 (by exact (by decide : ∀ w, Pipeline.arrRef spec0 w ≠ main_arg5))]

/-- `main_v29` after the whole program, for any proof data of the region: the reference's named function of the two
    summed partial results, W as the region found it, and the argument arrays as the region found them. -/
theorem W_main_v29 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_v29
      = Cert.ReferenceIdeal.RefRun.tail30 (kX ((dats 0 c).arrAt 4 cfg0.N)) (V m c main_v6) (V m c main_arg2) (V m c main_arg6) := by
  show StableHlo.after (List.flatten [hostOps1, hostOps1_1, hostOps1_2]) (Wfin m dats c) (Proc.devRef .tc main_v29) = _
  rw [tail_v29, Wfin_v8_1,
    Wfin_of_ne m dats c main_v6 (by exact (by decide : ∀ w, Pipeline.arrRef spec0 w ≠ main_v6)),
    Wfin_of_ne m dats c main_arg2 (by exact (by decide : ∀ w, Pipeline.arrRef spec0 w ≠ main_arg2)),
    Wfin_of_ne m dats c main_arg6 (by exact (by decide : ∀ w, Pipeline.arrRef spec0 w ≠ main_arg6))]

/-- `main_v69` after the whole program, for any proof data of the region: the reference's named function of the two
    summed partial results, W as the region found it, and the argument arrays as the region found them. -/
theorem W_main_v69 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_v69
      = Cert.ReferenceIdeal.RefRun.tail72 (kY ((dats 0 c).arrAt 5 cfg0.N)) (V m c main_arg7) (V m c main_arg8) (V m c main_arg9) (V m c main_arg10) (V m c main_arg11) (V m c main_arg12) := by
  show StableHlo.after (List.flatten [hostOps1, hostOps1_1, hostOps1_2]) (Wfin m dats c) (Proc.devRef .tc main_v69) = _
  rw [tail_v69, Wfin_v8_2,
    Wfin_of_ne m dats c main_arg7 (by exact (by decide : ∀ w, Pipeline.arrRef spec0 w ≠ main_arg7)),
    Wfin_of_ne m dats c main_arg8 (by exact (by decide : ∀ w, Pipeline.arrRef spec0 w ≠ main_arg8)),
    Wfin_of_ne m dats c main_arg9 (by exact (by decide : ∀ w, Pipeline.arrRef spec0 w ≠ main_arg9)),
    Wfin_of_ne m dats c main_arg10 (by exact (by decide : ∀ w, Pipeline.arrRef spec0 w ≠ main_arg10)),
    Wfin_of_ne m dats c main_arg11 (by exact (by decide : ∀ w, Pipeline.arrRef spec0 w ≠ main_arg11)),
    Wfin_of_ne m dats c main_arg12 (by exact (by decide : ∀ w, Pipeline.arrRef spec0 w ≠ main_arg12))]

/-- `main_v73` after the whole program, for any proof data of the region: the reference's named function of the two
    summed partial results, W as the region found it, and the argument arrays as the region found them. -/
theorem W_main_v73 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_v73
      = Cert.ReferenceIdeal.RefRun.tail76 (kX ((dats 0 c).arrAt 4 cfg0.N)) (V m c main_v6) (kY ((dats 0 c).arrAt 5 cfg0.N)) (V m c main_arg2) (V m c main_arg3) (V m c main_arg5) (V m c main_arg7) (V m c main_arg8) (V m c main_arg9) (V m c main_arg10) (V m c main_arg11) (V m c main_arg12) := by
  show StableHlo.after (List.flatten [hostOps1, hostOps1_1, hostOps1_2]) (Wfin m dats c) (Proc.devRef .tc main_v73) = _
  rw [tail_v73, Wfin_v8_1, Wfin_v8_2,
    Wfin_of_ne m dats c main_v6 (by exact (by decide : ∀ w, Pipeline.arrRef spec0 w ≠ main_v6)),
    Wfin_of_ne m dats c main_arg2 (by exact (by decide : ∀ w, Pipeline.arrRef spec0 w ≠ main_arg2)),
    Wfin_of_ne m dats c main_arg3 (by exact (by decide : ∀ w, Pipeline.arrRef spec0 w ≠ main_arg3)),
    Wfin_of_ne m dats c main_arg5 (by exact (by decide : ∀ w, Pipeline.arrRef spec0 w ≠ main_arg5)),
    Wfin_of_ne m dats c main_arg7 (by exact (by decide : ∀ w, Pipeline.arrRef spec0 w ≠ main_arg7)),
    Wfin_of_ne m dats c main_arg8 (by exact (by decide : ∀ w, Pipeline.arrRef spec0 w ≠ main_arg8)),
    Wfin_of_ne m dats c main_arg9 (by exact (by decide : ∀ w, Pipeline.arrRef spec0 w ≠ main_arg9)),
    Wfin_of_ne m dats c main_arg10 (by exact (by decide : ∀ w, Pipeline.arrRef spec0 w ≠ main_arg10)),
    Wfin_of_ne m dats c main_arg11 (by exact (by decide : ∀ w, Pipeline.arrRef spec0 w ≠ main_arg11)),
    Wfin_of_ne m dats c main_arg12 (by exact (by decide : ∀ w, Pipeline.arrRef spec0 w ≠ main_arg12))]

/-- `main_v77` after the whole program, for any proof data of the region: the reference's named function of the two
    summed partial results, W as the region found it, and the argument arrays as the region found them. -/
theorem W_main_v77 (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c main_v77
      = Cert.ReferenceIdeal.RefRun.tail80 (kX ((dats 0 c).arrAt 4 cfg0.N)) (V m c main_v6) (kY ((dats 0 c).arrAt 5 cfg0.N)) (V m c main_arg2) (V m c main_arg3) (V m c main_arg6) (V m c main_arg7) (V m c main_arg8) (V m c main_arg9) (V m c main_arg10) (V m c main_arg11) (V m c main_arg12) := by
  show StableHlo.after (List.flatten [hostOps1, hostOps1_1, hostOps1_2]) (Wfin m dats c) (Proc.devRef .tc main_v77) = _
  rw [tail_v77, Wfin_v8_1, Wfin_v8_2,
    Wfin_of_ne m dats c main_v6 (by exact (by decide : ∀ w, Pipeline.arrRef spec0 w ≠ main_v6)),
    Wfin_of_ne m dats c main_arg2 (by exact (by decide : ∀ w, Pipeline.arrRef spec0 w ≠ main_arg2)),
    Wfin_of_ne m dats c main_arg3 (by exact (by decide : ∀ w, Pipeline.arrRef spec0 w ≠ main_arg3)),
    Wfin_of_ne m dats c main_arg6 (by exact (by decide : ∀ w, Pipeline.arrRef spec0 w ≠ main_arg6)),
    Wfin_of_ne m dats c main_arg7 (by exact (by decide : ∀ w, Pipeline.arrRef spec0 w ≠ main_arg7)),
    Wfin_of_ne m dats c main_arg8 (by exact (by decide : ∀ w, Pipeline.arrRef spec0 w ≠ main_arg8)),
    Wfin_of_ne m dats c main_arg9 (by exact (by decide : ∀ w, Pipeline.arrRef spec0 w ≠ main_arg9)),
    Wfin_of_ne m dats c main_arg10 (by exact (by decide : ∀ w, Pipeline.arrRef spec0 w ≠ main_arg10)),
    Wfin_of_ne m dats c main_arg11 (by exact (by decide : ∀ w, Pipeline.arrRef spec0 w ≠ main_arg11)),
    Wfin_of_ne m dats c main_arg12 (by exact (by decide : ∀ w, Pipeline.arrRef spec0 w ≠ main_arg12))]

end Cert.KernelIdeal.Hand

end
-- ==== Proof.KI.KRun.lean ====
/-
  The kernel program's run with every result at the reference's named functions of the launch memory: the
  read-out array is k · Wᵀ, the two accumulator arrays through the host's sums are the reference's gradient and
  column sums, W's buffer is the reference's W (its rounding to bf16 is the identity on the extended reals), and
  the lines after the region are the reference's tails of these.
-/
import proofs.«160550_j61804579389940_2_alg».proof.Proof.KI.Outs
import proofs.«160550_j61804579389940_2_alg».proof.Proof.KI.Args
import proofs.«160550_j61804579389940_2_alg».proof.Proof.KI.Final
import proofs.«160550_j61804579389940_2_alg».proof.Proof.KI.Bridge
import proofs.«160550_j61804579389940_2_alg».proof.Proof.KI.Tail
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

/-- On the extended reals rounding to a narrower format is the identity. -/
theorem truncf_ideal {s : Shape} (x : s.Idx → EReal) (h : FTy.bits .bf16 < FTy.bits .f32) :
    (truncf (F := Ideal) (φ := .f32) .bf16 x h : s.Idx → EReal) = x := rfl

variable (m : (ℓ : Loc nD τ sig) → Buf (Elt Ideal) ℓ) (ρ : Dev nD → PrngReg)

/-- W's buffer when the region is entered: the reference's W of the launch memory. -/
theorem hW (c : Dev nD) :
    V m c main_v6 = Cert.ReferenceIdeal.RefRun.wmat (F := Ideal) (m ((c.tc : Thread nD τ).loc main_arg2)) (m ((c.tc : Thread nD τ).loc main_arg3)) (m ((c.tc : Thread nD τ).loc main_arg4)) := by
  rw [V_main_v6, V_main_arg2, V_main_arg3, V_main_arg4]

/-- Window 2's array when the region is entered: the same array. -/
theorem hW7 (c : Dev nD) :
    (V m c main_v7 : S2048x2048.Idx → EReal) = Cert.ReferenceIdeal.RefRun.wmat (F := Ideal) (m ((c.tc : Thread nD τ).loc main_arg2)) (m ((c.tc : Thread nD τ).loc main_arg3)) (m ((c.tc : Thread nD τ).loc main_arg4)) :=
  (V_main_v7 m c).trans ((truncf_ideal _ _).trans (hW m c))

/-- The first accumulator array's final contents through the host's sum, negation and scale: the reference's gradient. -/
theorem hX (c : Dev nD) :
    kX ((dats m 0 c).arrAt 4 cfg0.N) = Cert.ReferenceIdeal.RefRun.xgrad (F := Ideal) (m ((c.tc : Thread nD τ).loc main_arg0)) (m ((c.tc : Thread nD τ).loc main_arg1)) (Cert.ReferenceIdeal.RefRun.wmat (F := Ideal) (m ((c.tc : Thread nD τ).loc main_arg2)) (m ((c.tc : Thread nD τ).loc main_arg3)) (m ((c.tc : Thread nD τ).loc main_arg4))) := by
  rw [final4]
  show kX' (F := Ideal) (G4F (V m c main_arg0) (V m c main_arg1) (V m c main_v7)) = _
  rw [kX_G4F_eq_xgrad, hW7, V_main_arg0, V_main_arg1]

/-- The second accumulator array's final contents through the host's sum: the reference's column sums. -/
theorem hY (c : Dev nD) :
    kY ((dats m 0 c).arrAt 5 cfg0.N) = Cert.ReferenceIdeal.RefRun.ysum (F := Ideal) (m ((c.tc : Thread nD τ).loc main_arg0)) := by
  rw [final5]
  show kY' (F := Ideal) (G5F (V m c main_arg0)) = _
  rw [kY_G5F_eq_ysum, V_main_arg0]

/-- The read-out array's final contents: the reference's read-out. -/
theorem h3 (c : Dev nD) :
    (dats m 0 c).arrAt 3 cfg0.N = Cert.ReferenceIdeal.RefRun.readout (F := Ideal) (m ((c.tc : Thread nD τ).loc main_arg0)) (Cert.ReferenceIdeal.RefRun.wmat (F := Ideal) (m ((c.tc : Thread nD τ).loc main_arg2)) (m ((c.tc : Thread nD τ).loc main_arg3)) (m ((c.tc : Thread nD τ).loc main_arg4))) := by
  rw [final3]
  show G3F (V m c main_arg0) (V m c main_v7) = _
  rw [G3F_eq_readout, hW7, V_main_arg0]

/-- From any memory with zero counters, given the kernel program's frame run (every array of the pipeline at what
    its proof data give, every other unscoped buffer as the lines after the region leave it): every weakly fair
    execution of the kernel program's @main terminates with its six results at the reference's named functions of the launch contents of the arguments, and the thirteen
    arguments unchanged. -/
theorem krun_of
    (hrun : θ_run defs (onTc (τ := τ) (main (F := Ideal))) (s₀ m ρ)
      (Pipeline.FramePost cfgs (dats m) 0 (Pipeline.afterTail₀ cfgs (dats m) 0 (V0 m) [hostOps1, hostOps1_1, hostOps1_2]))) :
    θ_run defs (onTc (τ := τ) (main (F := Ideal))) ⟨m, fun _ => 0, ρ⟩ fun r => ∀ c : Dev nD,
      r.2.mem ((c.tc : Thread nD τ).loc main_v8_0)
          = Cert.ReferenceIdeal.RefRun.readout (F := Ideal) (m ((c.tc : Thread nD τ).loc main_arg0)) (Cert.ReferenceIdeal.RefRun.wmat (F := Ideal) (m ((c.tc : Thread nD τ).loc main_arg2)) (m ((c.tc : Thread nD τ).loc main_arg3)) (m ((c.tc : Thread nD τ).loc main_arg4)))
      ∧ r.2.mem ((c.tc : Thread nD τ).loc main_v73)
          = Cert.ReferenceIdeal.RefRun.tail76 (F := Ideal) (Cert.ReferenceIdeal.RefRun.xgrad (F := Ideal) (m ((c.tc : Thread nD τ).loc main_arg0)) (m ((c.tc : Thread nD τ).loc main_arg1)) (Cert.ReferenceIdeal.RefRun.wmat (F := Ideal) (m ((c.tc : Thread nD τ).loc main_arg2)) (m ((c.tc : Thread nD τ).loc main_arg3)) (m ((c.tc : Thread nD τ).loc main_arg4)))) (Cert.ReferenceIdeal.RefRun.wmat (F := Ideal) (m ((c.tc : Thread nD τ).loc main_arg2)) (m ((c.tc : Thread nD τ).loc main_arg3)) (m ((c.tc : Thread nD τ).loc main_arg4))) (Cert.ReferenceIdeal.RefRun.ysum (F := Ideal) (m ((c.tc : Thread nD τ).loc main_arg0))) (m ((c.tc : Thread nD τ).loc main_arg2)) (m ((c.tc : Thread nD τ).loc main_arg3)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v77)
          = Cert.ReferenceIdeal.RefRun.tail80 (F := Ideal) (Cert.ReferenceIdeal.RefRun.xgrad (F := Ideal) (m ((c.tc : Thread nD τ).loc main_arg0)) (m ((c.tc : Thread nD τ).loc main_arg1)) (Cert.ReferenceIdeal.RefRun.wmat (F := Ideal) (m ((c.tc : Thread nD τ).loc main_arg2)) (m ((c.tc : Thread nD τ).loc main_arg3)) (m ((c.tc : Thread nD τ).loc main_arg4)))) (Cert.ReferenceIdeal.RefRun.wmat (F := Ideal) (m ((c.tc : Thread nD τ).loc main_arg2)) (m ((c.tc : Thread nD τ).loc main_arg3)) (m ((c.tc : Thread nD τ).loc main_arg4))) (Cert.ReferenceIdeal.RefRun.ysum (F := Ideal) (m ((c.tc : Thread nD τ).loc main_arg0))) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v24)
          = Cert.ReferenceIdeal.RefRun.tail25 (F := Ideal) (Cert.ReferenceIdeal.RefRun.xgrad (F := Ideal) (m ((c.tc : Thread nD τ).loc main_arg0)) (m ((c.tc : Thread nD τ).loc main_arg1)) (Cert.ReferenceIdeal.RefRun.wmat (F := Ideal) (m ((c.tc : Thread nD τ).loc main_arg2)) (m ((c.tc : Thread nD τ).loc main_arg3)) (m ((c.tc : Thread nD τ).loc main_arg4)))) (Cert.ReferenceIdeal.RefRun.wmat (F := Ideal) (m ((c.tc : Thread nD τ).loc main_arg2)) (m ((c.tc : Thread nD τ).loc main_arg3)) (m ((c.tc : Thread nD τ).loc main_arg4))) (m ((c.tc : Thread nD τ).loc main_arg3)) (m ((c.tc : Thread nD τ).loc main_arg5))
      ∧ r.2.mem ((c.tc : Thread nD τ).loc main_v29)
          = Cert.ReferenceIdeal.RefRun.tail30 (F := Ideal) (Cert.ReferenceIdeal.RefRun.xgrad (F := Ideal) (m ((c.tc : Thread nD τ).loc main_arg0)) (m ((c.tc : Thread nD τ).loc main_arg1)) (Cert.ReferenceIdeal.RefRun.wmat (F := Ideal) (m ((c.tc : Thread nD τ).loc main_arg2)) (m ((c.tc : Thread nD τ).loc main_arg3)) (m ((c.tc : Thread nD τ).loc main_arg4)))) (Cert.ReferenceIdeal.RefRun.wmat (F := Ideal) (m ((c.tc : Thread nD τ).loc main_arg2)) (m ((c.tc : Thread nD τ).loc main_arg3)) (m ((c.tc : Thread nD τ).loc main_arg4))) (m ((c.tc : Thread nD τ).loc main_arg2)) (m ((c.tc : Thread nD τ).loc main_arg6))
      ∧ r.2.mem ((c.tc : Thread nD τ).loc main_v69)
          = Cert.ReferenceIdeal.RefRun.tail72 (F := Ideal) (Cert.ReferenceIdeal.RefRun.ysum (F := Ideal) (m ((c.tc : Thread nD τ).loc main_arg0))) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).1 3).trans (h3 m c),
      ((h c).2 main_v73 (Pipeline.mem_restRefs_of main_v73 (by decide) (by decide))).trans
        ((W_main_v73 m (dats m) c).trans (by rw [hX m c, hY m c, hW m c, V_main_arg2 m c, V_main_arg3 m c, V_main_arg5 m c, V_main_arg7 m c, V_main_arg8 m c, V_main_arg9 m c, V_main_arg10 m c, V_main_arg11 m c, V_main_arg12 m c])),
      ((h c).2 main_v77 (Pipeline.mem_restRefs_of main_v77 (by decide) (by decide))).trans
        ((W_main_v77 m (dats m) c).trans (by rw [hX m c, hY m c, hW m c, V_main_arg2 m c, V_main_arg3 m c, V_main_arg6 m c, V_main_arg7 m c, V_main_arg8 m c, V_main_arg9 m c, V_main_arg10 m c, V_main_arg11 m c, V_main_arg12 m c])),
      ((h c).2 main_v24 (Pipeline.mem_restRefs_of main_v24 (by decide) (by decide))).trans
        ((W_main_v24 m (dats m) c).trans (by rw [hX m c, hW m c, V_main_arg3 m c, V_main_arg5 m c])),
      ((h c).2 main_v29 (Pipeline.mem_restRefs_of main_v29 (by decide) (by decide))).trans
        ((W_main_v29 m (dats m) c).trans (by rw [hX m c, hW m c, V_main_arg2 m c, V_main_arg6 m c])),
      ((h c).2 main_v69 (Pipeline.mem_restRefs_of main_v69 (by decide) (by decide))).trans
        ((W_main_v69 m (dats m) c).trans (by rw [hY m c, V_main_arg7 m c, V_main_arg8 m c, V_main_arg9 m c, V_main_arg10 m c, V_main_arg11 m c, V_main_arg12 m c])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    hrun

end Cert.KernelIdeal.Hand

end
-- ==== Proof.lean ====
/-
  The certificate's claims. The kernel program computes W = 0.1 · tanh(B Cᵀ) + diag(D) on the host, rounds it to
  bf16, and runs one kernel over a [2, 32] grid: point t stores the read-out block k·Wᵀ of rows 256·t … 256·t + 255
  and adds (v − k·Wᵀ)ᵀ k and the column sums of k, over those rows, into two accumulators kept per half of the grid;
  the host then adds the two halves, scales by 2⁻¹⁴ and finishes the update. The reference computes k·Wᵀ, the whole
  gradient ((v − k·Wᵀ)ᵀ k) / 16384 and the mean of k in one piece each.
  Over the extended reals the two agree: rounding is the identity; a sum over the 16384 rows is the sum over the two
  halves of the sum over the 32 points of the sum over the 256 rows of a point, whatever the grouping (addition of
  extended reals is associative and commutative, and adding the accumulator's initial zero changes nothing); and
  multiplying by 2⁻¹⁴ is dividing by 16384, infinities included. Every later host operation is the same operation
  in both programs, applied to these equal values, so the results are equal without opening them, and the
  precondition is never used.
  The three frames: each program runs to the end from any memory and leaves its thirteen argument arrays as launched.
-/
import proofs.«160550_j61804579389940_2_alg».proof.Defs
import proofs.«160550_j61804579389940_2_alg».proof.Proof.K.Body
import proofs.«160550_j61804579389940_2_alg».proof.Proof.K.Args
import proofs.«160550_j61804579389940_2_alg».proof.Proof.KI.Body
import proofs.«160550_j61804579389940_2_alg».proof.Proof.KI.Args
import proofs.«160550_j61804579389940_2_alg».proof.Proof.KI.KRun
import proofs.«160550_j61804579389940_2_alg».proof.Proof.RefRun
import proofs.«160550_j61804579389940_2_alg».proof.Proof.Gen.Pre_finite_inputs
import Idealize.ShloMosaic.Adequacy
import Idealize.ShloMosaic.Init

noncomputable section

namespace Cert.Proof

open Idealize.ShloMosaic Idealize.SL.Sem

/-- The kernel program, at the word level, runs and leaves its arguments unchanged. -/
theorem frame_k : Cert.frame_Kernel := fun m ρ _ =>
  Cert.Kernel.Hand.frame_of m ρ (Cert.Kernel.Hand.dats m) (Cert.Kernel.Hand.A_eq m) (Cert.Kernel.Hand.run_main (F := Bits) m ρ)

/-- The same program read over the extended reals does too. -/
theorem frame_ki : Cert.frame_KernelIdeal := fun m ρ _ =>
  Cert.KernelIdeal.Hand.frame_of m ρ (Cert.KernelIdeal.Hand.dats m) (Cert.KernelIdeal.Hand.A_eq m) (Cert.KernelIdeal.Hand.run_main (F := Ideal) m ρ)

/-- The reference is a straight line of host operations, none of which writes an argument. -/
theorem frame_ri : Cert.frame_ReferenceIdeal := fun m ρ _ => Cert.ReferenceIdeal.RefRun.frame (F := Ideal) m ρ

/-- The idealization rewrote nothing. -/
theorem preserves : Cert.preserves_Kernel_KernelIdeal := trivial

/-- Both programs end at the same functions of arguments that agree. -/
theorem algebraic : Cert.algebraic_KernelIdeal_ReferenceIdeal := by
  intro m ρ m' ρ' _ hagree
  refine ⟨_, _, _, _, _, _, Cert.KernelIdeal.Hand.krun_of m ρ (Cert.KernelIdeal.Hand.run_main (F := Ideal) m ρ), ?_⟩
  refine (θ_run Cert.ReferenceIdeal.defs _ _).mono (fun _ h c => ?_) (Cert.ReferenceIdeal.RefRun.run (F := Ideal) m' ρ')
  obtain ⟨a0, a1, a2, a3, a4, a5, a6, a7, a8, a9, a10, a11, a12⟩ := hagree c
  obtain ⟨r0, r1, r2, r3, r4, r5, rest⟩ := h c
  refine ⟨r0.trans ?_, r1.trans ?_, r2.trans ?_, r3.trans ?_, r4.trans ?_, r5.trans ?_, rest⟩
  all_goals simp only [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
